-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) (main_arg1 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  main_v8
-- ==== Kernel.lean ====
abbrev S16x3x512x512 : Shape := ⟨4, ![16, 3, 512, 512]⟩
abbrev S2x32x16 : Shape := ⟨3, ![2, 32, 16]⟩
abbrev S1x1x512x512 : Shape := ⟨4, ![1, 1, 512, 512]⟩
abbrev S1x32x16 : Shape := ⟨3, ![1, 32, 16]⟩
abbrev S512x512 : Shape := ⟨2, ![512, 512]⟩
abbrev S32x16 : Shape := ⟨2, ![32, 16]⟩
abbrev S32x512 : Shape := ⟨2, ![32, 512]⟩
abbrev S16384 : Shape := ⟨1, ![16384]⟩
abbrev S16384x32 : Shape := ⟨2, ![16384, 32]⟩
abbrev S16384x16 : Shape := ⟨2, ![16384, 16]⟩
abbrev S16384x1 : Shape := ⟨2, ![16384, 1]⟩
abbrev S_ : Shape := ⟨0, ![]⟩
abbrev S512 : Shape := ⟨1, ![512]⟩
abbrev S511 : Shape := ⟨1, ![511]⟩

abbrev nBuf : Space → Nat
  | .hbm => 26
  | .vmem => 13
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S2x32x16, .f32⟩
  | .hbm, ⟨3, _⟩ => ⟨S2x32x16, .f32⟩
  | .hbm, ⟨4, _⟩ => ⟨S2x32x16, .f32⟩
  | .hbm, ⟨5, _⟩ => ⟨S2x32x16, .f32⟩
  | .hbm, ⟨6, _⟩ => ⟨S2x32x16, .i32⟩
  | .hbm, ⟨7, _⟩ => ⟨S_, .i32⟩
  | .hbm, ⟨8, _⟩ => ⟨S32x16, .i32⟩
  | .hbm, ⟨9, _⟩ => ⟨S512, .i32⟩
  | .hbm, ⟨10, _⟩ => ⟨S511, .i32⟩
  | .hbm, ⟨11, _⟩ => ⟨S2x32x16, .i32⟩
  | .hbm, ⟨12, _⟩ => ⟨S_, .i32⟩
  | .hbm, ⟨13, _⟩ => ⟨S32x16, .i32⟩
  | .hbm, ⟨14, _⟩ => ⟨S512, .i32⟩
  | .hbm, ⟨15, _⟩ => ⟨S511, .i32⟩
  | .hbm, ⟨16, _⟩ => ⟨S2x32x16, .i32⟩
  | .hbm, ⟨17, _⟩ => ⟨S_, .i32⟩
  | .hbm, ⟨18, _⟩ => ⟨S32x16, .i32⟩
  | .hbm, ⟨19, _⟩ => ⟨S512, .i32⟩
  | .hbm, ⟨20, _⟩ => ⟨S511, .i32⟩
  | .hbm, ⟨21, _⟩ => ⟨S2x32x16, .i32⟩
  | .hbm, ⟨22, _⟩ => ⟨S_, .i32⟩
  | .hbm, ⟨23, _⟩ => ⟨S32x16, .i32⟩
  | .hbm, ⟨24, _⟩ => ⟨S512, .i32⟩
  | .hbm, ⟨25, _⟩ => ⟨S511, .i32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x32x16, .f32⟩
  | .local _ .vmem, ⟨5, _⟩ => ⟨S1x32x16, .f32⟩
  | .local _ .vmem, ⟨6, _⟩ => ⟨S1x32x16, .f32⟩
  | .local _ .vmem, ⟨7, _⟩ => ⟨S1x32x16, .f32⟩
  | .local _ .vmem, ⟨8, _⟩ => ⟨S1x32x16, .f32⟩
  | .local _ .vmem, ⟨9, _⟩ => ⟨S1x32x16, .f32⟩
  | .local _ .vmem, ⟨10, _⟩ => ⟨S1x32x16, .f32⟩
  | .local _ .vmem, ⟨11, _⟩ => ⟨S1x32x16, .f32⟩
  | .local _ .vmem, ⟨12, _⟩ => ⟨S512x512, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 24], ![false, false]⟩

@[reducible] def k0_t1_loop : Scf.Loop 32 :=
  let c0_i32_15 : BitVec 32 := 0#32
  let c16_i32 : BitVec 32 := 16#32
  let v20 : BitVec 32 := Scalar.addi c0_i32_15 c16_i32
  let c1_i32 : BitVec 32 := 1#32
  ⟨c0_i32_15, v20, c1_i32⟩
def k0_mult1 (k0_t1 : Fin k0_t1_loop.trips) : BitVec 32 :=
  let c0_i32_15 : BitVec 32 := 0#32
  let c1_i32 : BitVec 32 := 1#32
  let arg9 : BitVec 32 := Scf.iv c0_i32_15 c1_i32 k0_t1
  let c32_i32 : BitVec 32 := 32#32
  let v83 : BitVec 32 := Scalar.muli arg9 c32_i32
  v83
def k0_off1 (k0_t1 : Fin k0_t1_loop.trips) : Fin 2 → Nat :=
  let c0_i32_15 : BitVec 32 := 0#32
  let c1_i32 : BitVec 32 := 1#32
  let arg9 : BitVec 32 := Scf.iv c0_i32_15 c1_i32 k0_t1
  let c32_i32 : BitVec 32 := 32#32
  let v83 : BitVec 32 := Scalar.muli arg9 c32_i32
  let v84 : BitVec 32 := v83
  let v85 : Index := Scalar.indexCast v84
  let c0_68 : Index := 0#32
  ![v85.toNat, 0]
@[reducible] def k0_t2_loop : Scf.Loop 32 :=
  let c0_i32_29 : BitVec 32 := 0#32
  let c16_i32_30 : BitVec 32 := 16#32
  let v39 : BitVec 32 := Scalar.addi c0_i32_29 c16_i32_30
  let c1_i32_31 : BitVec 32 := 1#32
  ⟨c0_i32_29, v39, c1_i32_31⟩
def k0_mult2 (k0_t2 : Fin k0_t2_loop.trips) : BitVec 32 :=
  let c0_i32_29 : BitVec 32 := 0#32
  let c1_i32_31 : BitVec 32 := 1#32
  let arg9 : BitVec 32 := Scf.iv c0_i32_29 c1_i32_31 k0_t2
  let c32_i32 : BitVec 32 := 32#32
  let v83 : BitVec 32 := Scalar.muli arg9 c32_i32
  v83
def k0_off2 (k0_t2 : Fin k0_t2_loop.trips) : Fin 2 → Nat :=
  let c0_i32_29 : BitVec 32 := 0#32
  let c1_i32_31 : BitVec 32 := 1#32
  let arg9 : BitVec 32 := Scf.iv c0_i32_29 c1_i32_31 k0_t2
  let c32_i32 : BitVec 32 := 32#32
  let v83 : BitVec 32 := Scalar.muli arg9 c32_i32
  let v84 : BitVec 32 := v83
  let v85 : Index := Scalar.indexCast v84
  let c0_68 : Index := 0#32
  ![v85.toNat, 0]
@[reducible] def k0_t3_loop : Scf.Loop 32 :=
  let c0_i32_45 : BitVec 32 := 0#32
  let c16_i32_46 : BitVec 32 := 16#32
  let v58 : BitVec 32 := Scalar.addi c0_i32_45 c16_i32_46
  let c1_i32_47 : BitVec 32 := 1#32
  ⟨c0_i32_45, v58, c1_i32_47⟩
def k0_mult3 (k0_t3 : Fin k0_t3_loop.trips) : BitVec 32 :=
  let c0_i32_45 : BitVec 32 := 0#32
  let c1_i32_47 : BitVec 32 := 1#32
  let arg9 : BitVec 32 := Scf.iv c0_i32_45 c1_i32_47 k0_t3
  let c32_i32 : BitVec 32 := 32#32
  let v83 : BitVec 32 := Scalar.muli arg9 c32_i32
  v83
def k0_off3 (k0_t3 : Fin k0_t3_loop.trips) : Fin 2 → Nat :=
  let c0_i32_45 : BitVec 32 := 0#32
  let c1_i32_47 : BitVec 32 := 1#32
  let arg9 : BitVec 32 := Scf.iv c0_i32_45 c1_i32_47 k0_t3
  let c32_i32 : BitVec 32 := 32#32
  let v83 : BitVec 32 := Scalar.muli arg9 c32_i32
  let v84 : BitVec 32 := v83
  let v85 : Index := Scalar.indexCast v84
  let c0_68 : Index := 0#32
  ![v85.toNat, 0]
@[reducible] def k0_t4_loop : Scf.Loop 32 :=
  let c0_i32_61 : BitVec 32 := 0#32
  let c16_i32_62 : BitVec 32 := 16#32
  let v77 : BitVec 32 := Scalar.addi c0_i32_61 c16_i32_62
  let c1_i32_63 : BitVec 32 := 1#32
  ⟨c0_i32_61, v77, c1_i32_63⟩
def k0_mult4 (k0_t4 : Fin k0_t4_loop.trips) : BitVec 32 :=
  let c0_i32_61 : BitVec 32 := 0#32
  let c1_i32_63 : BitVec 32 := 1#32
  let arg9 : BitVec 32 := Scf.iv c0_i32_61 c1_i32_63 k0_t4
  let c32_i32 : BitVec 32 := 32#32
  let v83 : BitVec 32 := Scalar.muli arg9 c32_i32
  v83
def k0_off4 (k0_t4 : Fin k0_t4_loop.trips) : Fin 2 → Nat :=
  let c0_i32_61 : BitVec 32 := 0#32
  let c1_i32_63 : BitVec 32 := 1#32
  let arg9 : BitVec 32 := Scf.iv c0_i32_61 c1_i32_63 k0_t4
  let c32_i32 : BitVec 32 := 32#32
  let v83 : BitVec 32 := Scalar.muli arg9 c32_i32
  let v84 : BitVec 32 := v83
  let v85 : Index := Scalar.indexCast v84
  let c0_68 : Index := 0#32
  ![v85.toNat, 0]
def cc0_transform_0 (i : grid0.Coords) : Fin 4 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c3_i32 : BitVec 32 := 3#32
  let v2 : BitVec 32 := Scalar.divsi v1 c3_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c3_i32_4 : BitVec 32 := 3#32
  let c0_i32_5 : BitVec 32 := 0#32
  let v19 : BitVec 1 := Scalar.cmpi .eq c3_i32_4 c0_i32_5
  let c1_i32_6 : BitVec 32 := 1#32
  let v20 : BitVec 32 := Scalar.select v19 c1_i32_6 c3_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  let c0_i32_12 : BitVec 32 := 0#32
  ![v18.toNat, v28.toNat, c0_i32_10.toNat, c0_i32_11.toNat]

def cc0_transform_1 (i : grid0.Coords) : Fin 4 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c3_i32 : BitVec 32 := 3#32
  let v2 : BitVec 32 := Scalar.divsi v1 c3_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c3_i32_4 : BitVec 32 := 3#32
  let c0_i32_5 : BitVec 32 := 0#32
  let v19 : BitVec 1 := Scalar.cmpi .eq c3_i32_4 c0_i32_5
  let c1_i32_6 : BitVec 32 := 1#32
  let v20 : BitVec 32 := Scalar.select v19 c1_i32_6 c3_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  let c0_i32_12 : BitVec 32 := 0#32
  ![v18.toNat, v28.toNat, c0_i32_10.toNat, c0_i32_11.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x32x16_S1x32x16_0_0_0 : ∀ a, (![0, 0, 0] : Fin 3 → Nat) a + S1x32x16.size a ≤ S1x32x16.size a
  h_S1x32x16 : 0 < S1x32x16.numel
  shapeCasts_S1x32x16_S32x16 : S1x32x16.ShapeCasts S32x16
  shapeCasts_S32x16_S1x32x16 : S32x16.ShapeCasts S1x32x16
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  rotates_S512x512_d1 : S512x512.Rotates 1 none
  iota_S512x512_d1_w32 : S512x512.Iotas .tc 32 [1]
  inb_S512x512_S512x512_0_0 : ∀ a, (![0, 0] : Fin 2 → Nat) a + S512x512.size a ≤ S512x512.size a
  h_S512x512 : 0 < S512x512.numel
  shapeCasts_S512x512_S512x512 : S512x512.ShapeCasts S512x512
  h_S32x512 : 0 < S32x512.numel
  shapeCasts_S32x512_S16384 : S32x512.ShapeCasts S16384
  natLt_1_32 : 1 < 32
  iota_S16384x32_d1_w32 : S16384x32.Iotas .tc 32 [1]
  iota_S16384x16_d1_w32 : S16384x16.Iotas .tc 32 [1]
  shapeCasts_S16384_S16384x1 : S16384.ShapeCasts S16384x1
  broadcasts_S16384x1_S16384x32 : S16384x1.Broadcasts S16384x32
  bitsLt_bf16_f32 : FTy.bits .bf16 < FTy.bits .f32
  broadcasts_S16384x1_S16384x16 : S16384x1.Broadcasts S16384x16
  rotates_S512x512_d0 : S512x512.Rotates 0 none
  iota_S512x512_d0_w32 : S512x512.Iotas .tc 32 [0]
  reducesTo_S2x32x16_S32x16_d0 : S2x32x16.ReducesTo [0] S32x16
  h_S_ : 0 < S_.numel
  shapeCasts_S32x16_S512 : S32x16.ShapeCasts S512
  slices_S512_S511_0 : S512.Slices ![0] S511
  dot_S16384x32_S16384x16_S32x16_0_0_1_1_n_n_wf : DotDims.WF S16384x32 S16384x16 S32x16 [0] [0] [1] [1] [] []
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S32x512.size a ≤ S512x512.size a
  k0_t2_ok : k0_t2_loop.OK
  k0_mult2_dvd : ∀ k0_t2 : Fin k0_t2_loop.trips, 32 ∣ (k0_mult2 k0_t2).toNat
  k0_off2_inb : ∀ k0_t2 : Fin k0_t2_loop.trips, ∀ a, (k0_off2 k0_t2) a + S32x512.size a ≤ S512x512.size a
  k0_t3_ok : k0_t3_loop.OK
  k0_mult3_dvd : ∀ k0_t3 : Fin k0_t3_loop.trips, 32 ∣ (k0_mult3 k0_t3).toNat
  k0_off3_inb : ∀ k0_t3 : Fin k0_t3_loop.trips, ∀ a, (k0_off3 k0_t3) a + S32x512.size a ≤ S512x512.size a
  k0_t4_ok : k0_t4_loop.OK
  k0_mult4_dvd : ∀ k0_t4 : Fin k0_t4_loop.trips, 32 ∣ (k0_mult4 k0_t4).toNat
  k0_off4_inb : ∀ k0_t4 : Fin k0_t4_loop.trips, ∀ a, (k0_off4 k0_t4) a + S32x512.size a ≤ S512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S16x3x512x512.size a
  hwx0_0 : ∀ i : grid0.Coords, EltTy.bits .f32 = 32 ∨ (Rect.block (s := S16x3x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S16x3x512x512.size a
  hwx0_1 : ∀ i : grid0.Coords, EltTy.bits .f32 = 32 ∨ (Rect.block (s := S16x3x512x512) S1x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x16.size a ≤ S2x32x16.size a
  hwx0_2 : ∀ i : grid0.Coords, EltTy.bits .f32 = 32 ∨ (Rect.block (s := S2x32x16) S1x32x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x16.size a ≤ S2x32x16.size a
  hwx0_3 : ∀ i : grid0.Coords, EltTy.bits .f32 = 32 ∨ (Rect.block (s := S2x32x16) S1x32x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x16.size a ≤ S2x32x16.size a
  hwx0_4 : ∀ i : grid0.Coords, EltTy.bits .f32 = 32 ∨ (Rect.block (s := S2x32x16) S1x32x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x16.size a ≤ S2x32x16.size a
  hwx0_5 : ∀ i : grid0.Coords, EltTy.bits .f32 = 32 ∨ (Rect.block (s := S2x32x16) S1x32x16.size (cc0_transform_5 i) (hinb0_5 i)).WholeWords (EltTy.packing .f32)

variable [Facts₀]

def dot_S16384x32_S16384x16_S32x16_0_0_1_1_n_n : DotDims S16384x32 S16384x16 S32x16 where
  lhsContracting := [0]
  rhsContracting := [0]
  lhsNonContracting := [1]
  rhsNonContracting := [1]
  lhsBatch := []
  rhsBatch := []
  wf := dot_S16384x32_S16384x16_S32x16_0_0_1_1_n_n_wf

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x32x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x32x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x32x16.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x32x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x3x512x512 : Shape := ⟨4, ![16, 3, 512, 512]⟩
abbrev S16x3x512x511 : Shape := ⟨4, ![16, 3, 512, 511]⟩
abbrev S16x3x511x512 : Shape := ⟨4, ![16, 3, 511, 512]⟩
abbrev S12558336 : Shape := ⟨1, ![12558336]⟩
abbrev S_ : Shape := ⟨0, ![]⟩
abbrev S511 : Shape := ⟨1, ![511]⟩
abbrev S12558336x1 : Shape := ⟨2, ![12558336, 1]⟩

abbrev nBuf : Space → Nat
  | .hbm => 146
  | .vmem => 0
  | .smem => 0
  | _ => 0

abbrev hbmTy0_0 (i : Nat) : BufTy := match i % 128 with
  | 0 => ⟨S16x3x512x512, .f32⟩
  | 1 => ⟨S16x3x512x512, .f32⟩
  | 2 => ⟨S16x3x512x511, .f32⟩
  | 3 => ⟨S16x3x512x511, .f32⟩
  | 4 => ⟨S16x3x512x511, .f32⟩
  | 5 => ⟨S16x3x511x512, .f32⟩
  | 6 => ⟨S16x3x511x512, .f32⟩
  | 7 => ⟨S16x3x511x512, .f32⟩
  | 8 => ⟨S16x3x512x511, .f32⟩
  | 9 => ⟨S16x3x512x511, .f32⟩
  | 10 => ⟨S16x3x512x511, .f32⟩
  | 11 => ⟨S16x3x511x512, .f32⟩
  | 12 => ⟨S16x3x511x512, .f32⟩
  | 13 => ⟨S16x3x511x512, .f32⟩
  | 14 => ⟨S12558336, .f32⟩
  | 15 => ⟨S_, .f32⟩
  | 16 => ⟨S12558336, .f32⟩
  | 17 => ⟨S12558336, .i1⟩
  | 18 => ⟨S_, .f32⟩
  | 19 => ⟨S12558336, .f32⟩
  | 20 => ⟨S12558336, .i1⟩
  | 21 => ⟨S12558336, .i1⟩
  | 22 => ⟨S12558336, .f32⟩
  | 23 => ⟨S12558336, .i32⟩
  | 24 => ⟨S_, .i32⟩
  | 25 => ⟨S12558336, .i32⟩
  | 26 => ⟨S12558336, .i32⟩
  | 27 => ⟨S_, .i32⟩
  | 28 => ⟨S_, .i32⟩
  | 29 => ⟨S_, .i32⟩
  | 30 => ⟨S12558336, .i32⟩
  | 31 => ⟨S12558336, .i32⟩
  | 32 => ⟨S_, .i32⟩
  | 33 => ⟨S12558336, .i32⟩
  | 34 => ⟨S12558336, .i32⟩
  | 35 => ⟨S_, .i32⟩
  | 36 => ⟨S511, .i32⟩
  | 37 => ⟨S12558336, .i32⟩
  | 38 => ⟨S_, .i32⟩
  | 39 => ⟨S12558336, .i32⟩
  | 40 => ⟨S12558336, .i1⟩
  | 41 => ⟨S_, .i32⟩
  | 42 => ⟨S12558336, .i32⟩
  | 43 => ⟨S12558336, .i32⟩
  | 44 => ⟨S12558336, .i32⟩
  | 45 => ⟨S12558336x1, .i32⟩
  | 46 => ⟨S511, .i32⟩
  | 47 => ⟨S12558336, .f32⟩
  | 48 => ⟨S_, .f32⟩
  | 49 => ⟨S12558336, .f32⟩
  | 50 => ⟨S12558336, .i1⟩
  | 51 => ⟨S_, .f32⟩
  | 52 => ⟨S12558336, .f32⟩
  | 53 => ⟨S12558336, .i1⟩
  | 54 => ⟨S12558336, .i1⟩
  | 55 => ⟨S12558336, .f32⟩
  | 56 => ⟨S12558336, .i32⟩
  | 57 => ⟨S_, .i32⟩
  | 58 => ⟨S12558336, .i32⟩
  | 59 => ⟨S12558336, .i32⟩
  | 60 => ⟨S_, .i32⟩
  | 61 => ⟨S_, .i32⟩
  | 62 => ⟨S_, .i32⟩
  | 63 => ⟨S12558336, .i32⟩
  | 64 => ⟨S12558336, .i32⟩
  | 65 => ⟨S_, .i32⟩
  | 66 => ⟨S12558336, .i32⟩
  | 67 => ⟨S12558336, .i32⟩
  | 68 => ⟨S_, .i32⟩
  | 69 => ⟨S511, .i32⟩
  | 70 => ⟨S12558336, .i32⟩
  | 71 => ⟨S_, .i32⟩
  | 72 => ⟨S12558336, .i32⟩
  | 73 => ⟨S12558336, .i1⟩
  | 74 => ⟨S_, .i32⟩
  | 75 => ⟨S12558336, .i32⟩
  | 76 => ⟨S12558336, .i32⟩
  | 77 => ⟨S12558336, .i32⟩
  | 78 => ⟨S12558336x1, .i32⟩
  | 79 => ⟨S511, .i32⟩
  | 80 => ⟨S12558336, .f32⟩
  | 81 => ⟨S_, .f32⟩
  | 82 => ⟨S12558336, .f32⟩
  | 83 => ⟨S12558336, .i1⟩
  | 84 => ⟨S_, .f32⟩
  | 85 => ⟨S12558336, .f32⟩
  | 86 => ⟨S12558336, .i1⟩
  | 87 => ⟨S12558336, .i1⟩
  | 88 => ⟨S12558336, .f32⟩
  | 89 => ⟨S12558336, .i32⟩
  | 90 => ⟨S_, .i32⟩
  | 91 => ⟨S12558336, .i32⟩
  | 92 => ⟨S12558336, .i32⟩
  | 93 => ⟨S_, .i32⟩
  | 94 => ⟨S_, .i32⟩
  | 95 => ⟨S_, .i32⟩
  | 96 => ⟨S12558336, .i32⟩
  | 97 => ⟨S12558336, .i32⟩
  | 98 => ⟨S_, .i32⟩
  | 99 => ⟨S12558336, .i32⟩
  | 100 => ⟨S12558336, .i32⟩
  | 101 => ⟨S_, .i32⟩
  | 102 => ⟨S511, .i32⟩
  | 103 => ⟨S12558336, .i32⟩
  | 104 => ⟨S_, .i32⟩
  | 105 => ⟨S12558336, .i32⟩
  | 106 => ⟨S12558336, .i1⟩
  | 107 => ⟨S_, .i32⟩
  | 108 => ⟨S12558336, .i32⟩
  | 109 => ⟨S12558336, .i32⟩
  | 110 => ⟨S12558336, .i32⟩
  | 111 => ⟨S12558336x1, .i32⟩
  | 112 => ⟨S511, .i32⟩
  | 113 => ⟨S12558336, .f32⟩
  | 114 => ⟨S_, .f32⟩
  | 115 => ⟨S12558336, .f32⟩
  | 116 => ⟨S12558336, .i1⟩
  | 117 => ⟨S_, .f32⟩
  | 118 => ⟨S12558336, .f32⟩
  | 119 => ⟨S12558336, .i1⟩
  | 120 => ⟨S12558336, .i1⟩
  | 121 => ⟨S12558336, .f32⟩
  | 122 => ⟨S12558336, .i32⟩
  | 123 => ⟨S_, .i32⟩
  | 124 => ⟨S12558336, .i32⟩
  | 125 => ⟨S12558336, .i32⟩
  | 126 => ⟨S_, .i32⟩
  | 127 => ⟨S_, .i32⟩
  | _ => ⟨S16x3x512x512, .f32⟩

abbrev hbmTy0_1 (i : Nat) : BufTy := match i % 128 with
  | 0 => ⟨S_, .i32⟩
  | 1 => ⟨S12558336, .i32⟩
  | 2 => ⟨S12558336, .i32⟩
  | 3 => ⟨S_, .i32⟩
  | 4 => ⟨S12558336, .i32⟩
  | 5 => ⟨S12558336, .i32⟩
  | 6 => ⟨S_, .i32⟩
  | 7 => ⟨S511, .i32⟩
  | 8 => ⟨S12558336, .i32⟩
  | 9 => ⟨S_, .i32⟩
  | 10 => ⟨S12558336, .i32⟩
  | 11 => ⟨S12558336, .i1⟩
  | 12 => ⟨S_, .i32⟩
  | 13 => ⟨S12558336, .i32⟩
  | 14 => ⟨S12558336, .i32⟩
  | 15 => ⟨S12558336, .i32⟩
  | 16 => ⟨S12558336x1, .i32⟩
  | 17 => ⟨S511, .i32⟩
  | _ => ⟨S16x3x512x512, .f32⟩

abbrev hbmTy (i : Nat) : BufTy := match i / 128 with
  | 0 => hbmTy0_0 i
  | 1 => hbmTy0_1 i
  | _ => ⟨S16x3x512x512, .f32⟩

abbrev bufTy : (tb : Table) → Fin (tcTables nBuf tb) → BufTy
  | .hbm, ⟨i, _⟩ => hbmTy i
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c : Ref sig .tc := ⟨.hbm, 24, rfl⟩
abbrev main_v20 : Ref sig .tc := ⟨.hbm, 25, rfl⟩
abbrev main_v21 : Ref sig .tc := ⟨.hbm, 26, rfl⟩
abbrev main_c_1 : Ref sig .tc := ⟨.hbm, 27, rfl⟩
abbrev main_c_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_8 : Ref sig .tc := ⟨.hbm, 57, rfl⟩
abbrev main_v40 : Ref sig .tc := ⟨.hbm, 58, rfl⟩
abbrev main_v41 : Ref sig .tc := ⟨.hbm, 59, rfl⟩
abbrev main_c_9 : Ref sig .tc := ⟨.hbm, 60, rfl⟩
abbrev main_c_10 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_c_12 : Ref sig .tc := ⟨.hbm, 71, rfl⟩
abbrev main_v45 : Ref sig .tc := ⟨.hbm, 72, rfl⟩
abbrev main_v46 : Ref sig .tc := ⟨.hbm, 73, rfl⟩
abbrev main_c_13 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_14 : Ref sig .tc := ⟨.hbm, 81, rfl⟩
abbrev main_v53 : Ref sig .tc := ⟨.hbm, 82, rfl⟩
abbrev main_v54 : Ref sig .tc := ⟨.hbm, 83, rfl⟩
abbrev main_cst_15 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_16 : Ref sig .tc := ⟨.hbm, 90, rfl⟩
abbrev main_v60 : Ref sig .tc := ⟨.hbm, 91, rfl⟩
abbrev main_v61 : Ref sig .tc := ⟨.hbm, 92, rfl⟩
abbrev main_c_17 : Ref sig .tc := ⟨.hbm, 93, rfl⟩
abbrev main_c_18 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_v62 : Ref sig .tc := ⟨.hbm, 100, rfl⟩
abbrev main_c_19 : Ref sig .tc := ⟨.hbm, 101, rfl⟩
abbrev main_v63 : Ref sig .tc := ⟨.hbm, 102, rfl⟩
abbrev main_v64 : Ref sig .tc := ⟨.hbm, 103, rfl⟩
abbrev main_c_20 : Ref sig .tc := ⟨.hbm, 104, rfl⟩
abbrev main_v65 : Ref sig .tc := ⟨.hbm, 105, rfl⟩
abbrev main_v66 : Ref sig .tc := ⟨.hbm, 106, rfl⟩
abbrev main_c_21 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_22 : Ref sig .tc := ⟨.hbm, 114, rfl⟩
abbrev main_v73 : Ref sig .tc := ⟨.hbm, 115, rfl⟩
abbrev main_v74 : Ref sig .tc := ⟨.hbm, 116, rfl⟩
abbrev main_cst_23 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_c_24 : Ref sig .tc := ⟨.hbm, 123, rfl⟩
abbrev main_v80 : Ref sig .tc := ⟨.hbm, 124, rfl⟩
abbrev main_v81 : Ref sig .tc := ⟨.hbm, 125, rfl⟩
abbrev main_c_25 : Ref sig .tc := ⟨.hbm, 126, rfl⟩
abbrev main_c_26 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_v82 : Ref sig .tc := ⟨.hbm, 133, rfl⟩
abbrev main_c_27 : Ref sig .tc := ⟨.hbm, 134, rfl⟩
abbrev main_v83 : Ref sig .tc := ⟨.hbm, 135, rfl⟩
abbrev main_v84 : Ref sig .tc := ⟨.hbm, 136, rfl⟩
abbrev main_c_28 : Ref sig .tc := ⟨.hbm, 137, rfl⟩
abbrev main_v85 : Ref sig .tc := ⟨.hbm, 138, rfl⟩
abbrev main_v86 : Ref sig .tc := ⟨.hbm, 139, rfl⟩
abbrev main_c_29 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩

abbrev nD : Nat := 1
abbrev τ : Topo := Topo.v7x

variable {F : FTy → Type} [FloatOps F]

class Facts₀ : Prop where
  slices_S16x3x512x512_S16x3x512x511_0_0_0_1 : S16x3x512x512.Slices ![0, 0, 0, 1] S16x3x512x511
  slices_S16x3x512x512_S16x3x512x511_0_0_0_0 : S16x3x512x512.Slices ![0, 0, 0, 0] S16x3x512x511
  slices_S16x3x512x512_S16x3x511x512_0_0_1_0 : S16x3x512x512.Slices ![0, 0, 1, 0] S16x3x511x512
  slices_S16x3x512x512_S16x3x511x512_0_0_0_0 : S16x3x512x512.Slices ![0, 0, 0, 0] S16x3x511x512
  shapeCasts_S16x3x512x511_S12558336 : S16x3x512x511.ShapeCasts S12558336
  bcast_S_S12558336 : S_.BroadcastsInDim S12558336 (![] : Fin 0 → Fin S12558336.rank)
  bcast_S_S511 : S_.BroadcastsInDim S511 (![] : Fin 0 → Fin S511.rank)
  natLt_1_32 : 1 < 32
  bcast_S12558336_S12558336x1_0 : S12558336.BroadcastsInDim S12558336x1 (![0] : Fin 1 → Fin S12558336x1.rank)
  shapeCasts_S16x3x511x512_S12558336 : S16x3x511x512.ShapeCasts S12558336
  scatter_S511_S12558336x1_S12558336_n_0_0_1_wf : ScatterDims.WF S511 S12558336x1 S12558336 [] [0] [0] 1

variable [Facts₀]

def scatter_S511_S12558336x1_S12558336_n_0_0_1 : ScatterDims S511 S12558336x1 S12558336 where
  updateWindowDims := []
  insertedWindowDims := [0]
  scatterDimsToOperandDims := [0]
  indexVectorDim := 1
  wf := scatter_S511_S12558336x1_S12558336_n_0_0_1_wf

class Facts : Prop extends Facts₀ where

variable [Facts]
-- ==== Proof.KernelBody.lean ====
/-
  What the kernel body leaves in its four histogram blocks at one grid point.

  Each histogram is accumulated by a counted loop over the sixteen 32-row blocks of a 512 × 512 gradient array held in a
  scratch buffer: a trip loads one block, computes the bin number of each of its 16384 elements and the two digits of
  that number, and adds the product of the two one-hot matrices to the carried 32 × 16 array.  Here the loop's carried
  value is read back as a recursion over the row blocks of the gradient array (`partialHist`), and what the body stores
  in an output block as that recursion's value after sixteen trips added to the block's earlier contents (the zero
  block at the first point of a core).
-/
import proofs.«149441_j23536420782150_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Rows 32k … 32k + 31 of a 512 × 512 array, as a 32 × 512 block. -/
def chunk (G : FVec F S512x512 .f32) (k : ℕ) : Vec F S32x512 .f32 :=
  fun y => G (fun a => match a with
    | ⟨0, _⟩ => ⟨(32 * k + (y 0).val) % 512, Nat.mod_lt _ (by decide)⟩
    | ⟨1, _⟩ => ⟨(y 1).val, (y 1).isLt⟩)

/-- The histogram of the first `n` row blocks of `G`: the zero array, then one block's one-hot product added per step. -/
def partialHist (G : FVec F S512x512 .f32) : ℕ → FVec F S32x16 .f32
  | 0 => k0_pay22
  | n + 1 => k0_pay23 (partialHist G n) (k0_pay7 (chunk G n)) (k0_pay8 (chunk G n))

/-! The four copies of the body's terms are one term each. -/
theorem init2_eq : @k0_pay27 F _ = k0_pay22 := rfl
theorem init3_eq : @k0_pay32 F _ = k0_pay22 := rfl
theorem init4_eq : @k0_pay4 F _ = k0_pay22 := rfl
theorem body2_eq : @k0_pay28 F _ = k0_pay23 := rfl
theorem body3_eq : @k0_pay1 F _ = k0_pay23 := rfl
theorem body4_eq : @k0_pay5 F _ = k0_pay23 := rfl
theorem codeA2_eq : @k0_pay9 F _ = k0_pay7 := rfl
theorem codeA3_eq : @k0_pay11 F _ = k0_pay7 := rfl
theorem codeA4_eq : @k0_pay13 F _ = k0_pay7 := rfl
theorem codeB2_eq : @k0_pay10 F _ = k0_pay8 := rfl
theorem codeB3_eq : @k0_pay12 F _ = k0_pay8 := rfl
theorem codeB4_eq : @k0_pay14 F _ = k0_pay8 := rfl

/-! ### The loop of output 2 -/

theorem trips1 : k0_t1_loop.trips = 16 := by decide +kernel

theorem off1_eq : ∀ (k : Fin k0_t1_loop.trips) (a : Fin 2), k0_off1 k a = (![32 * k.val, 0] : Fin 2 → Nat) a := by decide +kernel

/-- The block a trip loads from the scratch array, when the array's last whole store wrote `G`: rows 32k … 32k + 31 of `G`. -/
theorem load_chunk1 (arg8 : Memref sig .tc .vmem S512x512 .f32) (G : FVec F S512x512 .f32)
    (rest : List (View.Piece (Elt F) S512x512 .f32)) (k : Fin k0_t1_loop.trips) :
    View.readAt (Elt F) arg8.view (Rect.unit (s := S512x512) (k0_off1 k) S32x512.size (k0_off1_inb k)).toLoadRect
        (arg8.view.writes (Elt F) arg8.view.junk (⟨Rect.unit ![0, 0] S512x512.size inb_S512x512_S512x512_0_0, G⟩ :: rest))
      = chunk G k.val := by
  rw [View.readAt_writes_junk_eq_canon]
  funext y
  rw [View.canon_cons_unit_zero hz2]
  unfold chunk
  congr 1
  funext a
  apply Fin.ext
  have hk : k.val < 16 := lt_of_lt_of_eq k.isLt trips1
  have h0 : (y 0).val < 32 := (y 0).isLt
  match a with
  | ⟨0, _⟩ =>
    show k0_off1 k 0 + 1 * (y 0).val = (32 * k.val + (y 0).val) % 512
    rw [off1_eq k 0]
    show 32 * k.val + 1 * (y 0).val = _
    omega
  | ⟨1, _⟩ =>
    show k0_off1 k 1 + 1 * (y 1).val = (y 1).val
    rw [off1_eq k 1]
    show 0 + 1 * (y 1).val = _
    omega

/-- One trip adds the one-hot product of the loaded block's bin numbers to the carried histogram. -/
theorem tripR1_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (arg8 : Memref sig .tc .vmem S512x512 .f32) (harg8 : arg8.IsWhole)
    (X : BufTy.Contents (Elt F) arg8.view.ty) (k : Fin k0_t1_loop.trips) (acc : FVec F S32x16 .f32) :
    tripR_k0_t1 (F := F) Variants.none c none i arg2 harg2 arg3 harg3 arg4 harg4 arg5 harg5 arg6 harg6 arg7 harg7 arg8 harg8 X k acc
      = k0_pay23 acc
          (k0_pay7 (View.readAt (Elt F) arg8.view (Rect.unit (s := S512x512) (k0_off1 k) S32x512.size (k0_off1_inb k)).toLoadRect X))
          (k0_pay8 (View.readAt (Elt F) arg8.view (Rect.unit (s := S512x512) (k0_off1 k) S32x512.size (k0_off1_inb k)).toLoadRect X)) := by
  unfold tripR_k0_t1 trip_k0_t1
  dsimp only
  sl_unfold_words
  rfl

/-- The carried histogram before trip `n` is the partial histogram of the first `n` row blocks of `G`. -/
theorem st1_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (arg8 : Memref sig .tc .vmem S512x512 .f32) (harg8 : arg8.IsWhole)
    (X : BufTy.Contents (Elt F) arg8.view.ty) (G : FVec F S512x512 .f32)
    (hX : ∀ k : Fin k0_t1_loop.trips, View.readAt (Elt F) arg8.view (Rect.unit (s := S512x512) (k0_off1 k) S32x512.size (k0_off1_inb k)).toLoadRect X = chunk G k.val) :
    ∀ n : ℕ, n ≤ 16 → st_k0_t1 (F := F) Variants.none c none i arg2 harg2 arg3 harg3 arg4 harg4 arg5 harg5 arg6 harg6 arg7 harg7 arg8 harg8 X k0_pay22 n = partialHist G n
  | 0, _ => rfl
  | n + 1, hn => by
    have hlt : n < k0_t1_loop.trips := by rw [trips1]; omega
    have hs := st_k0_t1_succ (F := F) Variants.none c none i arg2 harg2 arg3 harg3 arg4 harg4 arg5 harg5 arg6 harg6 arg7 harg7 arg8 harg8 X k0_pay22 ⟨n, hlt⟩
    rw [show st_k0_t1 (F := F) Variants.none c none i arg2 harg2 arg3 harg3 arg4 harg4 arg5 harg5 arg6 harg6 arg7 harg7 arg8 harg8 X k0_pay22 (n + 1)
        = tripR_k0_t1 (F := F) Variants.none c none i arg2 harg2 arg3 harg3 arg4 harg4 arg5 harg5 arg6 harg6 arg7 harg7 arg8 harg8 X ⟨n, hlt⟩ (st_k0_t1 (F := F) Variants.none c none i arg2 harg2 arg3 harg3 arg4 harg4 arg5 harg5 arg6 harg6 arg7 harg7 arg8 harg8 X k0_pay22 n) from hs,
      tripR1_eq, st1_eq c i arg2 harg2 arg3 harg3 arg4 harg4 arg5 harg5 arg6 harg6 arg7 harg7 arg8 harg8 X G hX n (by omega), hX ⟨n, hlt⟩]
    rfl

/-! ### The loop of output 3 -/

theorem trips2 : k0_t2_loop.trips = 16 := by decide +kernel

theorem off2_eq : ∀ (k : Fin k0_t2_loop.trips) (a : Fin 2), k0_off2 k a = (![32 * k.val, 0] : Fin 2 → Nat) a := by decide +kernel

/-- The block a trip loads from the scratch array, when the array's last whole store wrote `G`: rows 32k … 32k + 31 of `G`. -/
theorem load_chunk2 (arg8 : Memref sig .tc .vmem S512x512 .f32) (G : FVec F S512x512 .f32)
    (rest : List (View.Piece (Elt F) S512x512 .f32)) (k : Fin k0_t2_loop.trips) :
    View.readAt (Elt F) arg8.view (Rect.unit (s := S512x512) (k0_off2 k) S32x512.size (k0_off2_inb k)).toLoadRect
        (arg8.view.writes (Elt F) arg8.view.junk (⟨Rect.unit ![0, 0] S512x512.size inb_S512x512_S512x512_0_0, G⟩ :: rest))
      = chunk G k.val := by
  rw [View.readAt_writes_junk_eq_canon]
  funext y
  rw [View.canon_cons_unit_zero hz2]
  unfold chunk
  congr 1
  funext a
  apply Fin.ext
  have hk : k.val < 16 := lt_of_lt_of_eq k.isLt trips2
  have h0 : (y 0).val < 32 := (y 0).isLt
  match a with
  | ⟨0, _⟩ =>
    show k0_off2 k 0 + 1 * (y 0).val = (32 * k.val + (y 0).val) % 512
    rw [off2_eq k 0]
    show 32 * k.val + 1 * (y 0).val = _
    omega
  | ⟨1, _⟩ =>
    show k0_off2 k 1 + 1 * (y 1).val = (y 1).val
    rw [off2_eq k 1]
    show 0 + 1 * (y 1).val = _
    omega

/-- One trip adds the one-hot product of the loaded block's bin numbers to the carried histogram. -/
theorem tripR2_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (arg8 : Memref sig .tc .vmem S512x512 .f32) (harg8 : arg8.IsWhole) (v6 v27 : FVec F S512x512 .f32)
    (X : BufTy.Contents (Elt F) arg8.view.ty) (k : Fin k0_t2_loop.trips) (acc : FVec F S32x16 .f32) :
    tripR_k0_t2 (F := F) Variants.none c none i arg2 harg2 arg3 harg3 arg4 harg4 arg5 harg5 arg6 harg6 arg7 harg7 arg8 harg8 v6 v27 X k acc
      = k0_pay23 acc
          (k0_pay7 (View.readAt (Elt F) arg8.view (Rect.unit (s := S512x512) (k0_off2 k) S32x512.size (k0_off2_inb k)).toLoadRect X))
          (k0_pay8 (View.readAt (Elt F) arg8.view (Rect.unit (s := S512x512) (k0_off2 k) S32x512.size (k0_off2_inb k)).toLoadRect X)) := by
  unfold tripR_k0_t2 trip_k0_t2
  dsimp only
  sl_unfold_words
  rfl

/-- The carried histogram before trip `n` is the partial histogram of the first `n` row blocks of `G`. -/
theorem st2_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (arg8 : Memref sig .tc .vmem S512x512 .f32) (harg8 : arg8.IsWhole) (v6 v27 : FVec F S512x512 .f32)
    (X : BufTy.Contents (Elt F) arg8.view.ty) (G : FVec F S512x512 .f32)
    (hX : ∀ k : Fin k0_t2_loop.trips, View.readAt (Elt F) arg8.view (Rect.unit (s := S512x512) (k0_off2 k) S32x512.size (k0_off2_inb k)).toLoadRect X = chunk G k.val) :
    ∀ n : ℕ, n ≤ 16 → st_k0_t2 (F := F) Variants.none c none i arg2 harg2 arg3 harg3 arg4 harg4 arg5 harg5 arg6 harg6 arg7 harg7 arg8 harg8 v6 v27 X k0_pay22 n = partialHist G n
  | 0, _ => rfl
  | n + 1, hn => by
    have hlt : n < k0_t2_loop.trips := by rw [trips2]; omega
    have hs := st_k0_t2_succ (F := F) Variants.none c none i arg2 harg2 arg3 harg3 arg4 harg4 arg5 harg5 arg6 harg6 arg7 harg7 arg8 harg8 v6 v27 X k0_pay22 ⟨n, hlt⟩
    rw [show st_k0_t2 (F := F) Variants.none c none i arg2 harg2 arg3 harg3 arg4 harg4 arg5 harg5 arg6 harg6 arg7 harg7 arg8 harg8 v6 v27 X k0_pay22 (n + 1)
        = tripR_k0_t2 (F := F) Variants.none c none i arg2 harg2 arg3 harg3 arg4 harg4 arg5 harg5 arg6 harg6 arg7 harg7 arg8 harg8 v6 v27 X ⟨n, hlt⟩ (st_k0_t2 (F := F) Variants.none c none i arg2 harg2 arg3 harg3 arg4 harg4 arg5 harg5 arg6 harg6 arg7 harg7 arg8 harg8 v6 v27 X k0_pay22 n) from hs,
      tripR2_eq, st2_eq c i arg2 harg2 arg3 harg3 arg4 harg4 arg5 harg5 arg6 harg6 arg7 harg7 arg8 harg8 v6 v27 X G hX n (by omega), hX ⟨n, hlt⟩]
    rfl

/-! ### The loop of output 4 -/

theorem trips3 : k0_t3_loop.trips = 16 := by decide +kernel

theorem off3_eq : ∀ (k : Fin k0_t3_loop.trips) (a : Fin 2), k0_off3 k a = (![32 * k.val, 0] : Fin 2 → Nat) a := by decide +kernel

/-- The block a trip loads from the scratch array, when the array's last whole store wrote `G`: rows 32k … 32k + 31 of `G`. -/
theorem load_chunk3 (arg8 : Memref sig .tc .vmem S512x512 .f32) (G : FVec F S512x512 .f32)
    (rest : List (View.Piece (Elt F) S512x512 .f32)) (k : Fin k0_t3_loop.trips) :
    View.readAt (Elt F) arg8.view (Rect.unit (s := S512x512) (k0_off3 k) S32x512.size (k0_off3_inb k)).toLoadRect
        (arg8.view.writes (Elt F) arg8.view.junk (⟨Rect.unit ![0, 0] S512x512.size inb_S512x512_S512x512_0_0, G⟩ :: rest))
      = chunk G k.val := by
  rw [View.readAt_writes_junk_eq_canon]
  funext y
  rw [View.canon_cons_unit_zero hz2]
  unfold chunk
  congr 1
  funext a
  apply Fin.ext
  have hk : k.val < 16 := lt_of_lt_of_eq k.isLt trips3
  have h0 : (y 0).val < 32 := (y 0).isLt
  match a with
  | ⟨0, _⟩ =>
    show k0_off3 k 0 + 1 * (y 0).val = (32 * k.val + (y 0).val) % 512
    rw [off3_eq k 0]
    show 32 * k.val + 1 * (y 0).val = _
    omega
  | ⟨1, _⟩ =>
    show k0_off3 k 1 + 1 * (y 1).val = (y 1).val
    rw [off3_eq k 1]
    show 0 + 1 * (y 1).val = _
    omega

/-- One trip adds the one-hot product of the loaded block's bin numbers to the carried histogram. -/
theorem tripR3_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (arg8 : Memref sig .tc .vmem S512x512 .f32) (harg8 : arg8.IsWhole) (z : BitVec 32)
    (X : BufTy.Contents (Elt F) arg8.view.ty) (k : Fin k0_t3_loop.trips) (acc : FVec F S32x16 .f32) :
    tripR_k0_t3 (F := F) Variants.none c none i arg2 harg2 arg3 harg3 arg4 harg4 arg5 harg5 arg6 harg6 arg7 harg7 arg8 harg8 z X k acc
      = k0_pay23 acc
          (k0_pay7 (View.readAt (Elt F) arg8.view (Rect.unit (s := S512x512) (k0_off3 k) S32x512.size (k0_off3_inb k)).toLoadRect X))
          (k0_pay8 (View.readAt (Elt F) arg8.view (Rect.unit (s := S512x512) (k0_off3 k) S32x512.size (k0_off3_inb k)).toLoadRect X)) := by
  unfold tripR_k0_t3 trip_k0_t3
  dsimp only
  sl_unfold_words
  rfl

/-- The carried histogram before trip `n` is the partial histogram of the first `n` row blocks of `G`. -/
theorem st3_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (arg8 : Memref sig .tc .vmem S512x512 .f32) (harg8 : arg8.IsWhole) (z : BitVec 32)
    (X : BufTy.Contents (Elt F) arg8.view.ty) (G : FVec F S512x512 .f32)
    (hX : ∀ k : Fin k0_t3_loop.trips, View.readAt (Elt F) arg8.view (Rect.unit (s := S512x512) (k0_off3 k) S32x512.size (k0_off3_inb k)).toLoadRect X = chunk G k.val) :
    ∀ n : ℕ, n ≤ 16 → st_k0_t3 (F := F) Variants.none c none i arg2 harg2 arg3 harg3 arg4 harg4 arg5 harg5 arg6 harg6 arg7 harg7 arg8 harg8 z X k0_pay22 n = partialHist G n
  | 0, _ => rfl
  | n + 1, hn => by
    have hlt : n < k0_t3_loop.trips := by rw [trips3]; omega
    have hs := st_k0_t3_succ (F := F) Variants.none c none i arg2 harg2 arg3 harg3 arg4 harg4 arg5 harg5 arg6 harg6 arg7 harg7 arg8 harg8 z X k0_pay22 ⟨n, hlt⟩
    rw [show st_k0_t3 (F := F) Variants.none c none i arg2 harg2 arg3 harg3 arg4 harg4 arg5 harg5 arg6 harg6 arg7 harg7 arg8 harg8 z X k0_pay22 (n + 1)
        = tripR_k0_t3 (F := F) Variants.none c none i arg2 harg2 arg3 harg3 arg4 harg4 arg5 harg5 arg6 harg6 arg7 harg7 arg8 harg8 z X ⟨n, hlt⟩ (st_k0_t3 (F := F) Variants.none c none i arg2 harg2 arg3 harg3 arg4 harg4 arg5 harg5 arg6 harg6 arg7 harg7 arg8 harg8 z X k0_pay22 n) from hs,
      tripR3_eq, st3_eq c i arg2 harg2 arg3 harg3 arg4 harg4 arg5 harg5 arg6 harg6 arg7 harg7 arg8 harg8 z X G hX n (by omega), hX ⟨n, hlt⟩]
    rfl

/-! ### The loop of output 5 -/

theorem trips4 : k0_t4_loop.trips = 16 := by decide +kernel

theorem off4_eq : ∀ (k : Fin k0_t4_loop.trips) (a : Fin 2), k0_off4 k a = (![32 * k.val, 0] : Fin 2 → Nat) a := by decide +kernel

/-- The block a trip loads from the scratch array, when the array's last whole store wrote `G`: rows 32k … 32k + 31 of `G`. -/
theorem load_chunk4 (arg8 : Memref sig .tc .vmem S512x512 .f32) (G : FVec F S512x512 .f32)
    (rest : List (View.Piece (Elt F) S512x512 .f32)) (k : Fin k0_t4_loop.trips) :
    View.readAt (Elt F) arg8.view (Rect.unit (s := S512x512) (k0_off4 k) S32x512.size (k0_off4_inb k)).toLoadRect
        (arg8.view.writes (Elt F) arg8.view.junk (⟨Rect.unit ![0, 0] S512x512.size inb_S512x512_S512x512_0_0, G⟩ :: rest))
      = chunk G k.val := by
  rw [View.readAt_writes_junk_eq_canon]
  funext y
  rw [View.canon_cons_unit_zero hz2]
  unfold chunk
  congr 1
  funext a
  apply Fin.ext
  have hk : k.val < 16 := lt_of_lt_of_eq k.isLt trips4
  have h0 : (y 0).val < 32 := (y 0).isLt
  match a with
  | ⟨0, _⟩ =>
    show k0_off4 k 0 + 1 * (y 0).val = (32 * k.val + (y 0).val) % 512
    rw [off4_eq k 0]
    show 32 * k.val + 1 * (y 0).val = _
    omega
  | ⟨1, _⟩ =>
    show k0_off4 k 1 + 1 * (y 1).val = (y 1).val
    rw [off4_eq k 1]
    show 0 + 1 * (y 1).val = _
    omega

/-- One trip adds the one-hot product of the loaded block's bin numbers to the carried histogram. -/
theorem tripR4_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (arg8 : Memref sig .tc .vmem S512x512 .f32) (harg8 : arg8.IsWhole)
    (X : BufTy.Contents (Elt F) arg8.view.ty) (k : Fin k0_t4_loop.trips) (acc : FVec F S32x16 .f32) :
    tripR_k0_t4 (F := F) Variants.none c none i arg2 harg2 arg3 harg3 arg4 harg4 arg5 harg5 arg6 harg6 arg7 harg7 arg8 harg8 X k acc
      = k0_pay23 acc
          (k0_pay7 (View.readAt (Elt F) arg8.view (Rect.unit (s := S512x512) (k0_off4 k) S32x512.size (k0_off4_inb k)).toLoadRect X))
          (k0_pay8 (View.readAt (Elt F) arg8.view (Rect.unit (s := S512x512) (k0_off4 k) S32x512.size (k0_off4_inb k)).toLoadRect X)) := by
  unfold tripR_k0_t4 trip_k0_t4
  dsimp only
  sl_unfold_words
  rfl

/-- The carried histogram before trip `n` is the partial histogram of the first `n` row blocks of `G`. -/
theorem st4_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (arg8 : Memref sig .tc .vmem S512x512 .f32) (harg8 : arg8.IsWhole)
    (X : BufTy.Contents (Elt F) arg8.view.ty) (G : FVec F S512x512 .f32)
    (hX : ∀ k : Fin k0_t4_loop.trips, View.readAt (Elt F) arg8.view (Rect.unit (s := S512x512) (k0_off4 k) S32x512.size (k0_off4_inb k)).toLoadRect X = chunk G k.val) :
    ∀ n : ℕ, n ≤ 16 → st_k0_t4 (F := F) Variants.none c none i arg2 harg2 arg3 harg3 arg4 harg4 arg5 harg5 arg6 harg6 arg7 harg7 arg8 harg8 X k0_pay22 n = partialHist G n
  | 0, _ => rfl
  | n + 1, hn => by
    have hlt : n < k0_t4_loop.trips := by rw [trips4]; omega
    have hs := st_k0_t4_succ (F := F) Variants.none c none i arg2 harg2 arg3 harg3 arg4 harg4 arg5 harg5 arg6 harg6 arg7 harg7 arg8 harg8 X k0_pay22 ⟨n, hlt⟩
    rw [show st_k0_t4 (F := F) Variants.none c none i arg2 harg2 arg3 harg3 arg4 harg4 arg5 harg5 arg6 harg6 arg7 harg7 arg8 harg8 X k0_pay22 (n + 1)
        = tripR_k0_t4 (F := F) Variants.none c none i arg2 harg2 arg3 harg3 arg4 harg4 arg5 harg5 arg6 harg6 arg7 harg7 arg8 harg8 X ⟨n, hlt⟩ (st_k0_t4 (F := F) Variants.none c none i arg2 harg2 arg3 harg3 arg4 harg4 arg5 harg5 arg6 harg6 arg7 harg7 arg8 harg8 X k0_pay22 n) from hs,
      tripR4_eq, st4_eq c i arg2 harg2 arg3 harg3 arg4 harg4 arg5 harg5 arg6 harg6 arg7 harg7 arg8 harg8 X G hX n (by omega), hX ⟨n, hlt⟩]
    rfl

/-! ### What is stored -/

/-- A staged image block as a 512 × 512 array. -/
abbrev img (x : Vec F S1x1x512x512 .f32) : FVec F S512x512 .f32 := k0_pay19 x

/-- The forward difference along the columns, the last column given the sentinel. -/
abbrev gradX (v : FVec F S512x512 .f32) : FVec F S512x512 .f32 := k0_pay30 v

/-- The forward difference along the rows, the last row given the sentinel. -/
abbrev gradY (v : FVec F S512x512 .f32) : FVec F S512x512 .f32 := k0_pay3 v

/-- An output block's new contents: its old contents plus the loop's histogram. -/
abbrev accOut (xo : Vec F S1x32x16 .f32) (h : FVec F S32x16 .f32) : Vec F S1x32x16 .f32 := k0_pay24 xo h

/-- The zero block the first point of a core stores. -/
abbrev zeroBlk : Vec F S1x32x16 .f32 := k0_pay15

/-- At a point that is not the first of its core the body leaves in output 2's block its earlier contents plus the
    histogram of the sixteen row blocks of the gradient array. -/
theorem out_B_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (arg8 : Memref sig .tc .vmem S512x512 .f32) (harg8 : arg8.IsWhole) (hc0 : ¬cond0_0 i)
    (x0 x1 : Vec F S1x1x512x512 .f32) (xo2 xo3 xo4 xo5 : Vec F S1x32x16 .f32) :
    out0_B_2 c i arg2 harg2 arg3 harg3 arg4 harg4 arg5 harg5 arg6 harg6 arg7 harg7 arg8 harg8 hc0 x0 x1 xo2 xo3 xo4 xo5 = accOut xo2 (partialHist (gradX (img x0)) 16) := by
  unfold out0_B_2
  rw [View.read_writes_eq_canon _ _ _ (cover0_B_2 c i arg2 harg2 arg3 harg3 arg4 harg4 arg5 harg5 arg6 harg6 arg7 harg7 arg8 harg8 hc0 x0 x1 xo2 xo3 xo4 xo5)]
  unfold kernelRun0_B
  dsimp only
  sl_unfold_words
  rw [View.canon_unit_zero hz3]
  simp only [View.readAt_eq_ld, harg4.read_unread, harg2.read_unread, harg3.read_unread,
    View.ld_unit_zero (S := S1x32x16) hz3, View.ld_unit_zero (S := S1x1x512x512) hz4, trips1]
  rw [show Scf.trips k0_t1_loop.lb k0_t1_loop.ub k0_t1_loop.st = 16 from trips1]
  exact (congrArg (k0_pay24 xo2) (st1_eq c i arg2 harg2 arg3 harg3 arg4 harg4 arg5 harg5 arg6 harg6 arg7 harg7 arg8 harg8 _ (gradX (img x0)) (fun k => load_chunk1 arg8 (gradX (img x0)) _ k) 16 (le_refl _))).trans rfl

/-- At the first point of a core the body zeroes output 2's block first, so it leaves the histogram of the gradient
    array added to the zero block. -/
theorem out_A_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (arg8 : Memref sig .tc .vmem S512x512 .f32) (harg8 : arg8.IsWhole) (hc0 : cond0_0 i)
    (x0 x1 : Vec F S1x1x512x512 .f32) :
    out0_A_2 c i arg2 harg2 arg3 harg3 arg4 harg4 arg5 harg5 arg6 harg6 arg7 harg7 arg8 harg8 hc0 x0 x1 = accOut zeroBlk (partialHist (gradX (img x0)) 16) := by
  unfold out0_A_2
  rw [View.read_writes_eq_canon _ _ _ (cover0_A_2 c i arg2 harg2 arg3 harg3 arg4 harg4 arg5 harg5 arg6 harg6 arg7 harg7 arg8 harg8 hc0 x0 x1)]
  unfold kernelRun0_A
  dsimp only
  sl_unfold_words
  rw [View.canon_cons_unit_zero (S := S1x32x16) hz3, View.readCov_unit_zero (S := S1x32x16) _ hz3]
  simp only [View.readAt_eq_ld, harg2.read_unread, harg3.read_unread,
    View.ld_unit_zero (S := S1x1x512x512) hz4, trips1]
  rw [show Scf.trips k0_t1_loop.lb k0_t1_loop.ub k0_t1_loop.st = 16 from trips1]
  exact (congrArg (k0_pay24 k0_pay15) (st1_eq c i arg2 harg2 arg3 harg3 arg4 harg4 arg5 harg5 arg6 harg6 arg7 harg7 arg8 harg8 _ (gradX (img x0)) (fun k => load_chunk1 arg8 (gradX (img x0)) _ k) 16 (le_refl _))).trans rfl

/-- At a point that is not the first of its core the body leaves in output 3's block its earlier contents plus the
    histogram of the sixteen row blocks of the gradient array. -/
theorem out_B_3 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (arg8 : Memref sig .tc .vmem S512x512 .f32) (harg8 : arg8.IsWhole) (hc0 : ¬cond0_0 i)
    (x0 x1 : Vec F S1x1x512x512 .f32) (xo2 xo3 xo4 xo5 : Vec F S1x32x16 .f32) :
    out0_B_3 c i arg2 harg2 arg3 harg3 arg4 harg4 arg5 harg5 arg6 harg6 arg7 harg7 arg8 harg8 hc0 x0 x1 xo2 xo3 xo4 xo5 = accOut xo3 (partialHist (gradY (img x0)) 16) := by
  unfold out0_B_3
  rw [View.read_writes_eq_canon _ _ _ (cover0_B_3 c i arg2 harg2 arg3 harg3 arg4 harg4 arg5 harg5 arg6 harg6 arg7 harg7 arg8 harg8 hc0 x0 x1 xo2 xo3 xo4 xo5)]
  unfold kernelRun0_B
  dsimp only
  sl_unfold_words
  rw [View.canon_unit_zero hz3]
  simp only [View.readAt_eq_ld, harg5.read_unread, harg2.read_unread, harg3.read_unread,
    View.ld_unit_zero (S := S1x32x16) hz3, View.ld_unit_zero (S := S1x1x512x512) hz4, init2_eq, trips2]
  rw [show Scf.trips k0_t2_loop.lb k0_t2_loop.ub k0_t2_loop.st = 16 from trips2]
  exact (congrArg (k0_pay29 xo3) (st2_eq c i arg2 harg2 arg3 harg3 arg4 harg4 arg5 harg5 arg6 harg6 arg7 harg7 arg8 harg8 _ _ _ (gradY (img x0)) (fun k => load_chunk2 arg8 (gradY (img x0)) _ k) 16 (le_refl _))).trans rfl

/-- At the first point of a core the body zeroes output 3's block first, so it leaves the histogram of the gradient
    array added to the zero block. -/
theorem out_A_3 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (arg8 : Memref sig .tc .vmem S512x512 .f32) (harg8 : arg8.IsWhole) (hc0 : cond0_0 i)
    (x0 x1 : Vec F S1x1x512x512 .f32) :
    out0_A_3 c i arg2 harg2 arg3 harg3 arg4 harg4 arg5 harg5 arg6 harg6 arg7 harg7 arg8 harg8 hc0 x0 x1 = accOut zeroBlk (partialHist (gradY (img x0)) 16) := by
  unfold out0_A_3
  rw [View.read_writes_eq_canon _ _ _ (cover0_A_3 c i arg2 harg2 arg3 harg3 arg4 harg4 arg5 harg5 arg6 harg6 arg7 harg7 arg8 harg8 hc0 x0 x1)]
  unfold kernelRun0_A
  dsimp only
  sl_unfold_words
  rw [View.canon_cons_unit_zero (S := S1x32x16) hz3, View.readCov_unit_zero (S := S1x32x16) _ hz3]
  simp only [View.readAt_eq_ld, harg2.read_unread, harg3.read_unread,
    View.ld_unit_zero (S := S1x1x512x512) hz4, init2_eq, trips2]
  rw [show Scf.trips k0_t2_loop.lb k0_t2_loop.ub k0_t2_loop.st = 16 from trips2]
  exact (congrArg (k0_pay29 k0_pay16) (st2_eq c i arg2 harg2 arg3 harg3 arg4 harg4 arg5 harg5 arg6 harg6 arg7 harg7 arg8 harg8 _ _ _ (gradY (img x0)) (fun k => load_chunk2 arg8 (gradY (img x0)) _ k) 16 (le_refl _))).trans rfl

/-- At a point that is not the first of its core the body leaves in output 4's block its earlier contents plus the
    histogram of the sixteen row blocks of the gradient array. -/
theorem out_B_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (arg8 : Memref sig .tc .vmem S512x512 .f32) (harg8 : arg8.IsWhole) (hc0 : ¬cond0_0 i)
    (x0 x1 : Vec F S1x1x512x512 .f32) (xo2 xo3 xo4 xo5 : Vec F S1x32x16 .f32) :
    out0_B_4 c i arg2 harg2 arg3 harg3 arg4 harg4 arg5 harg5 arg6 harg6 arg7 harg7 arg8 harg8 hc0 x0 x1 xo2 xo3 xo4 xo5 = accOut xo4 (partialHist (gradX (img x1)) 16) := by
  unfold out0_B_4
  rw [View.read_writes_eq_canon _ _ _ (cover0_B_4 c i arg2 harg2 arg3 harg3 arg4 harg4 arg5 harg5 arg6 harg6 arg7 harg7 arg8 harg8 hc0 x0 x1 xo2 xo3 xo4 xo5)]
  unfold kernelRun0_B
  dsimp only
  sl_unfold_words
  rw [View.canon_unit_zero hz3]
  simp only [View.readAt_eq_ld, harg6.read_unread, harg2.read_unread, harg3.read_unread,
    View.ld_unit_zero (S := S1x32x16) hz3, View.ld_unit_zero (S := S1x1x512x512) hz4, init3_eq, trips3]
  rw [show Scf.trips k0_t3_loop.lb k0_t3_loop.ub k0_t3_loop.st = 16 from trips3]
  exact (congrArg (k0_pay2 (k0_pay31 xo4)) (st3_eq c i arg2 harg2 arg3 harg3 arg4 harg4 arg5 harg5 arg6 harg6 arg7 harg7 arg8 harg8 _ _ (gradX (img x1)) (fun k => load_chunk3 arg8 (gradX (img x1)) _ k) 16 (le_refl _))).trans rfl

/-- At the first point of a core the body zeroes output 4's block first, so it leaves the histogram of the gradient
    array added to the zero block. -/
theorem out_A_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (arg8 : Memref sig .tc .vmem S512x512 .f32) (harg8 : arg8.IsWhole) (hc0 : cond0_0 i)
    (x0 x1 : Vec F S1x1x512x512 .f32) :
    out0_A_4 c i arg2 harg2 arg3 harg3 arg4 harg4 arg5 harg5 arg6 harg6 arg7 harg7 arg8 harg8 hc0 x0 x1 = accOut zeroBlk (partialHist (gradX (img x1)) 16) := by
  unfold out0_A_4
  rw [View.read_writes_eq_canon _ _ _ (cover0_A_4 c i arg2 harg2 arg3 harg3 arg4 harg4 arg5 harg5 arg6 harg6 arg7 harg7 arg8 harg8 hc0 x0 x1)]
  unfold kernelRun0_A
  dsimp only
  sl_unfold_words
  rw [View.canon_cons_unit_zero (S := S1x32x16) hz3, View.readCov_unit_zero (S := S1x32x16) _ hz3]
  simp only [View.readAt_eq_ld, harg2.read_unread, harg3.read_unread,
    View.ld_unit_zero (S := S1x1x512x512) hz4, init3_eq, trips3]
  rw [show Scf.trips k0_t3_loop.lb k0_t3_loop.ub k0_t3_loop.st = 16 from trips3]
  exact (congrArg (k0_pay2 (k0_pay31 k0_pay17)) (st3_eq c i arg2 harg2 arg3 harg3 arg4 harg4 arg5 harg5 arg6 harg6 arg7 harg7 arg8 harg8 _ _ (gradX (img x1)) (fun k => load_chunk3 arg8 (gradX (img x1)) _ k) 16 (le_refl _))).trans rfl

/-- At a point that is not the first of its core the body leaves in output 5's block its earlier contents plus the
    histogram of the sixteen row blocks of the gradient array. -/
theorem out_B_5 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (arg8 : Memref sig .tc .vmem S512x512 .f32) (harg8 : arg8.IsWhole) (hc0 : ¬cond0_0 i)
    (x0 x1 : Vec F S1x1x512x512 .f32) (xo2 xo3 xo4 xo5 : Vec F S1x32x16 .f32) :
    out0_B_5 c i arg2 harg2 arg3 harg3 arg4 harg4 arg5 harg5 arg6 harg6 arg7 harg7 arg8 harg8 hc0 x0 x1 xo2 xo3 xo4 xo5 = accOut xo5 (partialHist (gradY (img x1)) 16) := by
  unfold out0_B_5
  rw [View.read_writes_eq_canon _ _ _ (cover0_B_5 c i arg2 harg2 arg3 harg3 arg4 harg4 arg5 harg5 arg6 harg6 arg7 harg7 arg8 harg8 hc0 x0 x1 xo2 xo3 xo4 xo5)]
  unfold kernelRun0_B
  dsimp only
  sl_unfold_words
  rw [View.canon_unit_zero hz3]
  simp only [View.readAt_eq_ld, harg7.read_unread, harg2.read_unread, harg3.read_unread,
    View.ld_unit_zero (S := S1x32x16) hz3, View.ld_unit_zero (S := S1x1x512x512) hz4, init4_eq, trips4]
  rw [show Scf.trips k0_t4_loop.lb k0_t4_loop.ub k0_t4_loop.st = 16 from trips4]
  exact (congrArg (k0_pay6 xo5) (st4_eq c i arg2 harg2 arg3 harg3 arg4 harg4 arg5 harg5 arg6 harg6 arg7 harg7 arg8 harg8 _ (gradY (img x1)) (fun k => load_chunk4 arg8 (gradY (img x1)) _ k) 16 (le_refl _))).trans rfl

/-- At the first point of a core the body zeroes output 5's block first, so it leaves the histogram of the gradient
    array added to the zero block. -/
theorem out_A_5 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (arg8 : Memref sig .tc .vmem S512x512 .f32) (harg8 : arg8.IsWhole) (hc0 : cond0_0 i)
    (x0 x1 : Vec F S1x1x512x512 .f32) :
    out0_A_5 c i arg2 harg2 arg3 harg3 arg4 harg4 arg5 harg5 arg6 harg6 arg7 harg7 arg8 harg8 hc0 x0 x1 = accOut zeroBlk (partialHist (gradY (img x1)) 16) := by
  unfold out0_A_5
  rw [View.read_writes_eq_canon _ _ _ (cover0_A_5 c i arg2 harg2 arg3 harg3 arg4 harg4 arg5 harg5 arg6 harg6 arg7 harg7 arg8 harg8 hc0 x0 x1)]
  unfold kernelRun0_A
  dsimp only
  sl_unfold_words
  rw [View.canon_cons_unit_zero (S := S1x32x16) hz3, View.readCov_unit_zero (S := S1x32x16) _ hz3]
  simp only [View.readAt_eq_ld, harg2.read_unread, harg3.read_unread,
    View.ld_unit_zero (S := S1x1x512x512) hz4, init4_eq, trips4]
  rw [show Scf.trips k0_t4_loop.lb k0_t4_loop.ub k0_t4_loop.st = 16 from trips4]
  exact (congrArg (k0_pay6 k0_pay18) (st4_eq c i arg2 harg2 arg3 harg3 arg4 harg4 arg5 harg5 arg6 harg6 arg7 harg7 arg8 harg8 _ (gradY (img x1)) (fun k => load_chunk4 arg8 (gradY (img x1)) _ k) 16 (le_refl _))).trans rfl

end Cert.KernelIdeal.Body

end
-- ==== Proof.KernelPoints.lean ====
/-
  What the four histogram arrays hold after the kernel's region.

  A grid point (core, tile) adds the four histograms of its tile — of the column and row differences of the tile of
  each image batch — to the core's four 32 × 16 blocks, the first point of a core starting from the zero block; a
  block is written back after the core's last tile.  So the array of output `w` ends holding, in the plane of core `q`,
  the running sum (`acc`) after point `24 q + 23`.
-/
import proofs.«149441_j23536420782150_2_alg».proof.Proof.KernelBody
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Points

open Cert.KernelIdeal Cert.KernelIdeal.Gen Cert.KernelIdeal.Body Idealize.ShloMosaic.ValueIdx

variable {F : FTy → Type} [FloatOps F]
variable (m : (ℓ : Loc nD τ sig) → Buf (Elt F) ℓ) (ρ : Dev nD → PrngReg)

/-- The histogram point `t` adds to output 2's block. -/
def tile2 (c : Dev nD) (t : Fin cfg0.N) : FVec F S32x16 .f32 := partialHist (gradX (img (iblk m c 0 t))) 16
/-- The histogram point `t` adds to output 3's block. -/
def tile3 (c : Dev nD) (t : Fin cfg0.N) : FVec F S32x16 .f32 := partialHist (gradY (img (iblk m c 0 t))) 16
/-- The histogram point `t` adds to output 4's block. -/
def tile4 (c : Dev nD) (t : Fin cfg0.N) : FVec F S32x16 .f32 := partialHist (gradX (img (iblk m c 1 t))) 16
/-- The histogram point `t` adds to output 5's block. -/
def tile5 (c : Dev nD) (t : Fin cfg0.N) : FVec F S32x16 .f32 := partialHist (gradY (img (iblk m c 1 t))) 16

/-- The four blocks after point `n`: the zero block plus the tile's histograms at the first point of a core, the
    blocks after the point before plus the tile's histograms elsewhere. -/
def acc (c : Dev nD) : (n : ℕ) → n < cfg0.N → Vec F S1x32x16 .f32 × Vec F S1x32x16 .f32 × Vec F S1x32x16 .f32 × Vec F S1x32x16 .f32
  | 0, h => (accOut zeroBlk (tile2 m c ⟨0, h⟩), accOut zeroBlk (tile3 m c ⟨0, h⟩), accOut zeroBlk (tile4 m c ⟨0, h⟩), accOut zeroBlk (tile5 m c ⟨0, h⟩))
  | n + 1, h =>
    if (n + 1) % 24 = 0 then
      (accOut zeroBlk (tile2 m c ⟨n + 1, h⟩), accOut zeroBlk (tile3 m c ⟨n + 1, h⟩), accOut zeroBlk (tile4 m c ⟨n + 1, h⟩), accOut zeroBlk (tile5 m c ⟨n + 1, h⟩))
    else
      (accOut (acc c n (Nat.lt_of_succ_lt h)).1 (tile2 m c ⟨n + 1, h⟩), accOut (acc c n (Nat.lt_of_succ_lt h)).2.1 (tile3 m c ⟨n + 1, h⟩),
        accOut (acc c n (Nat.lt_of_succ_lt h)).2.2.1 (tile4 m c ⟨n + 1, h⟩), accOut (acc c n (Nat.lt_of_succ_lt h)).2.2.2 (tile5 m c ⟨n + 1, h⟩))

theorem acc_succ_first (c : Dev nD) (n : ℕ) (h : n + 1 < cfg0.N) (h0 : (n + 1) % 24 = 0) :
    acc m c (n + 1) h = (accOut zeroBlk (tile2 m c ⟨n + 1, h⟩), accOut zeroBlk (tile3 m c ⟨n + 1, h⟩), accOut zeroBlk (tile4 m c ⟨n + 1, h⟩), accOut zeroBlk (tile5 m c ⟨n + 1, h⟩)) := by
  rw [acc]; exact if_pos h0

theorem acc_succ_next (c : Dev nD) (n : ℕ) (h : n + 1 < cfg0.N) (h0 : ¬(n + 1) % 24 = 0) :
    acc m c (n + 1) h = (accOut (acc m c n (Nat.lt_of_succ_lt h)).1 (tile2 m c ⟨n + 1, h⟩), accOut (acc m c n (Nat.lt_of_succ_lt h)).2.1 (tile3 m c ⟨n + 1, h⟩),
        accOut (acc m c n (Nat.lt_of_succ_lt h)).2.2.1 (tile4 m c ⟨n + 1, h⟩), accOut (acc m c n (Nat.lt_of_succ_lt h)).2.2.2 (tile5 m c ⟨n + 1, h⟩)) := by
  rw [acc]; exact if_neg h0

/-- What the outputs' staging buffers hold after point `n` is the running sum, by induction on the point. -/
theorem outsAt_eq (c : Dev nD) : ∀ (n : ℕ) (h : n < cfg0.N), outsAt0 m c n h = acc m c n h
  | 0, h => (outsAt0_A m c ⟨0, h⟩ (Nat.zero_mod _)).trans (by rw [out_A_2, out_A_3, out_A_4, out_A_5]; rfl)
  | n + 1, h => by
    by_cases h0 : (n + 1) % 24 = 0
    · refine (outsAt0_A m c ⟨n + 1, h⟩ h0).trans ?_
      rw [out_A_2, out_A_3, out_A_4, out_A_5, acc_succ_first m c n h h0]
      rfl
    · refine (outsAt0_B m c ⟨n + 1, h⟩ h0).trans ?_
      rw [out_B_2, out_B_3, out_B_4, out_B_5, acc_succ_next m c n h h0]
      show (accOut (outsAt0 m c n _).1 _, accOut (outsAt0 m c n _).2.1 _, accOut (outsAt0 m c n _).2.2.1 _, accOut (outsAt0 m c n _).2.2.2 _) = _
      rw [outsAt_eq c n]
      rfl

theorem N48 : cfg0.N = 48 := N_0

theorem lt_N {n : ℕ} (h : n < 48) : n < cfg0.N := lt_of_lt_of_eq h N48.symm

theorem acc_congr (c : Dev nD) (n n' : ℕ) (h : n < cfg0.N) (h' : n' < cfg0.N) (e : n = n') : acc m c n h = acc m c n' h' := by
  subst e; rfl

/-- Output 2's array after the region: plane `q` holds the running sum after point `24 q + 23`. -/
def final2 (c : Dev nD) : Buf (Elt F) ((c : Thread nD τ).loc main_v0_0) :=
  fun j => (acc m c (24 * (j 0).val + 23) (lt_N (by have h2 : (j 0).val < 2 := (j 0).isLt; omega))).1 (ix3 (0 : Fin 1) (j 1) (j 2))

/-- The block index of output 2 at point `t` is `(t / 24, 0, 0)`, decided over the grid. -/
theorem idx_facts2 : ∀ t : Fin cfg0.N, win0_2.index t (0 : Fin 3) = t.val / 24 ∧ win0_2.index t (1 : Fin 3) = 0 ∧ win0_2.index t (2 : Fin 3) = 0 :=
  (by decide +kernel : ∀ t : Fin grid0.N, _)

/-- What the last point of a core writes back is that core's plane of `final2`. -/
theorem flushed_eq2 (c : Dev nD) (t : Fin cfg0.N) (hf : (cfg0.win 2).flush t = true) :
    (dats m 0 c).flushed 2 t = ((cfg0.win 2).blk t).view.read (Elt F) (final2 m c) := by
  have hN : cfg0.N = 48 := N48
  have ht : t.val < 48 := lt_of_lt_of_eq t.isLt hN
  have h23 : t.val % 24 = 23 := (flush0_2 t).mp hf
  obtain ⟨e0, e1, e2⟩ := idx_facts2 t
  show (cfg0.win 2).cut (grid0.coords t) ((dats m 0 c).after 2 t) = _
  rw [after0_2, outsAt_eq]
  funext y
  rw [View.read_apply]
  have hy0 : (y 0).val < 1 := (y 0).isLt
  have k0 : ((((cfg0.win 2).blk t).view.emb y) 0).val = t.val / 24 := by
    show win0_2.index t (0 : Fin 3) * 1 + 1 * (y 0).val = _
    omega
  have k1 : ((((cfg0.win 2).blk t).view.emb y) 1).val = (y 1).val := by
    show win0_2.index t (1 : Fin 3) * 32 + 1 * (y 1).val = _
    omega
  have k2 : ((((cfg0.win 2).blk t).view.emb y) 2).val = (y 2).val := by
    show win0_2.index t (2 : Fin 3) * 16 + 1 * (y 2).val = _
    omega
  show (acc m c t.val t.isLt).1 y = final2 m c (((cfg0.win 2).blk t).view.emb y)
  unfold final2
  rw [acc_congr m c (24 * ((((cfg0.win 2).blk t).view.emb y) 0).val + 23) t.val _ t.isLt (by rw [k0]; omega)]
  refine congrArg (acc m c t.val t.isLt).1 ?_
  funext a
  apply Fin.ext
  match a with
  | ⟨0, _⟩ => show (y 0).val = 0; omega
  | ⟨1, _⟩ => exact k1.symm
  | ⟨2, _⟩ => exact k2.symm

/-- An index is in output 2's block at point `t` when each coordinate lies in the block's range. -/
theorem mem_blk2 (t : Fin cfg0.N) (i : S2x32x16.Idx) :
    i ∈ ((cfg0.win 2).blk t).view.set ↔ ∀ a : Fin 3, win0_2.index t a * S1x32x16.size a ≤ (i a).val ∧ (i a).val < win0_2.index t a * S1x32x16.size a + S1x32x16.size a := by
  show i ∈ ((View.whole main_v0_0).slice (win0_2.rect t)).set ↔ _
  rw [View.set_slice_whole, Rect.mem_set_unit]
  exact Iff.rfl

/-- Every index of output 2's array is in the block the last point of its core writes back. -/
theorem cover2 (i : S2x32x16.Idx) :
    ∃ t : Fin cfg0.N, (cfg0.win 2).flush t = true ∧ i ∈ ((cfg0.win 2).blk t).view.set := by
  have h0 : (i 0).val < 2 := (i 0).isLt
  have h1 : (i 1).val < 32 := (i 1).isLt
  have h2 : (i 2).val < 16 := (i 2).isLt
  refine ⟨⟨24 * (i 0).val + 23, lt_N (by omega)⟩, (flush0_2 _).mpr (by show (24 * (i 0).val + 23) % 24 = 23; omega), ?_⟩
  obtain ⟨e0, e1, e2⟩ := idx_facts2 ⟨24 * (i 0).val + 23, lt_N (by omega)⟩
  have e0' : win0_2.index ⟨24 * (i 0).val + 23, lt_N (by omega)⟩ (0 : Fin 3) = (i 0).val := by rw [e0]; show (24 * (i 0).val + 23) / 24 = _; omega
  rw [mem_blk2]
  intro a
  match a with
  | ⟨0, _⟩ =>
    show win0_2.index ⟨24 * (i 0).val + 23, _⟩ (0 : Fin 3) * 1 ≤ (i 0).val ∧ (i 0).val < win0_2.index ⟨24 * (i 0).val + 23, _⟩ (0 : Fin 3) * 1 + 1
    omega
  | ⟨1, _⟩ =>
    show win0_2.index ⟨24 * (i 0).val + 23, _⟩ (1 : Fin 3) * 32 ≤ (i 1).val ∧ (i 1).val < win0_2.index ⟨24 * (i 0).val + 23, _⟩ (1 : Fin 3) * 32 + 32
    omega
  | ⟨2, _⟩ =>
    show win0_2.index ⟨24 * (i 0).val + 23, _⟩ (2 : Fin 3) * 16 ≤ (i 2).val ∧ (i 2).val < win0_2.index ⟨24 * (i 0).val + 23, _⟩ (2 : Fin 3) * 16 + 16
    omega

/-- So output 2's array ends holding `final2`. -/
theorem arr2_eq (c : Dev nD) : (dats m 0 c).arrAt 2 cfg0.N = final2 m c :=
  (dats m 0 c).arrAt_eq_of_cover 2 (final2 m c) (flushed_eq2 m c) cover2

/-- Output 3's array after the region: plane `q` holds the running sum after point `24 q + 23`. -/
def final3 (c : Dev nD) : Buf (Elt F) ((c : Thread nD τ).loc main_v0_1) :=
  fun j => (acc m c (24 * (j 0).val + 23) (lt_N (by have h2 : (j 0).val < 2 := (j 0).isLt; omega))).2.1 (ix3 (0 : Fin 1) (j 1) (j 2))

/-- The block index of output 3 at point `t` is `(t / 24, 0, 0)`, decided over the grid. -/
theorem idx_facts3 : ∀ t : Fin cfg0.N, win0_3.index t (0 : Fin 3) = t.val / 24 ∧ win0_3.index t (1 : Fin 3) = 0 ∧ win0_3.index t (2 : Fin 3) = 0 :=
  (by decide +kernel : ∀ t : Fin grid0.N, _)

/-- What the last point of a core writes back is that core's plane of `final3`. -/
theorem flushed_eq3 (c : Dev nD) (t : Fin cfg0.N) (hf : (cfg0.win 3).flush t = true) :
    (dats m 0 c).flushed 3 t = ((cfg0.win 3).blk t).view.read (Elt F) (final3 m c) := by
  have hN : cfg0.N = 48 := N48
  have ht : t.val < 48 := lt_of_lt_of_eq t.isLt hN
  have h23 : t.val % 24 = 23 := (flush0_3 t).mp hf
  obtain ⟨e0, e1, e2⟩ := idx_facts3 t
  show (cfg0.win 3).cut (grid0.coords t) ((dats m 0 c).after 3 t) = _
  rw [after0_3, outsAt_eq]
  funext y
  rw [View.read_apply]
  have hy0 : (y 0).val < 1 := (y 0).isLt
  have k0 : ((((cfg0.win 3).blk t).view.emb y) 0).val = t.val / 24 := by
    show win0_3.index t (0 : Fin 3) * 1 + 1 * (y 0).val = _
    omega
  have k1 : ((((cfg0.win 3).blk t).view.emb y) 1).val = (y 1).val := by
    show win0_3.index t (1 : Fin 3) * 32 + 1 * (y 1).val = _
    omega
  have k2 : ((((cfg0.win 3).blk t).view.emb y) 2).val = (y 2).val := by
    show win0_3.index t (2 : Fin 3) * 16 + 1 * (y 2).val = _
    omega
  show (acc m c t.val t.isLt).2.1 y = final3 m c (((cfg0.win 3).blk t).view.emb y)
  unfold final3
  rw [acc_congr m c (24 * ((((cfg0.win 3).blk t).view.emb y) 0).val + 23) t.val _ t.isLt (by rw [k0]; omega)]
  refine congrArg (acc m c t.val t.isLt).2.1 ?_
  funext a
  apply Fin.ext
  match a with
  | ⟨0, _⟩ => show (y 0).val = 0; omega
  | ⟨1, _⟩ => exact k1.symm
  | ⟨2, _⟩ => exact k2.symm

/-- An index is in output 3's block at point `t` when each coordinate lies in the block's range. -/
theorem mem_blk3 (t : Fin cfg0.N) (i : S2x32x16.Idx) :
    i ∈ ((cfg0.win 3).blk t).view.set ↔ ∀ a : Fin 3, win0_3.index t a * S1x32x16.size a ≤ (i a).val ∧ (i a).val < win0_3.index t a * S1x32x16.size a + S1x32x16.size a := by
  show i ∈ ((View.whole main_v0_1).slice (win0_3.rect t)).set ↔ _
  rw [View.set_slice_whole, Rect.mem_set_unit]
  exact Iff.rfl

/-- Every index of output 3's array is in the block the last point of its core writes back. -/
theorem cover3 (i : S2x32x16.Idx) :
    ∃ t : Fin cfg0.N, (cfg0.win 3).flush t = true ∧ i ∈ ((cfg0.win 3).blk t).view.set := by
  have h0 : (i 0).val < 2 := (i 0).isLt
  have h1 : (i 1).val < 32 := (i 1).isLt
  have h2 : (i 2).val < 16 := (i 2).isLt
  refine ⟨⟨24 * (i 0).val + 23, lt_N (by omega)⟩, (flush0_3 _).mpr (by show (24 * (i 0).val + 23) % 24 = 23; omega), ?_⟩
  obtain ⟨e0, e1, e2⟩ := idx_facts3 ⟨24 * (i 0).val + 23, lt_N (by omega)⟩
  have e0' : win0_3.index ⟨24 * (i 0).val + 23, lt_N (by omega)⟩ (0 : Fin 3) = (i 0).val := by rw [e0]; show (24 * (i 0).val + 23) / 24 = _; omega
  rw [mem_blk3]
  intro a
  match a with
  | ⟨0, _⟩ =>
    show win0_3.index ⟨24 * (i 0).val + 23, _⟩ (0 : Fin 3) * 1 ≤ (i 0).val ∧ (i 0).val < win0_3.index ⟨24 * (i 0).val + 23, _⟩ (0 : Fin 3) * 1 + 1
    omega
  | ⟨1, _⟩ =>
    show win0_3.index ⟨24 * (i 0).val + 23, _⟩ (1 : Fin 3) * 32 ≤ (i 1).val ∧ (i 1).val < win0_3.index ⟨24 * (i 0).val + 23, _⟩ (1 : Fin 3) * 32 + 32
    omega
  | ⟨2, _⟩ =>
    show win0_3.index ⟨24 * (i 0).val + 23, _⟩ (2 : Fin 3) * 16 ≤ (i 2).val ∧ (i 2).val < win0_3.index ⟨24 * (i 0).val + 23, _⟩ (2 : Fin 3) * 16 + 16
    omega

/-- So output 3's array ends holding `final3`. -/
theorem arr3_eq (c : Dev nD) : (dats m 0 c).arrAt 3 cfg0.N = final3 m c :=
  (dats m 0 c).arrAt_eq_of_cover 3 (final3 m c) (flushed_eq3 m c) cover3

/-- Output 4's array after the region: plane `q` holds the running sum after point `24 q + 23`. -/
def final4 (c : Dev nD) : Buf (Elt F) ((c : Thread nD τ).loc main_v0_2) :=
  fun j => (acc m c (24 * (j 0).val + 23) (lt_N (by have h2 : (j 0).val < 2 := (j 0).isLt; omega))).2.2.1 (ix3 (0 : Fin 1) (j 1) (j 2))

/-- The block index of output 4 at point `t` is `(t / 24, 0, 0)`, decided over the grid. -/
theorem idx_facts4 : ∀ t : Fin cfg0.N, win0_4.index t (0 : Fin 3) = t.val / 24 ∧ win0_4.index t (1 : Fin 3) = 0 ∧ win0_4.index t (2 : Fin 3) = 0 :=
  (by decide +kernel : ∀ t : Fin grid0.N, _)

/-- What the last point of a core writes back is that core's plane of `final4`. -/
theorem flushed_eq4 (c : Dev nD) (t : Fin cfg0.N) (hf : (cfg0.win 4).flush t = true) :
    (dats m 0 c).flushed 4 t = ((cfg0.win 4).blk t).view.read (Elt F) (final4 m c) := by
  have hN : cfg0.N = 48 := N48
  have ht : t.val < 48 := lt_of_lt_of_eq t.isLt hN
  have h23 : t.val % 24 = 23 := (flush0_4 t).mp hf
  obtain ⟨e0, e1, e2⟩ := idx_facts4 t
  show (cfg0.win 4).cut (grid0.coords t) ((dats m 0 c).after 4 t) = _
  rw [after0_4, outsAt_eq]
  funext y
  rw [View.read_apply]
  have hy0 : (y 0).val < 1 := (y 0).isLt
  have k0 : ((((cfg0.win 4).blk t).view.emb y) 0).val = t.val / 24 := by
    show win0_4.index t (0 : Fin 3) * 1 + 1 * (y 0).val = _
    omega
  have k1 : ((((cfg0.win 4).blk t).view.emb y) 1).val = (y 1).val := by
    show win0_4.index t (1 : Fin 3) * 32 + 1 * (y 1).val = _
    omega
  have k2 : ((((cfg0.win 4).blk t).view.emb y) 2).val = (y 2).val := by
    show win0_4.index t (2 : Fin 3) * 16 + 1 * (y 2).val = _
    omega
  show (acc m c t.val t.isLt).2.2.1 y = final4 m c (((cfg0.win 4).blk t).view.emb y)
  unfold final4
  rw [acc_congr m c (24 * ((((cfg0.win 4).blk t).view.emb y) 0).val + 23) t.val _ t.isLt (by rw [k0]; omega)]
  refine congrArg (acc m c t.val t.isLt).2.2.1 ?_
  funext a
  apply Fin.ext
  match a with
  | ⟨0, _⟩ => show (y 0).val = 0; omega
  | ⟨1, _⟩ => exact k1.symm
  | ⟨2, _⟩ => exact k2.symm

/-- An index is in output 4's block at point `t` when each coordinate lies in the block's range. -/
theorem mem_blk4 (t : Fin cfg0.N) (i : S2x32x16.Idx) :
    i ∈ ((cfg0.win 4).blk t).view.set ↔ ∀ a : Fin 3, win0_4.index t a * S1x32x16.size a ≤ (i a).val ∧ (i a).val < win0_4.index t a * S1x32x16.size a + S1x32x16.size a := by
  show i ∈ ((View.whole main_v0_2).slice (win0_4.rect t)).set ↔ _
  rw [View.set_slice_whole, Rect.mem_set_unit]
  exact Iff.rfl

/-- Every index of output 4's array is in the block the last point of its core writes back. -/
theorem cover4 (i : S2x32x16.Idx) :
    ∃ t : Fin cfg0.N, (cfg0.win 4).flush t = true ∧ i ∈ ((cfg0.win 4).blk t).view.set := by
  have h0 : (i 0).val < 2 := (i 0).isLt
  have h1 : (i 1).val < 32 := (i 1).isLt
  have h2 : (i 2).val < 16 := (i 2).isLt
  refine ⟨⟨24 * (i 0).val + 23, lt_N (by omega)⟩, (flush0_4 _).mpr (by show (24 * (i 0).val + 23) % 24 = 23; omega), ?_⟩
  obtain ⟨e0, e1, e2⟩ := idx_facts4 ⟨24 * (i 0).val + 23, lt_N (by omega)⟩
  have e0' : win0_4.index ⟨24 * (i 0).val + 23, lt_N (by omega)⟩ (0 : Fin 3) = (i 0).val := by rw [e0]; show (24 * (i 0).val + 23) / 24 = _; omega
  rw [mem_blk4]
  intro a
  match a with
  | ⟨0, _⟩ =>
    show win0_4.index ⟨24 * (i 0).val + 23, _⟩ (0 : Fin 3) * 1 ≤ (i 0).val ∧ (i 0).val < win0_4.index ⟨24 * (i 0).val + 23, _⟩ (0 : Fin 3) * 1 + 1
    omega
  | ⟨1, _⟩ =>
    show win0_4.index ⟨24 * (i 0).val + 23, _⟩ (1 : Fin 3) * 32 ≤ (i 1).val ∧ (i 1).val < win0_4.index ⟨24 * (i 0).val + 23, _⟩ (1 : Fin 3) * 32 + 32
    omega
  | ⟨2, _⟩ =>
    show win0_4.index ⟨24 * (i 0).val + 23, _⟩ (2 : Fin 3) * 16 ≤ (i 2).val ∧ (i 2).val < win0_4.index ⟨24 * (i 0).val + 23, _⟩ (2 : Fin 3) * 16 + 16
    omega

/-- So output 4's array ends holding `final4`. -/
theorem arr4_eq (c : Dev nD) : (dats m 0 c).arrAt 4 cfg0.N = final4 m c :=
  (dats m 0 c).arrAt_eq_of_cover 4 (final4 m c) (flushed_eq4 m c) cover4

/-- Output 5's array after the region: plane `q` holds the running sum after point `24 q + 23`. -/
def final5 (c : Dev nD) : Buf (Elt F) ((c : Thread nD τ).loc main_v0_3) :=
  fun j => (acc m c (24 * (j 0).val + 23) (lt_N (by have h2 : (j 0).val < 2 := (j 0).isLt; omega))).2.2.2 (ix3 (0 : Fin 1) (j 1) (j 2))

/-- The block index of output 5 at point `t` is `(t / 24, 0, 0)`, decided over the grid. -/
theorem idx_facts5 : ∀ t : Fin cfg0.N, win0_5.index t (0 : Fin 3) = t.val / 24 ∧ win0_5.index t (1 : Fin 3) = 0 ∧ win0_5.index t (2 : Fin 3) = 0 :=
  (by decide +kernel : ∀ t : Fin grid0.N, _)

/-- What the last point of a core writes back is that core's plane of `final5`. -/
theorem flushed_eq5 (c : Dev nD) (t : Fin cfg0.N) (hf : (cfg0.win 5).flush t = true) :
    (dats m 0 c).flushed 5 t = ((cfg0.win 5).blk t).view.read (Elt F) (final5 m c) := by
  have hN : cfg0.N = 48 := N48
  have ht : t.val < 48 := lt_of_lt_of_eq t.isLt hN
  have h23 : t.val % 24 = 23 := (flush0_5 t).mp hf
  obtain ⟨e0, e1, e2⟩ := idx_facts5 t
  show (cfg0.win 5).cut (grid0.coords t) ((dats m 0 c).after 5 t) = _
  rw [after0_5, outsAt_eq]
  funext y
  rw [View.read_apply]
  have hy0 : (y 0).val < 1 := (y 0).isLt
  have k0 : ((((cfg0.win 5).blk t).view.emb y) 0).val = t.val / 24 := by
    show win0_5.index t (0 : Fin 3) * 1 + 1 * (y 0).val = _
    omega
  have k1 : ((((cfg0.win 5).blk t).view.emb y) 1).val = (y 1).val := by
    show win0_5.index t (1 : Fin 3) * 32 + 1 * (y 1).val = _
    omega
  have k2 : ((((cfg0.win 5).blk t).view.emb y) 2).val = (y 2).val := by
    show win0_5.index t (2 : Fin 3) * 16 + 1 * (y 2).val = _
    omega
  show (acc m c t.val t.isLt).2.2.2 y = final5 m c (((cfg0.win 5).blk t).view.emb y)
  unfold final5
  rw [acc_congr m c (24 * ((((cfg0.win 5).blk t).view.emb y) 0).val + 23) t.val _ t.isLt (by rw [k0]; omega)]
  refine congrArg (acc m c t.val t.isLt).2.2.2 ?_
  funext a
  apply Fin.ext
  match a with
  | ⟨0, _⟩ => show (y 0).val = 0; omega
  | ⟨1, _⟩ => exact k1.symm
  | ⟨2, _⟩ => exact k2.symm

/-- An index is in output 5's block at point `t` when each coordinate lies in the block's range. -/
theorem mem_blk5 (t : Fin cfg0.N) (i : S2x32x16.Idx) :
    i ∈ ((cfg0.win 5).blk t).view.set ↔ ∀ a : Fin 3, win0_5.index t a * S1x32x16.size a ≤ (i a).val ∧ (i a).val < win0_5.index t a * S1x32x16.size a + S1x32x16.size a := by
  show i ∈ ((View.whole main_v0_3).slice (win0_5.rect t)).set ↔ _
  rw [View.set_slice_whole, Rect.mem_set_unit]
  exact Iff.rfl

/-- Every index of output 5's array is in the block the last point of its core writes back. -/
theorem cover5 (i : S2x32x16.Idx) :
    ∃ t : Fin cfg0.N, (cfg0.win 5).flush t = true ∧ i ∈ ((cfg0.win 5).blk t).view.set := by
  have h0 : (i 0).val < 2 := (i 0).isLt
  have h1 : (i 1).val < 32 := (i 1).isLt
  have h2 : (i 2).val < 16 := (i 2).isLt
  refine ⟨⟨24 * (i 0).val + 23, lt_N (by omega)⟩, (flush0_5 _).mpr (by show (24 * (i 0).val + 23) % 24 = 23; omega), ?_⟩
  obtain ⟨e0, e1, e2⟩ := idx_facts5 ⟨24 * (i 0).val + 23, lt_N (by omega)⟩
  have e0' : win0_5.index ⟨24 * (i 0).val + 23, lt_N (by omega)⟩ (0 : Fin 3) = (i 0).val := by rw [e0]; show (24 * (i 0).val + 23) / 24 = _; omega
  rw [mem_blk5]
  intro a
  match a with
  | ⟨0, _⟩ =>
    show win0_5.index ⟨24 * (i 0).val + 23, _⟩ (0 : Fin 3) * 1 ≤ (i 0).val ∧ (i 0).val < win0_5.index ⟨24 * (i 0).val + 23, _⟩ (0 : Fin 3) * 1 + 1
    omega
  | ⟨1, _⟩ =>
    show win0_5.index ⟨24 * (i 0).val + 23, _⟩ (1 : Fin 3) * 32 ≤ (i 1).val ∧ (i 1).val < win0_5.index ⟨24 * (i 0).val + 23, _⟩ (1 : Fin 3) * 32 + 32
    omega
  | ⟨2, _⟩ =>
    show win0_5.index ⟨24 * (i 0).val + 23, _⟩ (2 : Fin 3) * 16 ≤ (i 2).val ∧ (i 2).val < win0_5.index ⟨24 * (i 0).val + 23, _⟩ (2 : Fin 3) * 16 + 16
    omega

/-- So output 5's array ends holding `final5`. -/
theorem arr5_eq (c : Dev nD) : (dats m 0 c).arrAt 5 cfg0.N = final5 m c :=
  (dats m 0 c).arrAt_eq_of_cover 5 (final5 m c) (flushed_eq5 m c) cover5

/-! ## The lines after the region, and the run -/

/-- The host's lines after the region on one output's array: each core's plane converted to 32-bit integers, the two
    planes added, the 32 × 16 sums flattened and the first 511 kept. -/
abbrev hostTail (A : FVec F S2x32x16 .f32) : IVec S511 32 :=
  extractStridedSlice S511 ![0] (shapeCast S512 (Host.reduce IntOp.addi (fptosi 32 A) (constantI S_ 32 0#32) reducesTo_S2x32x16_S32x16_d0 h_S_) shapeCasts_S32x16_S512) slices_S512_S511_0

/-- Result main_v4 after the run is the host's lines applied to output 2's final array. -/
theorem tail2 (c : Dev nD) : Pipeline.afterTail₀ cfgs (dats m) 0 (V0 m) [hostOps1] c main_v4 = hostTail (final2 m c) := by
  unfold Pipeline.afterTail₀
  show StableHlo.after hostOps1 _ (Proc.devRef .tc main_v4) = _
  after_results
  rw [Pipeline.withArrays_arr spec0 launch0.win.arr_inj c _ _ 2, arr2_eq]
  rfl

/-- Result main_v8 after the run is the host's lines applied to output 3's final array. -/
theorem tail3 (c : Dev nD) : Pipeline.afterTail₀ cfgs (dats m) 0 (V0 m) [hostOps1] c main_v8 = hostTail (final3 m c) := by
  unfold Pipeline.afterTail₀
  show StableHlo.after hostOps1 _ (Proc.devRef .tc main_v8) = _
  after_results
  rw [Pipeline.withArrays_arr spec0 launch0.win.arr_inj c _ _ 3, arr3_eq]
  rfl

/-- Result main_v12 after the run is the host's lines applied to output 4's final array. -/
theorem tail4 (c : Dev nD) : Pipeline.afterTail₀ cfgs (dats m) 0 (V0 m) [hostOps1] c main_v12 = hostTail (final4 m c) := by
  unfold Pipeline.afterTail₀
  show StableHlo.after hostOps1 _ (Proc.devRef .tc main_v12) = _
  after_results
  rw [Pipeline.withArrays_arr spec0 launch0.win.arr_inj c _ _ 4, arr4_eq]
  rfl

/-- Result main_v16 after the run is the host's lines applied to output 5's final array. -/
theorem tail5 (c : Dev nD) : Pipeline.afterTail₀ cfgs (dats m) 0 (V0 m) [hostOps1] c main_v16 = hostTail (final5 m c) := by
  unfold Pipeline.afterTail₀
  show StableHlo.after hostOps1 _ (Proc.devRef .tc main_v16) = _
  after_results
  rw [Pipeline.withArrays_arr spec0 launch0.win.arr_inj c _ _ 5, arr5_eq]
  rfl

/-- The run, read: each result at the host's lines of its output's final array, the arguments unchanged. -/
theorem run : θ_run defs (onTc (τ := τ) (main (F := F))) ⟨m, fun _ => 0, ρ⟩ fun r => ∀ c : Dev nD,
      r.2.mem ((c.tc : Thread nD τ).loc main_v4) = hostTail (final2 m c)
      ∧ r.2.mem ((c.tc : Thread nD τ).loc main_v8) = hostTail (final3 m c)
      ∧ r.2.mem ((c.tc : Thread nD τ).loc main_v12) = hostTail (final4 m c)
      ∧ r.2.mem ((c.tc : Thread nD τ).loc main_v16) = hostTail (final5 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail2 m c),
      ((h c).2 main_v8 (Pipeline.mem_restRefs_of main_v8 (by decide) (by decide))).trans (tail3 m c),
      ((h c).2 main_v12 (Pipeline.mem_restRefs_of main_v12 (by decide) (by decide))).trans (tail4 m c),
      ((h c).2 main_v16 (Pipeline.mem_restRefs_of main_v16 (by decide) (by decide))).trans (tail5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Points

end
-- ==== Proof.LibIndicatorCount.lean ====
import Mathlib
import Idealize.ShloMosaic.PureOps.Ideal

/-!
# Counting with sums of indicators in the extended reals

A histogram computed as a product of two one-hot matrices is, entry by entry, a finite sum of
products of indicators, each indicator being the extended real `1` or `0`.
Such a sum is the number of indices at which both predicates hold, as a natural number
read in the extended reals. This file collects

* the value of a finite sum of (products of) indicators in the extended reals: a cardinality;
* additivity of the embedding `ℕ → ℝ → EReal`, for two terms and for finite sums;
* the conversion of such a natural number, below `2 ^ 31`, to a 32-bit signed integer: it is
  that number, exactly (no clamping happens, the floor of a natural number is itself);
* the same cardinality as a sum of 32-bit ones, the form an integer histogram takes;
* the entries of a one-hot matrix: an integer equality test, widened from one bit to 32 bits
  without sign and converted to a float, is the indicator of the equality.
-/

open scoped BigOperators

namespace Idealize.ShloMosaic.LibIndicatorCount

/-- The embedding of the reals in the extended reals commutes with finite sums. -/
theorem coe_finset_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih =>
    rw [Finset.sum_insert ha, Finset.sum_insert ha, EReal.coe_add, ih]

/-- A product of two indicators is the indicator of the conjunction, already in the reals. -/
theorem indicator_mul_indicator (p q : Prop) [Decidable p] [Decidable q] :
    (if p then ((1 : ℝ) : EReal) else ((0 : ℝ) : EReal)) *
        (if q then ((1 : ℝ) : EReal) else ((0 : ℝ) : EReal))
      = (((if p ∧ q then (1 : ℝ) else 0 : ℝ)) : EReal) := by
  by_cases hp : p <;> by_cases hq : q <;> simp [hp, hq]

/-- A finite sum of indicators, in the extended reals, is the number of indices at which the
    predicate holds. -/
theorem indicator_sum {ι : Type*} [Fintype ι] (p : ι → Prop) [DecidablePred p] :
    ∑ k : ι, (if p k then ((1 : ℝ) : EReal) else ((0 : ℝ) : EReal))
      = (((Finset.univ.filter (fun k => p k)).card : ℝ) : EReal) := by
  have h : ∀ k : ι, (if p k then ((1 : ℝ) : EReal) else ((0 : ℝ) : EReal))
      = (((if p k then (1 : ℝ) else 0 : ℝ)) : EReal) := by
    intro k; by_cases hp : p k <;> simp [hp]
  rw [Finset.sum_congr rfl (fun k _ => h k), ← coe_finset_sum, Finset.sum_boole]

/-- A finite sum of products of two indicators, in the extended reals, is the number of indices
    at which both predicates hold: one entry of a product of two one-hot matrices. -/
theorem indicator_mul_sum {ι : Type*} [Fintype ι] (p q : ι → Prop)
    [DecidablePred p] [DecidablePred q] :
    ∑ k : ι, (if p k then ((1 : ℝ) : EReal) else ((0 : ℝ) : EReal)) *
        (if q k then ((1 : ℝ) : EReal) else ((0 : ℝ) : EReal))
      = (((Finset.univ.filter (fun k => p k ∧ q k)).card : ℝ) : EReal) := by
  rw [Finset.sum_congr rfl (fun k _ => indicator_mul_indicator (p k) (q k)),
    ← coe_finset_sum, Finset.sum_boole]

/-- The same sum of indicators with the extended reals' own `1` and `0`. -/
theorem indicator_sum' {ι : Type*} [Fintype ι] (p : ι → Prop) [DecidablePred p] :
    ∑ k : ι, (if p k then (1 : EReal) else (0 : EReal))
      = (((Finset.univ.filter (fun k => p k)).card : ℝ) : EReal) := by
  simpa only [EReal.coe_one, EReal.coe_zero] using indicator_sum p

/-- The same sum of products of indicators with the extended reals' own `1` and `0`. -/
theorem indicator_mul_sum' {ι : Type*} [Fintype ι] (p q : ι → Prop)
    [DecidablePred p] [DecidablePred q] :
    ∑ k : ι, (if p k then (1 : EReal) else (0 : EReal)) *
        (if q k then (1 : EReal) else (0 : EReal))
      = (((Finset.univ.filter (fun k => p k ∧ q k)).card : ℝ) : EReal) := by
  simpa only [EReal.coe_one, EReal.coe_zero] using indicator_mul_sum p q

/-- The embedding `ℕ → ℝ → EReal` is additive. -/
theorem natCast_add (a b : ℕ) :
    (((a : ℕ) : ℝ) : EReal) + (((b : ℕ) : ℝ) : EReal) = (((a + b : ℕ) : ℝ) : EReal) := by
  rw [← EReal.coe_add, Nat.cast_add]

/-- The embedding `ℕ → ℝ → EReal` commutes with finite sums. -/
theorem natCast_sum {ι : Type*} (s : Finset ι) (f : ι → ℕ) :
    ∑ k ∈ s, (((f k : ℕ) : ℝ) : EReal) = (((∑ k ∈ s, f k : ℕ) : ℝ) : EReal) := by
  rw [Nat.cast_sum, coe_finset_sum]

/-- A natural number below `2 ^ 31`, read in the extended reals, converts to the 32-bit signed
    integer of the same value: its truncation toward zero is itself and it lies within the
    clamping bounds `[-2 ^ 31, 2 ^ 31 - 1]`. -/
theorem fptosi_natCast (n : ℕ) (hn : n < 2 ^ 31) :
    Ideal.fptosi 32 (((n : ℝ)) : EReal) = BitVec.ofNat 32 n := by
  have h0 : (0 : ℝ) ≤ (n : ℝ) := Nat.cast_nonneg n
  rw [Ideal.fptosi, Ideal.toIntClamped_coe, if_pos h0, Int.floor_natCast]
  have hp : ((2 ^ (32 - 1) : ℕ) : ℤ) = 2147483648 := by norm_num
  have hlt : (n : ℤ) < 2147483648 := by exact_mod_cast hn
  have hge : (0 : ℤ) ≤ (n : ℤ) := Int.natCast_nonneg n
  rw [hp, min_eq_right (by omega), max_eq_right (by omega)]
  exact BitVec.ofInt_natCast 32 n

/-- The number of indices at which a predicate holds, as a 32-bit integer, is the sum of the
    32-bit indicators `1` / `0`: the form an integer histogram takes. -/
theorem ofNat_card_eq_sum {ι : Type*} [Fintype ι] (p : ι → Prop) [DecidablePred p] :
    BitVec.ofNat 32 (Finset.univ.filter (fun k => p k)).card
      = ∑ k : ι, (if p k then (1 : BitVec 32) else 0) := by
  rw [Finset.sum_boole, BitVec.natCast_eq_ofNat]

/-! ### A one-bit comparison result, widened and read as a float

The one-hot matrices are built by comparing an index grid with a broadcast column, widening the
one-bit result to 32 bits without sign and converting that integer to a float. At the extended
reals the result is the indicator of the comparison: `1` where it holds and `0` elsewhere. -/

/-- A single bit widened without sign to 32 bits is the integer `1` or `0`. -/
theorem toInt_setWidth_bit (b : BitVec 1) :
    (b.setWidth 32).toInt = if b = 1#1 then 1 else 0 := by
  revert b; decide

/-- The same, with the integer read in the reals. -/
theorem toInt_setWidth_bit_real (b : BitVec 1) :
    (((b.setWidth 32).toInt : ℤ) : ℝ) = if b = 1#1 then 1 else 0 := by
  rw [toInt_setWidth_bit]; split <;> simp

/-- At the extended reals, the conversion of a signed integer to a float is that integer. -/
theorem sitofp_apply {φ : FTy} {w : Nat} (b : BitVec w) :
    FloatOps.sitofp (F := Ideal) φ b = ((b.toInt : ℝ) : EReal) := rfl

/-- A vector of single bits, widened without sign to 32 bits and converted to a float, is at
    each index the indicator of that bit, in the extended reals. -/
theorem sitofp_extui_bit {s : Shape} {φ : FTy} (v : IVec s 1) (h : 1 < 32) (i : s.Idx) :
    sitofp (F := Ideal) φ (extui 32 v h) i
      = if v i = 1#1 then ((1 : ℝ) : EReal) else ((0 : ℝ) : EReal) := by
  show (((((v i).setWidth 32).toInt : ℤ) : ℝ) : EReal) = _
  rw [toInt_setWidth_bit_real]; split <;> rfl

/-- The one-bit result of an integer equality test is set exactly when the operands are equal. -/
theorem cmpi_eq_eq_one {s : Shape} {w : Nat} (a b : IVec s w) (i : s.Idx) :
    (cmpi .eq a b i = 1#1) ↔ a i = b i := by
  show (BitVec.ofBool (a i == b i) = 1#1) ↔ a i = b i
  rw [← beq_iff_eq (a := a i) (b := b i)]
  generalize (a i == b i) = c
  cases c <;> decide

/-- An integer equality test, widened and converted to a float, is at each index the indicator
    of the equality, in the extended reals: one entry of a one-hot matrix. -/
theorem sitofp_extui_cmpi_eq {s : Shape} {φ : FTy} {w : Nat} (a b : IVec s w) (h : 1 < 32)
    (i : s.Idx) :
    sitofp (F := Ideal) φ (extui 32 (cmpi .eq a b) h) i
      = if a i = b i then ((1 : ℝ) : EReal) else ((0 : ℝ) : EReal) := by
  rw [sitofp_extui_bit]
  by_cases hab : a i = b i
  · rw [if_pos ((cmpi_eq_eq_one a b i).2 hab), if_pos hab]
  · rw [if_neg (fun hc => hab ((cmpi_eq_eq_one a b i).1 hc)), if_neg hab]

/-- The format change to a narrower float on top is the identity at the extended reals. -/
theorem truncf_sitofp_extui_cmpi_eq {s : Shape} {w : Nat} (a b : IVec s w) (h : 1 < 32)
    (hb : FTy.bits .bf16 < FTy.bits .f32) (i : s.Idx) :
    truncf (F := Ideal) .bf16 (sitofp (F := Ideal) .f32 (extui 32 (cmpi .eq a b) h)) hb i
      = if a i = b i then ((1 : ℝ) : EReal) else ((0 : ℝ) : EReal) := by
  show FloatOps.truncf (F := Ideal) .bf16 hb (sitofp (F := Ideal) .f32 (extui 32 (cmpi .eq a b) h) i) = _
  rw [Ideal.truncf_def, sitofp_extui_cmpi_eq]

end Idealize.ShloMosaic.LibIndicatorCount
-- ==== Proof.LibMatmulSumTN.lean ====
/-
  A matrix product contracting the FIRST axis of both operands, read at an index, at the ideal values.

  For dimension numbers that contract the left operand's axis 0 with the right operand's axis 0, with no batch axis — a
  [K, M] by [K, N] product into [M, N], the product of the transpose of the left matrix with the right one — the operand
  indices at result index `j` and contraction index `q` are (q, j 0) and (q, j 1).  So a `tpu.matmul` into a zero
  accumulator is, at every result index, the sum over `k : Fin K` of `l (k, j 0) * r (k, j 1)` on the extended reals.
-/
import Idealize.ShloMosaic.PureOps.Ideal.Laws
import Idealize.ShloMosaic.Lib.ValueIdx

noncomputable section

namespace Cert.LibMatmulSumTN

open Idealize.ShloMosaic Idealize.ShloMosaic.ValueIdx

variable {M K N : Nat} (d : DotDims ⟨2, ![K, M]⟩ ⟨2, ![K, N]⟩ ⟨2, ![M, N]⟩)

/-- The one contraction axis has extent `K`. -/
theorem contr_rank (hlc : d.lhsContracting = [0]) : d.contr.rank = 1 := by
  rw [d.rank_contr, hlc]; rfl

theorem contr_size (hlc : d.lhsContracting = [0]) : d.contr.size ⟨0, by rw [contr_rank d hlc]; exact Nat.one_pos⟩ = K := by
  rw [d.size_contr 0 (by rw [hlc]; exact Nat.one_pos)]
  simp only [hlc, List.getElem_cons_zero]
  rfl

/-- Column coordinate of the left operand's index: the result's row. -/
theorem lhsIdx_col (hln : d.lhsNonContracting = [1]) (hlb : d.lhsBatch = [])
    (j : (⟨2, ![M, N]⟩ : Shape).Idx) (q : d.contr.Idx) : (d.lhsIdx j q 1).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [1]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum, re-indexed over `Fin K`. -/
theorem sum_contr (hlc : d.lhsContracting = [0]) (hrc : d.rhsContracting = [0]) (hln : d.lhsNonContracting = [1])
    (hrn : d.rhsNonContracting = [1]) (hlb : d.lhsBatch = []) (hrb : d.rhsBatch = [])
    (l : (⟨2, ![K, M]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 k (j 0)) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 k (j 0) :=
    funext fun a => Fin.ext (by
      match a with
      | ⟨0, _⟩ => exact (d.lhsIdx_val_of_single hlc _ _).trans hk
      | ⟨1, _⟩ => exact lhsIdx_col d hln hlb _ _)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of such a product into the zero splat, at an index: the sum of products over the shared axis. -/
theorem matmul_zero_apply {φ₁ φ₂ : FTy} (hlc : d.lhsContracting = [0]) (hrc : d.rhsContracting = [0])
    (hln : d.lhsNonContracting = [1]) (hrn : d.rhsNonContracting = [1]) (hlb : d.lhsBatch = []) (hrb : d.rhsBatch = [])
    (prec : Option ContractPrecision) (l : FVec Ideal ⟨2, ![K, M]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 k (j 0)) * r (ix2 k (j 1)) :=
  (Ideal.matmul_constant_zero_apply d prec l r j).trans (sum_contr d hlc hrc hln hrn hlb hrb l r j)

end Cert.LibMatmulSumTN

end
-- ==== Proof.BinWords.lean ====
import Mathlib
import Idealize.ShloMosaic.PureOps.Float

/-!
# Bin numbers of a 512-bin histogram, as 32-bit words

An element of a histogram's input falls in a bin whose number is computed in 32-bit signed
arithmetic. Two programs are compared, one element at a time.

* The first clips the bin number to `[0, 510]` with a signed maximum and minimum, sends the
  elements outside the histogram's range to the extra number `511`, and splits the resulting
  `code` as `code = 16 · hi + lo` with `hi = ⌊code / 16⌋` and `lo = code − 16 · hi`, the floor
  division being spelled out over the signed division that rounds toward zero: the quotient is
  lowered by one when the signs of the operands differ and the remainder is not zero. It then
  compares `hi` with `0, …, 31` and `lo` with `0, …, 15`.
* The second adds a `0/1` mask word at the clipped bin number, a negative index being moved up
  by the number of bins first (no clipped number is negative, so this never happens).

This file proves, for single 32-bit words, that the clipped number is at most `510`, that the
split of a word below `512` is its quotient and remainder by `16`, that the two comparisons hold
together exactly at the word `16 · h + l`, and that the term the second program adds at bin `b`
is the indicator that the first program's code is `b`.
-/

namespace Idealize.ShloMosaic.Hist

/-- The bin number clipped to `[0, 510]`: a signed maximum with `0`, then a signed minimum with
    `510`. -/
def clip (a : BitVec 32) : BitVec 32 := IntOp.minsi 510#32 (IntOp.maxsi 0#32 a)

/-- The code of an element: its clipped bin number when the mask bit `m` is set (the element is
    inside the range), the extra number `511` otherwise. -/
def code (m : BitVec 1) (a : BitVec 32) : BitVec 32 := Scalar.select m (clip a) 511#32

/-- The floor of `x / 16`, spelled out over the signed division that rounds toward zero: when
    the sign of `x` differs from the sign of `16` and the signed remainder is not zero, the
    quotient less one; the quotient otherwise. -/
def hiOf (x : BitVec 32) : BitVec 32 :=
  Scalar.select
    (IntOp.andi
      (IntOp.cmpi .ne (IntOp.subi ((IntOp.cmpi .sgt x 0#32).setWidth 32) ((IntOp.cmpi .slt x 0#32).setWidth 32))
                      (Scalar.subi (Scalar.extui (Scalar.cmpi .sgt 16#32 0#32)) (Scalar.extui (Scalar.cmpi .slt 16#32 0#32))))
      (IntOp.cmpi .ne (IntOp.remsi .vector x 16#32) 0#32))
    (IntOp.subi (IntOp.divsi .vector x 16#32) 1#32)
    (IntOp.divsi .vector x 16#32)

/-- What is left of `x` after taking out sixteen times `hiOf x`. -/
def loOf (x : BitVec 32) : BitVec 32 := IntOp.subi x (IntOp.muli (hiOf x) 16#32)

/-- The index at which the second program adds: the clipped bin number, moved up by `511` when it
    is negative. -/
def refIdx (a : BitVec 32) : BitVec 32 :=
  Scalar.select (IntOp.cmpi .slt (clip a) 0#32) (IntOp.addi (clip a) 511#32) (clip a)

/-- The signed value of a 32-bit word in terms of its unsigned value. -/
theorem toInt_cases (x : BitVec 32) :
    (x.toNat < 2147483648 ∧ x.toInt = (x.toNat : Int)) ∨
      (2147483648 ≤ x.toNat ∧ x.toInt = (x.toNat : Int) - 4294967296) := by
  have h := BitVec.toInt_eq_toNat_cond x
  split_ifs at h with hc
  · left; exact ⟨by omega, h⟩
  · right; refine ⟨by omega, ?_⟩; rw [h]; norm_num

/-- Clipping, by cases on the signed value: `0` below zero, `510` above `510`, the word itself
    in between. -/
theorem clip_cases (a : BitVec 32) :
    clip a = if a.toInt < 0 then 0#32 else if 510 < a.toInt then 510#32 else a := by
  have e0 : (0#32).toInt = 0 := by decide
  have e510 : (510#32).toInt = 510 := by decide
  unfold clip IntOp.minsi IntOp.maxsi
  simp only [BitVec.slt, e0, e510]
  by_cases h0 : a.toInt < 0
  · simp [h0, e0]
  · by_cases h1 : 510 < a.toInt
    · simp [h0, h1]
    · simp [h0, h1]

/-- The clipped bin number is at most `510` as an unsigned word. -/
theorem clip_le (a : BitVec 32) : (clip a).toNat ≤ 510 := by
  rw [clip_cases]
  split_ifs with h1 h2
  · decide
  · decide
  · rcases toInt_cases a with ⟨_, h⟩ | ⟨_, h⟩ <;> omega

/-- The code is at most `511` as an unsigned word. -/
theorem code_le (m : BitVec 1) (a : BitVec 32) : (code m a).toNat ≤ 511 := by
  unfold code Scalar.select
  split_ifs
  · have := clip_le a; omega
  · decide

/-- The clipped bin number is never negative, so the second program's index is the clipped bin
    number itself. -/
theorem refIdx_eq (a : BitVec 32) : refIdx a = clip a := by
  have hle := clip_le a
  have hnn : ¬ (clip a).toInt < 0 := by
    rcases toInt_cases (clip a) with ⟨_, h⟩ | ⟨_, h⟩ <;> omega
  have e0 : (0#32).toInt = 0 := by decide
  unfold refIdx Scalar.select IntOp.cmpi
  simp [BitVec.slt, e0, hnn]

/-- The second program's index, read as a signed number, is `b` exactly when the clipped bin
    number is the word `b`. -/
theorem refIdx_toInt_eq_iff (a : BitVec 32) (b : ℕ) (hb : b < 511) :
    (refIdx a).toInt = (b : Int) ↔ clip a = BitVec.ofNat 32 b := by
  rw [refIdx_eq]
  have hle := clip_le a
  constructor
  · intro h
    apply BitVec.eq_of_toNat_eq
    rw [BitVec.toNat_ofNat]
    rcases toInt_cases (clip a) with ⟨_, h'⟩ | ⟨_, h'⟩ <;> omega
  · intro h
    have h2 : (clip a).toNat = b := by
      rw [h, BitVec.toNat_ofNat]; omega
    rcases toInt_cases (clip a) with ⟨_, h'⟩ | ⟨_, h'⟩ <;> omega

/-- The split of each of the words `0, …, 511`: a finite check. -/
theorem hi_lo_fin : ∀ n : Fin 512,
    hiOf (BitVec.ofNat 32 n.val) = BitVec.ofNat 32 (n.val / 16) ∧
      loOf (BitVec.ofNat 32 n.val) = BitVec.ofNat 32 (n.val % 16) := by
  decide +kernel

/-- For a word below `512`, the spelled-out floor division by `16` is the quotient of the
    unsigned value, and what is left is its remainder. -/
theorem hi_lo (x : BitVec 32) (hx : x.toNat ≤ 511) :
    hiOf x = BitVec.ofNat 32 (x.toNat / 16) ∧ loOf x = BitVec.ofNat 32 (x.toNat % 16) := by
  have h := hi_lo_fin ⟨x.toNat, by omega⟩
  have e : BitVec.ofNat 32 x.toNat = x := by simp
  simp only [e] at h
  exact h

/-- The equality comparison of two words answers the bit `1` exactly when the words are equal. -/
theorem cmpi_eq_one_iff (x y : BitVec 32) : IntOp.cmpi .eq x y = 1#1 ↔ x = y := by
  unfold IntOp.cmpi
  by_cases h : x = y
  · subst h; simp
  · have hb : (x == y) = false := beq_eq_false_iff_ne.mpr h
    simp [hb, h]

/-- Two natural numbers below `2 ^ 32` give the same 32-bit word only when they are equal. -/
theorem ofNat_inj_of_lt (p q : ℕ) (hp : p < 4294967296) (hq : q < 4294967296) :
    BitVec.ofNat 32 p = BitVec.ofNat 32 q ↔ p = q := by
  constructor
  · intro h
    have h' := congrArg BitVec.toNat h
    simp only [BitVec.toNat_ofNat] at h'
    omega
  · rintro rfl; rfl

/-- For a word `x` below `512`, `h < 32` and `l < 16`: the comparison of `h` with the high part of
    `x` and the comparison of `l` with its low part both hold exactly when `x = 16 · h + l`
    (uniqueness of quotient and remainder). -/
theorem onehot_iff (x : BitVec 32) (hx : x.toNat ≤ 511) (h l : ℕ) (hh : h < 32) (hl : l < 16) :
    (IntOp.cmpi .eq (BitVec.ofNat 32 h) (hiOf x) = 1#1 ∧
        IntOp.cmpi .eq (BitVec.ofNat 32 l) (loOf x) = 1#1) ↔
      x = BitVec.ofNat 32 (16 * h + l) := by
  obtain ⟨e1, e2⟩ := hi_lo x hx
  rw [cmpi_eq_one_iff, cmpi_eq_one_iff, e1, e2,
    ofNat_inj_of_lt _ _ (by omega) (by omega), ofNat_inj_of_lt _ _ (by omega) (by omega)]
  constructor
  · rintro ⟨h1, h2⟩
    apply BitVec.eq_of_toNat_eq
    rw [BitVec.toNat_ofNat]
    omega
  · intro hxe
    have hn : x.toNat = 16 * h + l := by
      rw [hxe, BitVec.toNat_ofNat]; omega
    omega

/-- A one-bit word is `0` or `1`. -/
theorem bit_cases (m : BitVec 1) : m = 0#1 ∨ m = 1#1 := by
  have hlt := m.isLt
  rcases Nat.lt_or_ge m.toNat 1 with h | h
  · left; apply BitVec.eq_of_toNat_eq; simp; omega
  · right; apply BitVec.eq_of_toNat_eq; simp; omega

/-- A mask bit widened to 32 bits is the word `1` when the bit is set and the word `0`
    otherwise. -/
theorem mask_word (m : BitVec 1) : m.setWidth 32 = if m = 1#1 then 1#32 else 0#32 := by
  rcases bit_cases m with rfl | rfl <;> decide

/-- The term the second program adds at bin `b < 511` is the indicator that the first program's
    code is `b`: inside the range (mask bit set) both say that the clipped bin number is `b`;
    outside, the second program adds `0` wherever it adds, and the code is `511 ≠ b`. -/
theorem ref_term_eq (m : BitVec 1) (a : BitVec 32) (b : ℕ) (hb : b < 511) :
    (if (refIdx a).toInt = (b : Int) then m.setWidth 32 else 0#32) =
      (if code m a = BitVec.ofNat 32 b then 1#32 else 0#32) := by
  rcases bit_cases m with rfl | rfl
  · have hc : code 0#1 a = 511#32 := by
      unfold code Scalar.select; simp
    have hne : ¬ (511#32 = BitVec.ofNat 32 b) := by
      intro h
      have h' := congrArg BitVec.toNat h
      simp only [BitVec.toNat_ofNat] at h'
      omega
    have hw : (0#1).setWidth 32 = 0#32 := by decide
    rw [hc, if_neg hne, hw, ite_self]
  · have hc : code 1#1 a = clip a := by
      unfold code Scalar.select; simp
    have hw : (1#1).setWidth 32 = 1#32 := by decide
    rw [hc, hw]
    by_cases h : clip a = BitVec.ofNat 32 b
    · rw [if_pos h, if_pos ((refIdx_toInt_eq_iff a b hb).2 h)]
    · rw [if_neg h, if_neg (fun h' => h ((refIdx_toInt_eq_iff a b hb).1 h'))]

end Idealize.ShloMosaic.Hist
-- ==== Proof.HistSpec.lean ====
/-
  The histogram both programs compute, as one function of an image batch.

  A gradient value `v` (an extended real) falls in bin `⌊v⌋ + 255`, clipped to [0, 510], when `-255 ≤ v ≤ 256`; every
  other value is given the number 511, which names no bin.  The histogram of the forward differences of a batch of 16
  three-channel 512 × 512 images along the last axis (`histX`) or along the rows (`histY`) counts, for each bin `b`, the
  positions whose difference falls in `b` — as a 32-bit word, the sum of one `1` per such position.
-/
import Idealize.ShloMosaic.PureOps.Ideal
import Idealize.ShloMosaic.Lib.ValueIdx
import proofs.«149441_j23536420782150_2_alg».proof.Proof.BinWords

noncomputable section

namespace Idealize.ShloMosaic.Hist

open Idealize.ShloMosaic Idealize.ShloMosaic.ValueIdx

/-- The bin number of a gradient value: `code` of the range test `-255 ≤ v ≤ 256` and of `⌊v⌋ + 255`. -/
def binOf (v : Ideal .f32) : BitVec 32 :=
  code (IntOp.andi (FloatOps.cmpf (F := Ideal) .oge v (FloatOps.ofBits .f32 0xC37F0000#32))
      (FloatOps.cmpf (F := Ideal) .ole v (FloatOps.ofBits .f32 0x43800000#32)))
    (IntOp.addi (FloatOps.fptosi (F := Ideal) 32 (FloatOps.floor (F := Ideal) v)) 255#32)

/-- The bin number is at most 511. -/
theorem binOf_le (v : Ideal .f32) : (binOf v).toNat ≤ 511 := code_le _ _

/-- The 16 × 3 × 512 × 512 image batch. -/
abbrev Img : Shape := ⟨4, ![16, 3, 512, 512]⟩

/-- The histogram of the differences along the last axis: position (n, ch, r, q), q < 511, contributes to the bin of
    `X (n, ch, r, q + 1) - X (n, ch, r, q)`. -/
def histX (X : Img.Idx → Ideal .f32) (b : ℕ) : BitVec 32 :=
  ∑ n : Fin 16, ∑ ch : Fin 3, ∑ r : Fin 512, ∑ q : Fin 511,
    if binOf (X (ix4 n ch r ⟨q.val + 1, by omega⟩) - X (ix4 n ch r ⟨q.val, by omega⟩)) = BitVec.ofNat 32 b then 1#32 else 0#32

/-- The histogram of the differences along the rows: position (n, ch, r, q), r < 511, contributes to the bin of
    `X (n, ch, r + 1, q) - X (n, ch, r, q)`. -/
def histY (X : Img.Idx → Ideal .f32) (b : ℕ) : BitVec 32 :=
  ∑ n : Fin 16, ∑ ch : Fin 3, ∑ r : Fin 511, ∑ q : Fin 512,
    if binOf (X (ix4 n ch ⟨r.val + 1, by omega⟩ q) - X (ix4 n ch ⟨r.val, by omega⟩ q)) = BitVec.ofNat 32 b then 1#32 else 0#32

end Idealize.ShloMosaic.Hist

end
-- ==== Proof.OneHot.lean ====
import proofs.«149441_j23536420782150_2_alg».proof.Proof.Gen.KernelIdeal.Skeleton
import proofs.«149441_j23536420782150_2_alg».proof.Proof.LibIndicatorCount
import proofs.«149441_j23536420782150_2_alg».proof.Proof.LibMatmulSumTN
import proofs.«149441_j23536420782150_2_alg».proof.Proof.HistSpec
import Idealize.ShloMosaic.Lib.Pipeline.Value
import Idealize.ShloMosaic.Lib.ValueIdx

/-!
# One trip of the histogram loop, entry by entry

A trip of the loop takes a 32 × 512 block of gradient values, flattens it row-major to 16384
elements, computes the bin number of each element and the two base-16 digits of that number, builds
the two one-hot matrices of the digits (16384 × 32 for the high digit, 16384 × 16 for the low one)
and adds the product of the transpose of the first with the second to the carried 32 × 16 array.

Entry (h, l) of that product is the sum over the elements of the product of two indicators, that
is the number of elements whose high digit is h and whose low digit is l: the number of elements
whose bin number is 16 · h + l.
-/

set_option maxRecDepth 16384

noncomputable section

open scoped BigOperators
open Idealize.ShloMosaic Idealize.ShloMosaic.ValueIdx Idealize.SL.Sem

namespace Cert.KernelIdeal.OneHot

open Cert.KernelIdeal Cert.KernelIdeal.Gen Idealize.ShloMosaic.LibIndicatorCount

/-- The flattened block read at element `e` is the block at row `e / 512`, column `e % 512`. -/
theorem flat_apply {α : Type} (blk : S32x512.Idx → α) (h : S32x512.ShapeCasts S16384) (e : Fin 16384) :
    shapeCast S16384 blk h (ix1 e)
      = blk (ix2 (⟨e.val / 512, by have := e.isLt; omega⟩ : Fin 32) (⟨e.val % 512, Nat.mod_lt _ (by decide)⟩ : Fin 512)) := by
  refine shapeCast_apply blk h (ix1 e) _ ?_
  rw [Shape.rowMajor_val_two, Shape.rowMajor_val_one]
  show e.val / 512 * 512 + e.val % 512 = e.val
  omega

/-- The bin number of element `e` of the flattened block. -/
theorem code_apply (blk : Vec Ideal S32x512 .f32) (e : Fin 16384) :
    k0_pay7 (F := Ideal) blk (ix1 e)
      = Hist.binOf (blk (ix2 (⟨e.val / 512, by have := e.isLt; omega⟩ : Fin 32) (⟨e.val % 512, Nat.mod_lt _ (by decide)⟩ : Fin 512))) := by
  rw [← flat_apply blk Facts₀.shapeCasts_S32x512_S16384 e]
  rfl

/-- The high digit of the bin number of element `e`. -/
theorem hi_apply (blk : Vec Ideal S32x512 .f32) (e : Fin 16384) :
    k0_pay8 (F := Ideal) blk (ix1 e) = Hist.hiOf (k0_pay7 (F := Ideal) blk (ix1 e)) := rfl

/-- A column of 16384 words, reshaped to 16384 × 1 and broadcast along a second axis of any
    length, read at (e, c): the word at e. -/
theorem col_apply {α : Type} {n : Nat} (v : S16384.Idx → α) (hc : S16384.ShapeCasts S16384x1)
    (hb : S16384x1.Broadcasts ⟨2, ![16384, n]⟩) (e : Fin 16384) (c : Fin n) :
    broadcastTo ⟨2, ![16384, n]⟩ (shapeCast S16384x1 v hc) hb (ix2 e c) = v (ix1 e) := by
  refine (broadcastTo_apply (shapeCast S16384x1 v hc) hb (ix2 e c) (ix2 e (0 : Fin 1)) ?_).trans ?_
  · intro a
    match a with
    | ⟨0, _⟩ => rfl
    | ⟨1, _⟩ => rfl
  · refine shapeCast_apply v hc (ix2 e (0 : Fin 1)) (ix1 e) ?_
    rw [Shape.rowMajor_val_two, Shape.rowMajor_val_one]
    show e.val = e.val * 1 + 0
    omega

/-- Entry (e, c) of the one-hot matrix of a column of words: the indicator that the word at e
    is c. The matrix compares the coordinate along the second axis with the broadcast column,
    widens the one-bit answer and converts it to a float; the narrowing of the float's format
    is the identity on extended reals. -/
theorem onehot_apply {n : Nat} (v : IVec S16384 32) (hi : (⟨2, ![16384, n]⟩ : Shape).Iotas .tc 32 [1])
    (hc : S16384.ShapeCasts S16384x1) (hb : S16384x1.Broadcasts ⟨2, ![16384, n]⟩) (h1 : 1 < 32)
    (ht : FTy.bits .bf16 < FTy.bits .f32) (e : Fin 16384) (c : Fin n) :
    truncf (F := Ideal) .bf16 (sitofp (F := Ideal) .f32 (extui 32 (cmpi .eq
        (iota .tc ⟨2, ![16384, n]⟩ 32 [1] hi)
        (broadcastTo ⟨2, ![16384, n]⟩ (shapeCast S16384x1 v hc) hb)) h1)) ht (ix2 e c)
      = if BitVec.ofNat 32 c.val = v (ix1 e) then ((1 : ℝ) : EReal) else ((0 : ℝ) : EReal) := by
  refine (sitofp_extui_cmpi_eq _ _ h1 (ix2 e c)).trans ?_
  rw [iota_single_apply, col_apply]
  rfl

/-- One trip's addition to the carried array at entry (h, l), for any two columns of words: the
    number of elements whose first word is h and whose second word, less sixteen times the
    first, is l. -/
theorem step_apply (acc : FVec Ideal S32x16 .f32) (c hi : IVec S16384 32) (hh : Fin 32) (l : Fin 16) :
    k0_pay23 (F := Ideal) acc c hi (ix2 hh l)
      = acc (ix2 hh l) + (((Finset.univ.filter fun e : Fin 16384 =>
          BitVec.ofNat 32 hh.val = hi (ix1 e) ∧
          BitVec.ofNat 32 l.val = IntOp.subi (c (ix1 e)) (IntOp.muli (hi (ix1 e)) 16#32)).card : ℝ) : EReal) := by
  show acc (ix2 hh l) + FloatOps.matmul dot_S16384x32_S16384x16_S32x16_0_0_1_1_n_n none
      (truncf (F := Ideal) .bf16 (sitofp (F := Ideal) .f32 (extui 32 (cmpi .eq
        (iota .tc S16384x32 32 [1] Facts₀.iota_S16384x32_d1_w32)
        (broadcastTo S16384x32 (shapeCast S16384x1 hi Facts₀.shapeCasts_S16384_S16384x1)
          Facts₀.broadcasts_S16384x1_S16384x32)) Facts₀.natLt_1_32)) Facts₀.bitsLt_bf16_f32)
      (truncf (F := Ideal) .bf16 (sitofp (F := Ideal) .f32 (extui 32 (cmpi .eq
        (iota .tc S16384x16 32 [1] Facts₀.iota_S16384x16_d1_w32)
        (broadcastTo S16384x16 (shapeCast S16384x1 (subi c (muli hi (broadcast S16384 16#32)))
          Facts₀.shapeCasts_S16384_S16384x1)
          Facts₀.broadcasts_S16384x1_S16384x16)) Facts₀.natLt_1_32)) Facts₀.bitsLt_bf16_f32)
      (constant S32x16 .f32 0x00000000#32) (ix2 hh l) = _
  have hlc : dot_S16384x32_S16384x16_S32x16_0_0_1_1_n_n.lhsContracting = [0] := rfl
  have hrc : dot_S16384x32_S16384x16_S32x16_0_0_1_1_n_n.rhsContracting = [0] := rfl
  have hln : dot_S16384x32_S16384x16_S32x16_0_0_1_1_n_n.lhsNonContracting = [1] := rfl
  have hrn : dot_S16384x32_S16384x16_S32x16_0_0_1_1_n_n.rhsNonContracting = [1] := rfl
  have hlb : dot_S16384x32_S16384x16_S32x16_0_0_1_1_n_n.lhsBatch = [] := rfl
  have hrb : dot_S16384x32_S16384x16_S32x16_0_0_1_1_n_n.rhsBatch = [] := rfl
  refine (congrArg (fun t => acc (ix2 hh l) + t)
    (Cert.LibMatmulSumTN.matmul_zero_apply (M := 32) (K := 16384) (N := 16)
      dot_S16384x32_S16384x16_S32x16_0_0_1_1_n_n hlc hrc hln hrn hlb hrb none _ _ (ix2 hh l))).trans ?_
  refine congrArg (fun t => acc (ix2 hh l) + t) ?_
  rw [← indicator_mul_sum]
  refine Finset.sum_congr rfl fun e _ => ?_
  exact congrArg₂ (fun a b : EReal => a * b)
    (onehot_apply hi Facts₀.iota_S16384x32_d1_w32 Facts₀.shapeCasts_S16384_S16384x1
      Facts₀.broadcasts_S16384x1_S16384x32 Facts₀.natLt_1_32 Facts₀.bitsLt_bf16_f32 e hh)
    (onehot_apply (subi c (muli hi (broadcast S16384 16#32))) Facts₀.iota_S16384x16_d1_w32
      Facts₀.shapeCasts_S16384_S16384x1 Facts₀.broadcasts_S16384x1_S16384x16 Facts₀.natLt_1_32
      Facts₀.bitsLt_bf16_f32 e l)

/-- THE STEP. One trip adds, at entry (h, l), the number of elements of the block whose bin
    number is 16 · h + l: the two digit tests hold together exactly at that bin number, by
    uniqueness of quotient and remainder, the bin number being at most 511. -/
theorem step_count (acc : FVec Ideal S32x16 .f32) (blk : Vec Ideal S32x512 .f32) (hh : Fin 32) (l : Fin 16) :
    k0_pay23 (F := Ideal) acc (k0_pay7 (F := Ideal) blk) (k0_pay8 (F := Ideal) blk) (ix2 hh l)
      = acc (ix2 hh l) + (((Finset.univ.filter fun e : Fin 16384 =>
          Hist.binOf (blk (ix2 (⟨e.val / 512, by have := e.isLt; omega⟩ : Fin 32)
              (⟨e.val % 512, Nat.mod_lt _ (by decide)⟩ : Fin 512)))
            = BitVec.ofNat 32 (16 * hh.val + l.val)).card : ℝ) : EReal) := by
  rw [step_apply]
  refine congrArg (fun t : ℕ => acc (ix2 hh l) + ((t : ℝ) : EReal)) ?_
  refine congrArg Finset.card (Finset.filter_congr fun e _ => ?_)
  rw [hi_apply, code_apply]
  have hx := Hist.binOf_le (blk (ix2 (⟨e.val / 512, by have := e.isLt; omega⟩ : Fin 32)
    (⟨e.val % 512, Nat.mod_lt _ (by decide)⟩ : Fin 512)))
  have key := Hist.onehot_iff _ hx hh.val l.val hh.isLt l.isLt
  rw [Hist.cmpi_eq_one_iff, Hist.cmpi_eq_one_iff] at key
  exact key

/-- The loop's initial carried array is zero at every entry. -/
theorem zero_apply (hh : Fin 32) (l : Fin 16) : k0_pay22 (F := Ideal) (ix2 hh l) = ((0 : ℝ) : EReal) := by
  show Ideal.ofBits .f32 0x00000000#32 = _
  exact Ideal.ofBits_zero_f32.trans EReal.coe_zero.symm

/-- The block stored at the first point of a core is zero at every entry. -/
theorem zero3_apply (hh : Fin 32) (l : Fin 16) :
    k0_pay15 (F := Ideal) (ix3 (0 : Fin 1) hh l) = ((0 : ℝ) : EReal) := by
  show Ideal.ofBits .f32 0x00000000#32 = _
  exact Ideal.ofBits_zero_f32.trans EReal.coe_zero.symm

/-- The stored block: the earlier contents of the 1 × 32 × 16 block, viewed 32 × 16, plus the
    loop's result, viewed 1 × 32 × 16 again; entry (0, h, l) is the sum of the entries. -/
theorem accOut_apply (xo : Vec Ideal S1x32x16 .f32) (h : FVec Ideal S32x16 .f32) (hh : Fin 32) (l : Fin 16) :
    k0_pay24 (F := Ideal) xo h (ix3 (0 : Fin 1) hh l) = xo (ix3 (0 : Fin 1) hh l) + h (ix2 hh l) := by
  have e1 : ∀ (α : Type) (x : S32x16.Idx → α) (hc : S32x16.ShapeCasts S1x32x16),
      shapeCast S1x32x16 x hc (ix3 (0 : Fin 1) hh l) = x (ix2 hh l) := fun α x hc =>
    shapeCast_apply x hc (ix3 (0 : Fin 1) hh l) (ix2 hh l) (by
      rw [Shape.rowMajor_val_two, Shape.rowMajor_val_three]
      show hh.val * 16 + l.val = (0 * 32 + hh.val) * 16 + l.val
      omega)
  have e2 : ∀ (α : Type) (x : S1x32x16.Idx → α) (hc : S1x32x16.ShapeCasts S32x16),
      shapeCast S32x16 x hc (ix2 hh l) = x (ix3 (0 : Fin 1) hh l) := fun α x hc =>
    shapeCast_apply x hc (ix2 hh l) (ix3 (0 : Fin 1) hh l) (by
      rw [Shape.rowMajor_val_two, Shape.rowMajor_val_three]
      show (0 * 32 + hh.val) * 16 + l.val = hh.val * 16 + l.val
      omega)
  show shapeCast S1x32x16 (addf (F := Ideal) (shapeCast S32x16 xo Facts₀.shapeCasts_S1x32x16_S32x16) h)
    Facts₀.shapeCasts_S32x16_S1x32x16 (ix3 (0 : Fin 1) hh l) = _
  rw [e1, addf_apply, e2]

end Cert.KernelIdeal.OneHot

end
-- ==== Proof.GradAt.lean ====
import proofs.«149441_j23536420782150_2_alg».proof.Proof.Gen.KernelIdeal.Skeleton
import proofs.«149441_j23536420782150_2_alg».proof.Proof.HistSpec
import Idealize.ShloMosaic.Lib.Pipeline.Value
import Idealize.ShloMosaic.Lib.ValueIdx
import Idealize.ShloMosaic.Lib.KernelVsHost

/-!
# The forward differences of a 512 × 512 image, read at one position

The program forms the difference of an image `v` along an axis by rotating it by `511` places along
that axis (so that position `q` reads position `(q + 1) mod 512`), subtracting `v`, and replacing
the last position of the axis, where the rotation wrapped around, by the sentinel `−10000`: the
positions `q` with `q < 511` are found by comparing the coordinate, as a signed 32-bit word, with
`511`. This file reads the result at a position `(r, q)`:

* along the columns, `v (r, q + 1) − v (r, q)` for `q < 511` and the sentinel at `q = 511`;
* along the rows, `v (r + 1, q) − v (r, q)` for `r < 511` and the sentinel at `r = 511`;
* a `1 × 1 × 512 × 512` block viewed as a `512 × 512` image reads `(0, 0, r, q)` at `(r, q)`;
* the sentinel `−10000` lies below `−255`, outside the histogram's range, so its bin number is the
  extra number `511`.
-/

noncomputable section

namespace Cert.KernelIdeal.GradAt

open Idealize.ShloMosaic Idealize.ShloMosaic.ValueIdx Cert.KernelIdeal Cert.KernelIdeal.Gen

/-- For `q < 512`, the signed comparison of the word `q` with `511` answers `1` exactly when
    `q < 511`: both words are below `2 ^ 31`, so their signed values are `q` and `511`. -/
theorem slt_511 (q : ℕ) (hq : q < 512) :
    IntOp.cmpi .slt (BitVec.ofNat 32 q) 511#32 = if q < 511 then 1#1 else 0#1 := by
  have e511 : (511#32).toInt = 511 := by decide
  have hn : (BitVec.ofNat 32 q).toNat = q := by
    rw [BitVec.toNat_ofNat]; omega
  have hi : (BitVec.ofNat 32 q).toInt = (q : Int) := by
    rcases Hist.toInt_cases (BitVec.ofNat 32 q) with ⟨_, h⟩ | ⟨h', _⟩
    · rw [h, hn]
    · omega
  unfold IntOp.cmpi
  simp only [BitVec.slt, hi, e511]
  by_cases h : q < 511
  · have h' : (q : Int) < 511 := by omega
    simp [h, h']
  · have h' : ¬ (q : Int) < 511 := by omega
    simp [h, h']

/-- The difference along the columns, before the final cast of the shape to itself. -/
theorem pay30_eq (v : FVec Ideal S512x512 .f32) :
    k0_pay30 (F := Ideal) v =
      select (cmpi .slt (iota .tc S512x512 32 [1] iota_S512x512_d1_w32) (broadcast S512x512 511#32))
        (subf (dynamicRotate 1 511#32 none v rotates_S512x512_d1) v)
        (broadcast S512x512 (FloatOps.ofBits (F := Ideal) .f32 0xC61C4000#32)) :=
  shapeCast_self _ _

/-- The difference along the rows, before the final cast of the shape to itself. -/
theorem pay3_eq (v : FVec Ideal S512x512 .f32) :
    k0_pay3 (F := Ideal) v =
      select (cmpi .slt (iota .tc S512x512 32 [0] iota_S512x512_d0_w32) (broadcast S512x512 511#32))
        (subf (dynamicRotate 0 511#32 none v rotates_S512x512_d0) v)
        (broadcast S512x512 (FloatOps.ofBits (F := Ideal) .f32 0xC61C4000#32)) :=
  shapeCast_self _ _

/-- The difference along the columns at `(r, q)`: `v (r, q + 1) − v (r, q)` for `q < 511`, the sentinel at
    the last column. -/
theorem gradX_apply (v : FVec Ideal S512x512 .f32) (r q : Fin 512) :
    k0_pay30 (F := Ideal) v (ix2 r q) =
      if h : q.val < 511 then v (ix2 r ⟨q.val + 1, by omega⟩) - v (ix2 r q)
      else FloatOps.ofBits (F := Ideal) .f32 0xC61C4000#32 := by
  rw [pay30_eq, select_apply]
  have hio : iota .tc S512x512 32 [1] iota_S512x512_d1_w32 (ix2 r q) = BitVec.ofNat 32 q.val :=
    iota_single_apply _ _ _ _ _ _
  have hc : cmpi .slt (iota .tc S512x512 32 [1] iota_S512x512_d1_w32) (broadcast S512x512 511#32) (ix2 r q) =
      if q.val < 511 then 1#1 else 0#1 := by
    show IntOp.cmpi .slt (iota .tc S512x512 32 [1] iota_S512x512_d1_w32 (ix2 r q)) 511#32 = _
    rw [hio]; exact slt_511 q.val q.isLt
  rw [hc]
  by_cases h : q.val < 511
  · rw [if_pos h, dif_pos h, select_one, subf_apply]
    congr 1
    exact dynamicRotate_apply _ _ _ _ _ _ (fun b => match b with
      | ⟨0, _⟩ => rfl
      | ⟨1, _⟩ => by
        show q.val + 1 = (q.val + 512 - 511 % 512) % 512
        omega)
  · rw [if_neg h, dif_neg h, select_zero, broadcast_apply]

/-- The difference along the rows at `(r, q)`: `v (r + 1, q) − v (r, q)` for `r < 511`, the sentinel at the
    last row. -/
theorem gradY_apply (v : FVec Ideal S512x512 .f32) (r q : Fin 512) :
    k0_pay3 (F := Ideal) v (ix2 r q) =
      if h : r.val < 511 then v (ix2 ⟨r.val + 1, by omega⟩ q) - v (ix2 r q)
      else FloatOps.ofBits (F := Ideal) .f32 0xC61C4000#32 := by
  rw [pay3_eq, select_apply]
  have hio : iota .tc S512x512 32 [0] iota_S512x512_d0_w32 (ix2 r q) = BitVec.ofNat 32 r.val :=
    iota_single_apply _ _ _ _ _ _
  have hc : cmpi .slt (iota .tc S512x512 32 [0] iota_S512x512_d0_w32) (broadcast S512x512 511#32) (ix2 r q) =
      if r.val < 511 then 1#1 else 0#1 := by
    show IntOp.cmpi .slt (iota .tc S512x512 32 [0] iota_S512x512_d0_w32 (ix2 r q)) 511#32 = _
    rw [hio]; exact slt_511 r.val r.isLt
  rw [hc]
  by_cases h : r.val < 511
  · rw [if_pos h, dif_pos h, select_one, subf_apply]
    congr 1
    exact dynamicRotate_apply _ _ _ _ _ _ (fun b => match b with
      | ⟨0, _⟩ => by
        show r.val + 1 = (r.val + 512 - 511 % 512) % 512
        omega
      | ⟨1, _⟩ => rfl)
  · rw [if_neg h, dif_neg h, select_zero, broadcast_apply]

/-- A `1 × 1 × 512 × 512` block viewed as a `512 × 512` image reads `(0, 0, r, q)` at `(r, q)`: the two
    positions have the same row-major rank `512 · r + q`. -/
theorem img_apply (x : Vec Ideal S1x1x512x512 .f32) (r q : Fin 512) :
    k0_pay19 (F := Ideal) x (ix2 r q) = x (ix4 (0 : Fin 1) (0 : Fin 1) r q) := by
  unfold k0_pay19
  exact shapeCast_apply _ _ _ _ (by
    rw [Shape.rowMajor_val_two, Shape.rowMajor_val_four]
    show ((0 * 1 + 0) * 512 + r.val) * 512 + q.val = r.val * 512 + q.val
    omega)

/-- The word `0xC61C4000` denotes `−10000`. -/
theorem ofBits_sentinel : Ideal.ofBits .f32 0xC61C4000#32 = ((-10000 : ℝ) : EReal) := by
  simp [Ideal.ofBits, Ideal.ieee, -EReal.coe_mul]; norm_num

/-- The word `0xC37F0000` denotes `−255`. -/
theorem ofBits_neg255 : Ideal.ofBits .f32 0xC37F0000#32 = ((-255 : ℝ) : EReal) := by
  simp [Ideal.ofBits, Ideal.ieee, -EReal.coe_mul]; norm_num

/-- The sentinel `−10000` is below `−255`, so the range test's first comparison answers `0`, the
    conjunction of the two comparisons is `0`, and the bin number is the extra number `511`. -/
theorem binOf_sentinel : Hist.binOf (FloatOps.ofBits (F := Ideal) .f32 0xC61C4000#32) = 511#32 := by
  have hc : FloatOps.cmpf (F := Ideal) .oge (FloatOps.ofBits (F := Ideal) .f32 0xC61C4000#32)
      (FloatOps.ofBits (F := Ideal) .f32 0xC37F0000#32) = 0#1 := by
    show Ideal.cmp .oge (Ideal.ofBits .f32 0xC61C4000#32) (Ideal.ofBits .f32 0xC37F0000#32) = 0#1
    rw [ofBits_sentinel, ofBits_neg255]
    have hlt : ¬ (((-255 : ℝ) : EReal) ≤ ((-10000 : ℝ) : EReal)) := by
      rw [EReal.coe_le_coe_iff]; norm_num
    show BitVec.ofBool (decide (((-255 : ℝ) : EReal) ≤ ((-10000 : ℝ) : EReal))) = 0#1
    rw [decide_eq_false hlt]
    rfl
  have hand : ∀ y : BitVec 1, IntOp.andi 0#1 y = 0#1 := by
    intro y; unfold IntOp.andi; simp
  unfold Hist.binOf
  rw [hc, hand]
  unfold Hist.code
  exact select_zero _ _

end Cert.KernelIdeal.GradAt

end
-- ==== Proof.InputBlocks.lean ====
import proofs.«149441_j23536420782150_2_alg».proof.Proof.Gen.KernelIdeal.Frame
import Idealize.ShloMosaic.Lib.Pipeline.Value
import Idealize.ShloMosaic.Lib.ValueIdx

/-!
# The two input blocks at a grid point

The grid has `2 × 24 = 48` points; point `t` stages, from each of the two `16 × 3 × 512 × 512`
arguments, the `1 × 1 × 512 × 512` block with block coordinates `(t / 3, t mod 3, 0, 0)`: image number
`t / 3`, channel `t mod 3`. Read at `(0, 0, r, q)`, the block is therefore the argument at
`(t / 3, t mod 3, r, q)`. The block coordinates are computed by the program's index maps in 32-bit
arithmetic; they are evaluated once at each of the 48 points.
-/

noncomputable section

open Idealize.ShloMosaic Idealize.ShloMosaic.TcCoe Idealize.SL.Sem
open Idealize.ShloMosaic.ValueIdx

namespace Cert.KernelIdeal.InputBlocks

open Cert.KernelIdeal Cert.KernelIdeal.Gen

variable {F : FTy → Type} [FloatOps F]
variable (m : (ℓ : Loc nD τ sig) → Buf (Elt F) ℓ)

/-- The grid has 48 points. -/
theorem t_lt (t : Fin cfg0.N) : t.val < 48 := lt_of_lt_of_eq t.isLt N_0

/-- The first window's block coordinates at point `t`: `(t / 3, t mod 3, 0, 0)`. -/
theorem index0 : ∀ t : Fin grid0.N, win0_0.index t (0 : Fin 4) = t.val / 3 ∧ win0_0.index t 1 = t.val % 3 ∧
    win0_0.index t 2 = 0 ∧ win0_0.index t 3 = 0 := by
  decide +kernel

/-- The second window's block coordinates at point `t`: `(t / 3, t mod 3, 0, 0)`. -/
theorem index1 : ∀ t : Fin grid0.N, win0_1.index t (0 : Fin 4) = t.val / 3 ∧ win0_1.index t 1 = t.val % 3 ∧
    win0_1.index t 2 = 0 ∧ win0_1.index t 3 = 0 := by
  decide +kernel

/-- The first input block at point `t`, read at `(0, 0, r, q)`, is the first argument at
    `(t / 3, t mod 3, r, q)`. -/
theorem iblk0_apply (c : Dev nD) (t : Fin cfg0.N) (r q : Fin 512) :
    (iblk m c 0 t : Vec F S1x1x512x512 .f32) (ix4 (0 : Fin 1) (0 : Fin 1) r q) =
      (m ((c : Thread nD τ).loc main_arg0) : S16x3x512x512.Idx → Elt F .f32)
        (ix4 (⟨t.val / 3, by have := t_lt t; omega⟩ : Fin 16) (⟨t.val % 3, Nat.mod_lt _ (by decide)⟩ : Fin 3) r q) := by
  have hi := index0 t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 3; rw [hi.1]; omega
  | ⟨1, _⟩ => show win0_0.index t 1 * 1 + 1 * 0 = t.val % 3; rw [hi.2.1]; omega
  | ⟨2, _⟩ => show win0_0.index t 2 * 512 + 1 * r.val = r.val; rw [hi.2.2.1]; omega
  | ⟨3, _⟩ => show win0_0.index t 3 * 512 + 1 * q.val = q.val; rw [hi.2.2.2]; omega

/-- The second input block at point `t`, read at `(0, 0, r, q)`, is the second argument at
    `(t / 3, t mod 3, r, q)`. -/
theorem iblk1_apply (c : Dev nD) (t : Fin cfg0.N) (r q : Fin 512) :
    (iblk m c 1 t : Vec F S1x1x512x512 .f32) (ix4 (0 : Fin 1) (0 : Fin 1) r q) =
      (m ((c : Thread nD τ).loc main_arg1) : S16x3x512x512.Idx → Elt F .f32)
        (ix4 (⟨t.val / 3, by have := t_lt t; omega⟩ : Fin 16) (⟨t.val % 3, Nat.mod_lt _ (by decide)⟩ : Fin 3) r q) := by
  have hi := index1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 3; rw [hi.1]; omega
  | ⟨1, _⟩ => show win0_1.index t 1 * 1 + 1 * 0 = t.val % 3; rw [hi.2.1]; omega
  | ⟨2, _⟩ => show win0_1.index t 2 * 512 + 1 * r.val = r.val; rw [hi.2.2.1]; omega
  | ⟨3, _⟩ => show win0_1.index t 3 * 512 + 1 * q.val = q.val; rw [hi.2.2.2]; omega

end Cert.KernelIdeal.InputBlocks

end
-- ==== Proof.LibRegroup.lean ====
import Mathlib
import Idealize.ShloMosaic.Lib.ValueIdx

/-!
# Re-indexing finite sums

All sums are finite sums in an arbitrary additive commutative monoid.

* A sum over the index set of a rank-1, rank-3 or rank-4 shape is the iterated sum over the
  coordinates (the index set is the product of the coordinate ranges).
* A sum over `Fin (m * n)` is the double sum over `i < m`, `j < n` of the summand at `n * i + j`
  (every number below `m * n` is `n * i + j` for exactly one such pair), and, read the other way, the
  summand at quotient `T / n` and remainder `T % n` summed over `T < m * n` is the double sum over
  quotient and remainder.
* These are instantiated at the sizes `48 = 2 * 24 = 16 * 3`, `16384 = 32 * 512` and
  `512 = 16 * 32`: sixteen chunks of `32` rows of `512` columns are the `512 × 512` square.
* A sum over `512` columns whose last summand is replaced by zero is the sum over the first `511`.
-/

open scoped BigOperators

namespace Idealize.ShloMosaic.Regroup

open Idealize.ShloMosaic Idealize.ShloMosaic.ValueIdx

variable {M : Type*} [AddCommMonoid M]

/-! ## Sums over the index set of a shape -/

/-- A rank-1 index set is its one coordinate range. -/
def idxEquiv1 {a : Nat} : (⟨1, ![a]⟩ : Shape).Idx ≃ Fin a where
  toFun i := i 0
  invFun p := ix1 p
  left_inv i := (eq_ix1 i).symm
  right_inv _ := rfl

/-- A sum over a rank-1 index set is the sum over the coordinate. -/
theorem sum_idx1 {a : Nat} (f : (⟨1, ![a]⟩ : Shape).Idx → M) :
    ∑ p : (⟨1, ![a]⟩ : Shape).Idx, f p = ∑ i : Fin a, f (ix1 i) := by
  rw [← Equiv.sum_comp (idxEquiv1 (a := a)).symm f]
  rfl

/-- A rank-3 index set is the product of its three coordinate ranges. -/
def idxEquiv3 {a b c : Nat} : (⟨3, ![a, b, c]⟩ : Shape).Idx ≃ Fin a × Fin b × Fin c where
  toFun i := (i 0, i 1, i 2)
  invFun p := ix3 p.1 p.2.1 p.2.2
  left_inv i := (eq_ix3 i).symm
  right_inv _ := rfl

/-- A sum over a rank-3 index set is the triple sum over the coordinates. -/
theorem sum_idx3 {a b c : Nat} (f : (⟨3, ![a, b, c]⟩ : Shape).Idx → M) :
    ∑ p : (⟨3, ![a, b, c]⟩ : Shape).Idx, f p
      = ∑ i : Fin a, ∑ j : Fin b, ∑ k : Fin c, f (ix3 i j k) := by
  rw [← Equiv.sum_comp (idxEquiv3 (a := a) (b := b) (c := c)).symm f, Fintype.sum_prod_type]
  simp only [Fintype.sum_prod_type]
  rfl

/-- A rank-4 index set is the product of its four coordinate ranges. -/
def idxEquiv4 {a b c d : Nat} :
    (⟨4, ![a, b, c, d]⟩ : Shape).Idx ≃ Fin a × Fin b × Fin c × Fin d where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {a b c d : Nat} (f : (⟨4, ![a, b, c, d]⟩ : Shape).Idx → M) :
    ∑ p : (⟨4, ![a, b, c, d]⟩ : Shape).Idx, f p
      = ∑ i : Fin a, ∑ j : Fin b, ∑ k : Fin c, ∑ l : Fin d, f (ix4 i j k l) := by
  rw [← Equiv.sum_comp (idxEquiv4 (a := a) (b := b) (c := c) (d := d)).symm f,
    Fintype.sum_prod_type]
  simp only [Fintype.sum_prod_type]
  rfl

/-! ## Sums over a product of two ranges, laid out in a line -/

/-- For `i < m` and `j < n` the number `n * i + j` is below `m * n`. -/
theorem mul_add_lt {m n i j : Nat} (hi : i < m) (hj : j < n) : n * i + j < m * n := by
  calc n * i + j < n * i + n := by omega
    _ = n * (i + 1) := by ring
    _ ≤ n * m := Nat.mul_le_mul_left n hi
    _ = m * n := Nat.mul_comm n m

/-- A sum over `N = m * n` consecutive numbers is the sum over `m` runs of `n` consecutive numbers:
    the summand at `n * i + j`, summed over `i < m` and `j < n`. -/
theorem sum_fin_mul (m n N : Nat) (hN : m * n = N) (G : Fin N → M) :
    ∑ i : Fin m, ∑ j : Fin n, G ⟨n * i.val + j.val, hN ▸ mul_add_lt i.isLt j.isLt⟩
      = ∑ T : Fin N, G T := by
  subst hN
  rw [← Equiv.sum_comp finProdFinEquiv G, Fintype.sum_prod_type]
  refine Finset.sum_congr rfl fun i _ => Finset.sum_congr rfl fun j _ => ?_
  congr 1
  apply Fin.ext
  simp [finProdFinEquiv, Nat.add_comm]

/-- The summand at the quotient and remainder of `T` by `n`, summed over the `N = m * n` numbers
    `T < N`, is the double sum over quotients `i < m` and remainders `j < n`. -/
theorem sum_fin_divmod (m n N : Nat) (hN : m * n = N) (hn : 0 < n) (g : Fin m → Fin n → M) :
    ∑ T : Fin N, g ⟨T.val / n, Nat.div_lt_of_lt_mul (by rw [Nat.mul_comm, hN]; exact T.isLt)⟩
        ⟨T.val % n, Nat.mod_lt _ hn⟩
      = ∑ i : Fin m, ∑ j : Fin n, g i j := by
  subst hN
  rw [← Fintype.sum_prod_type (f := fun p : Fin m × Fin n => g p.1 p.2),
    ← Equiv.sum_comp finProdFinEquiv.symm (fun p : Fin m × Fin n => g p.1 p.2)]
  refine Finset.sum_congr rfl fun T _ => ?_
  congr 1 <;> apply Fin.ext <;> simp [finProdFinEquiv, Fin.divNat, Fin.modNat]

/-! ## The sizes used -/

/-- Two groups of twenty-four points are forty-eight points. -/
theorem sum_points (F : Nat → M) :
    ∑ c : Fin 2, ∑ t : Fin 24, F (24 * c.val + t.val) = ∑ T : Fin 48, F T.val :=
  sum_fin_mul 2 24 48 rfl (fun T => F T.val)

/-- Forty-eight points are sixteen blocks of three channels: the point `T` is channel `T % 3` of
    block `T / 3`. -/
theorem sum_tiles3 (g : Fin 16 → Fin 3 → M) :
    ∑ T : Fin 48, g ⟨T.val / 3, by omega⟩ ⟨T.val % 3, by omega⟩
      = ∑ b : Fin 16, ∑ ch : Fin 3, g b ch :=
  sum_fin_divmod 16 3 48 rfl (by decide) g

/-- Sixteen chunks of `16384 = 32 * 512` cells, the cell `n` of chunk `k` being row
    `32 * k + n / 512`, column `n % 512`, are the `512 × 512` square. -/
theorem sum_chunk_rows (h : Fin 512 → Fin 512 → M) :
    ∑ k : Fin 16, ∑ n : Fin 16384, h ⟨32 * k.val + n.val / 512, by omega⟩ ⟨n.val % 512, by omega⟩
      = ∑ r : Fin 512, ∑ col : Fin 512, h r col := by
  have h1 : ∀ k : Fin 16,
      ∑ n : Fin 16384, h ⟨32 * k.val + n.val / 512, by omega⟩ ⟨n.val % 512, by omega⟩
        = ∑ q : Fin 32, ∑ col : Fin 512, h ⟨32 * k.val + q.val, by omega⟩ col := fun k =>
    sum_fin_divmod 32 512 16384 rfl (by decide)
      (fun q col => h ⟨32 * k.val + q.val, by omega⟩ col)
  rw [Finset.sum_congr rfl fun k _ => h1 k]
  exact sum_fin_mul 16 32 512 rfl (fun r => ∑ col : Fin 512, h r col)

/-- A sum over `512` columns in which the last column's summand is replaced by zero is the sum over
    the first `511` columns. -/
theorem sum_drop_last (h : Fin 512 → M) :
    ∑ col : Fin 512, (if col.val < 511 then h col else 0)
      = ∑ col' : Fin 511, h ⟨col'.val, by omega⟩ := by
  rw [Fin.sum_univ_castSucc (n := 511)]
  simp only [Fin.val_last, lt_irrefl, if_false, add_zero]
  refine Finset.sum_congr rfl fun c _ => ?_
  rw [if_pos (by simp)]
  rfl

/-- Two groups of twenty-four points, each with sixteen chunks of `16384` cells, are sixteen blocks
    of three channels of `512 × 512` squares: point `T = 24 * c + t` is channel `T % 3` of block
    `T / 3`, and cell `n` of chunk `k` is row `32 * k + n / 512`, column `n % 512`. -/
theorem sum_regroup (g : Fin 16 → Fin 3 → Fin 512 → Fin 512 → M) :
    ∑ c : Fin 2, ∑ t : Fin 24, ∑ k : Fin 16, ∑ n : Fin 16384,
        g ⟨(24 * c.val + t.val) / 3, by omega⟩ ⟨(24 * c.val + t.val) % 3, by omega⟩
          ⟨32 * k.val + n.val / 512, by omega⟩ ⟨n.val % 512, by omega⟩
      = ∑ b : Fin 16, ∑ ch : Fin 3, ∑ r : Fin 512, ∑ col : Fin 512, g b ch r col := by
  have h1 := sum_fin_mul 2 24 48 rfl (fun T : Fin 48 => ∑ k : Fin 16, ∑ n : Fin 16384,
      g ⟨T.val / 3, by omega⟩ ⟨T.val % 3, by omega⟩
        ⟨32 * k.val + n.val / 512, by omega⟩ ⟨n.val % 512, by omega⟩)
  have h2 := sum_fin_divmod 16 3 48 rfl (by decide) (fun b ch => ∑ k : Fin 16, ∑ n : Fin 16384,
      g b ch ⟨32 * k.val + n.val / 512, by omega⟩ ⟨n.val % 512, by omega⟩)
  refine h1.trans (h2.trans ?_)
  exact Finset.sum_congr rfl fun b _ => Finset.sum_congr rfl fun ch _ => sum_chunk_rows (g b ch)

end Idealize.ShloMosaic.Regroup
-- ==== Proof.CountToHist.lean ====
import proofs.«149441_j23536420782150_2_alg».proof.Proof.HistSpec
import proofs.«149441_j23536420782150_2_alg».proof.Proof.LibRegroup

/-!
# From the count over grid points and chunks to the histogram

The program visits `48 = 2 · 24` grid points; point `T` holds channel `T mod 3` of image `T / 3`. At
each point it walks over sixteen chunks of `16384 = 32 · 512` cells, cell `e` of chunk `k` being row
`32 k + e / 512`, column `e mod 512`, and counts the cells whose forward difference falls in bin `B`. The
forward difference along the columns (`dX`) is `X (·, ·, r, q + 1) − X (·, ·, r, q)` for `q < 511` and a
sentinel value at `q = 511`; along the rows (`dY`) likewise with `r`. The sentinel's bin number is `511`,
which is no bin `B < 511`, so the last column (row) contributes nothing, and the count is the histogram
`histX` (`histY`): regroup the points and chunks into images, channels, rows and columns, then drop the
last column (row).
-/

open scoped BigOperators

noncomputable section

namespace Idealize.ShloMosaic.Hist

open Idealize.ShloMosaic Idealize.ShloMosaic.ValueIdx

/-- The forward difference along the columns at point `T`, row `r`, column `q`: the difference of the
    next column and this one for `q < 511`, the sentinel at the last column. (For `T < 48` the image
    number `T / 3 mod 16` is `T / 3`.) -/
def dX (X : Img.Idx → Ideal .f32) (T : ℕ) (r q : Fin 512) : Ideal .f32 :=
  if h : q.val < 511 then
    X (ix4 (⟨T / 3 % 16, Nat.mod_lt _ (by decide)⟩ : Fin 16) (⟨T % 3, Nat.mod_lt _ (by decide)⟩ : Fin 3) r
        ⟨q.val + 1, by omega⟩)
      - X (ix4 (⟨T / 3 % 16, Nat.mod_lt _ (by decide)⟩ : Fin 16) (⟨T % 3, Nat.mod_lt _ (by decide)⟩ : Fin 3) r q)
  else FloatOps.ofBits (F := Ideal) .f32 0xC61C4000#32

/-- The forward difference along the rows at point `T`, row `r`, column `q`: the difference of the next
    row and this one for `r < 511`, the sentinel at the last row. -/
def dY (X : Img.Idx → Ideal .f32) (T : ℕ) (r q : Fin 512) : Ideal .f32 :=
  if h : r.val < 511 then
    X (ix4 (⟨T / 3 % 16, Nat.mod_lt _ (by decide)⟩ : Fin 16) (⟨T % 3, Nat.mod_lt _ (by decide)⟩ : Fin 3)
        ⟨r.val + 1, by omega⟩ q)
      - X (ix4 (⟨T / 3 % 16, Nat.mod_lt _ (by decide)⟩ : Fin 16) (⟨T % 3, Nat.mod_lt _ (by decide)⟩ : Fin 3) r q)
  else FloatOps.ofBits (F := Ideal) .f32 0xC61C4000#32

/-- The contribution of image `b`, channel `ch`, row `r`, column `q` to bin `B` of the count along the
    columns. -/
def termX (X : Img.Idx → Ideal .f32) (B : ℕ) (b : Fin 16) (ch : Fin 3) (r q : Fin 512) : BitVec 32 :=
  if binOf (if h : q.val < 511 then X (ix4 b ch r ⟨q.val + 1, by omega⟩) - X (ix4 b ch r q)
      else FloatOps.ofBits (F := Ideal) .f32 0xC61C4000#32) = BitVec.ofNat 32 B then (1 : BitVec 32) else 0

/-- The contribution of image `b`, channel `ch`, row `r`, column `q` to bin `B` of the count along the
    rows. -/
def termY (X : Img.Idx → Ideal .f32) (B : ℕ) (b : Fin 16) (ch : Fin 3) (r q : Fin 512) : BitVec 32 :=
  if binOf (if h : r.val < 511 then X (ix4 b ch ⟨r.val + 1, by omega⟩ q) - X (ix4 b ch r q)
      else FloatOps.ofBits (F := Ideal) .f32 0xC61C4000#32) = BitVec.ofNat 32 B then (1 : BitVec 32) else 0

/-- At a point `T < 48` the image number `T / 3 mod 16` is `T / 3`. -/
theorem img_fin (T : ℕ) (hT : T < 48) :
    (⟨T / 3 % 16, Nat.mod_lt _ (by decide)⟩ : Fin 16) = ⟨T / 3, by omega⟩ :=
  Fin.ext (Nat.mod_eq_of_lt (by omega))

/-- The summand of the count along the columns at a point `T < 48` is the contribution of image
    `T / 3`, channel `T mod 3`. -/
theorem ind_dX (X : Img.Idx → Ideal .f32) (B T : ℕ) (hT : T < 48) (r q : Fin 512) :
    (if binOf (dX X T r q) = BitVec.ofNat 32 B then (1 : BitVec 32) else 0)
      = termX X B ⟨T / 3, by omega⟩ ⟨T % 3, Nat.mod_lt _ (by decide)⟩ r q := by
  unfold dX termX
  rw [img_fin T hT]

/-- The summand of the count along the rows at a point `T < 48` is the contribution of image `T / 3`,
    channel `T mod 3`. -/
theorem ind_dY (X : Img.Idx → Ideal .f32) (B T : ℕ) (hT : T < 48) (r q : Fin 512) :
    (if binOf (dY X T r q) = BitVec.ofNat 32 B then (1 : BitVec 32) else 0)
      = termY X B ⟨T / 3, by omega⟩ ⟨T % 3, Nat.mod_lt _ (by decide)⟩ r q := by
  unfold dY termY
  rw [img_fin T hT]

/-- The number `511` is no bin `B < 511`. -/
theorem trash_ne (B : ℕ) (hB : B < 511) : ¬ (511#32 = BitVec.ofNat 32 B) := by
  intro h
  have h' := (ofNat_inj_of_lt 511 B (by omega) (by omega)).1 h
  omega

/-- The count along the columns, over the two groups of twenty-four points and the sixteen chunks
    of `16384` cells at each, is the histogram of the differences along the columns. The hypothesis
    `hS` says that the sentinel's bin number is `511`. -/
theorem count_gx (X : Img.Idx → Ideal .f32) (B : ℕ) (hB : B < 511)
    (hS : binOf (FloatOps.ofBits (F := Ideal) .f32 0xC61C4000#32) = 511#32) :
    ∑ c : Fin 2, ∑ s : Fin 24, ∑ k : Fin 16, ∑ e : Fin 16384,
        (if binOf (dX X (24 * c.val + s.val) ⟨32 * k.val + e.val / 512, by omega⟩
            ⟨e.val % 512, Nat.mod_lt _ (by decide)⟩) = BitVec.ofNat 32 B then (1 : BitVec 32) else 0)
      = histX X B := by
  have h1 : ∀ (c : Fin 2) (s : Fin 24) (k : Fin 16) (e : Fin 16384),
      (if binOf (dX X (24 * c.val + s.val) ⟨32 * k.val + e.val / 512, by omega⟩
            ⟨e.val % 512, Nat.mod_lt _ (by decide)⟩) = BitVec.ofNat 32 B then (1 : BitVec 32) else 0)
        = termX X B ⟨(24 * c.val + s.val) / 3, by omega⟩ ⟨(24 * c.val + s.val) % 3, by omega⟩
            ⟨32 * k.val + e.val / 512, by omega⟩ ⟨e.val % 512, by omega⟩ :=
    fun c s k e => ind_dX X B _ (by omega) _ _
  rw [Finset.sum_congr rfl fun c _ => Finset.sum_congr rfl fun s _ => Finset.sum_congr rfl fun k _ =>
    Finset.sum_congr rfl fun e _ => h1 c s k e]
  rw [Regroup.sum_regroup (termX X B)]
  unfold histX
  refine Finset.sum_congr rfl fun b _ => Finset.sum_congr rfl fun ch _ => Finset.sum_congr rfl fun r _ => ?_
  have h2 : ∀ q : Fin 512, termX X B b ch r q = if q.val < 511 then termX X B b ch r q else 0 := by
    intro q
    by_cases hq : q.val < 511
    · rw [if_pos hq]
    · rw [if_neg hq]
      unfold termX
      rw [dif_neg hq, hS, if_neg (trash_ne B hB)]
  rw [Finset.sum_congr rfl fun q _ => h2 q, Regroup.sum_drop_last (fun q => termX X B b ch r q)]
  refine Finset.sum_congr rfl fun q _ => ?_
  unfold termX
  rw [dif_pos (show (⟨q.val, by omega⟩ : Fin 512).val < 511 from q.isLt)]
  rfl

/-- The count along the rows, over the two groups of twenty-four points and the sixteen chunks of
    `16384` cells at each, is the histogram of the differences along the rows. The hypothesis `hS`
    says that the sentinel's bin number is `511`. -/
theorem count_gy (X : Img.Idx → Ideal .f32) (B : ℕ) (hB : B < 511)
    (hS : binOf (FloatOps.ofBits (F := Ideal) .f32 0xC61C4000#32) = 511#32) :
    ∑ c : Fin 2, ∑ s : Fin 24, ∑ k : Fin 16, ∑ e : Fin 16384,
        (if binOf (dY X (24 * c.val + s.val) ⟨32 * k.val + e.val / 512, by omega⟩
            ⟨e.val % 512, Nat.mod_lt _ (by decide)⟩) = BitVec.ofNat 32 B then (1 : BitVec 32) else 0)
      = histY X B := by
  have h1 : ∀ (c : Fin 2) (s : Fin 24) (k : Fin 16) (e : Fin 16384),
      (if binOf (dY X (24 * c.val + s.val) ⟨32 * k.val + e.val / 512, by omega⟩
            ⟨e.val % 512, Nat.mod_lt _ (by decide)⟩) = BitVec.ofNat 32 B then (1 : BitVec 32) else 0)
        = termY X B ⟨(24 * c.val + s.val) / 3, by omega⟩ ⟨(24 * c.val + s.val) % 3, by omega⟩
            ⟨32 * k.val + e.val / 512, by omega⟩ ⟨e.val % 512, by omega⟩ :=
    fun c s k e => ind_dY X B _ (by omega) _ _
  rw [Finset.sum_congr rfl fun c _ => Finset.sum_congr rfl fun s _ => Finset.sum_congr rfl fun k _ =>
    Finset.sum_congr rfl fun e _ => h1 c s k e]
  rw [Regroup.sum_regroup (termY X B)]
  unfold histY
  refine Finset.sum_congr rfl fun b _ => Finset.sum_congr rfl fun ch _ => ?_
  have h2 : ∀ r : Fin 512, (∑ q : Fin 512, termY X B b ch r q)
      = if r.val < 511 then (∑ q : Fin 512, termY X B b ch r q) else 0 := by
    intro r
    by_cases hr : r.val < 511
    · rw [if_pos hr]
    · rw [if_neg hr]
      refine Finset.sum_eq_zero fun q _ => ?_
      unfold termY
      rw [dif_neg hr, hS, if_neg (trash_ne B hB)]
  rw [Finset.sum_congr rfl fun r _ => h2 r,
    Regroup.sum_drop_last (fun r => ∑ q : Fin 512, termY X B b ch r q)]
  refine Finset.sum_congr rfl fun r _ => Finset.sum_congr rfl fun q _ => ?_
  unfold termY
  rw [dif_pos (show (⟨r.val, by omega⟩ : Fin 512).val < 511 from r.isLt)]
  rfl

end Idealize.ShloMosaic.Hist

end
-- ==== Proof.LibCountAlgebra.lean ====
import Mathlib
import Idealize.ShloMosaic.PureOps.Ideal
import proofs.«149441_j23536420782150_2_alg».proof.Proof.LibIndicatorCount

/-!
# Counts carried in the extended reals and read back as 32-bit integers

A natural number `n` is carried in the extended reals as `((n : ℝ) : EReal)`.

* A running total that restarts every `24` steps: if the total at step `n` is `0` plus the count of
  step `n` when `n` is a multiple of `24`, and the previous total plus the count of step `n`
  otherwise, then the total at step `n` is the sum of the counts of the steps
  `24 * (n / 24), …, n`: those of the current group of `24` up to `n`.
* Two such group totals, each a sum of `24` counts of at most `262144 = 16 * 16384`, stay below
  `2 ^ 31`; converted to 32-bit signed integers and added, they are the sum over both groups of
  the counts as 32-bit integers.
* A count assembled from `16` blocks of `16384` cells is at most `262144`, and as a 32-bit integer
  it is the double sum of the 32-bit indicators `1` / `0`.
-/

open scoped BigOperators

namespace Idealize.ShloMosaic.CountAlgebra

open Idealize.ShloMosaic.LibIndicatorCount

/-- A running total restarting every `24` steps is, at step `n`, the sum of the counts of the
    steps of `n`'s group of `24` up to and including `n`. -/
theorem running_sum (N : ℕ) (A : (n : ℕ) → n < N → EReal) (cnt : ℕ → ℕ)
    (h0 : ∀ h, A 0 h = ((0 : ℝ) : EReal) + (((cnt 0 : ℕ) : ℝ) : EReal))
    (hF : ∀ n (h : n + 1 < N), (n + 1) % 24 = 0 →
      A (n + 1) h = ((0 : ℝ) : EReal) + (((cnt (n + 1) : ℕ) : ℝ) : EReal))
    (hS : ∀ n (h : n + 1 < N), ¬(n + 1) % 24 = 0 →
      A (n + 1) h = A n (Nat.lt_of_succ_lt h) + (((cnt (n + 1) : ℕ) : ℝ) : EReal)) :
    ∀ n (h : n < N),
      A n h = (((∑ s ∈ Finset.range (n % 24 + 1), cnt (24 * (n / 24) + s) : ℕ) : ℝ) : EReal) := by
  intro n
  induction n with
  | zero =>
    intro h
    rw [h0 h, EReal.coe_zero, zero_add]
    simp
  | succ n ih =>
    intro h
    by_cases hm : (n + 1) % 24 = 0
    · rw [hF n h hm, hm, EReal.coe_zero, zero_add]
      have e : 24 * ((n + 1) / 24) = n + 1 := by omega
      simp [e]
    · rw [hS n h hm, ih (Nat.lt_of_succ_lt h), natCast_add]
      have h1 : (n + 1) / 24 = n / 24 := by omega
      have h2 : (n + 1) % 24 = n % 24 + 1 := by omega
      have h3 : 24 * (n / 24) + (n % 24 + 1) = n + 1 := by omega
      rw [h1, h2, Finset.sum_range_succ _ (n % 24 + 1), h3]

/-- A sum of `24` counts, each at most `262144`, is below `2 ^ 31`. -/
theorem group_lt (tc : ℕ → ℕ) (hb : ∀ t, tc t ≤ 262144) (c : ℕ) :
    ∑ s ∈ Finset.range 24, tc (24 * c + s) < 2 ^ 31 := by
  calc ∑ s ∈ Finset.range 24, tc (24 * c + s)
      ≤ ∑ _s ∈ Finset.range 24, 262144 := Finset.sum_le_sum fun s _ => hb _
    _ = 24 * 262144 := by simp
    _ < 2 ^ 31 := by norm_num

/-- A sum of `24` counts read as a 32-bit integer is the sum of the counts read as 32-bit
    integers. -/
theorem group_cast (tc : ℕ → ℕ) (c : ℕ) :
    BitVec.ofNat 32 (∑ s ∈ Finset.range 24, tc (24 * c + s))
      = ∑ s : Fin 24, BitVec.ofNat 32 (tc (24 * c + s.val)) := by
  rw [← BitVec.natCast_eq_ofNat, Nat.cast_sum, Finset.sum_range]
  simp only [BitVec.natCast_eq_ofNat]

/-- The totals of the two groups of `24`, converted to 32-bit signed integers and added, are the
    sum over both groups of the counts as 32-bit integers. -/
theorem two_cores (tc : ℕ → ℕ) (hb : ∀ t, tc t ≤ 262144) :
    Ideal.fptosi 32 ((((∑ s ∈ Finset.range 24, tc (24 * 0 + s) : ℕ) : ℝ)) : EReal)
        + Ideal.fptosi 32 ((((∑ s ∈ Finset.range 24, tc (24 * 1 + s) : ℕ) : ℝ)) : EReal)
      = ∑ q : Fin 2, ∑ s : Fin 24, BitVec.ofNat 32 (tc (24 * q.val + s.val)) := by
  rw [fptosi_natCast _ (group_lt tc hb 0), fptosi_natCast _ (group_lt tc hb 1), Fin.sum_univ_two,
    group_cast tc 0, group_cast tc 1]
  rfl

/-- A count assembled from `16` blocks of `16384` cells, as a 32-bit integer, is the double sum of the
    32-bit indicators. -/
theorem blocks_cast (p : ℕ → Fin 16384 → Prop) [∀ k e, Decidable (p k e)] :
    BitVec.ofNat 32 (∑ k ∈ Finset.range 16, (Finset.univ.filter fun e : Fin 16384 => p k e).card)
      = ∑ k : Fin 16, ∑ e : Fin 16384, (if p k.val e then (1 : BitVec 32) else 0) := by
  rw [Finset.sum_range, ← BitVec.natCast_eq_ofNat, Nat.cast_sum]
  refine Finset.sum_congr rfl fun k _ => ?_
  rw [BitVec.natCast_eq_ofNat]
  exact ofNat_card_eq_sum (p k.val)

/-- A count assembled from `16` blocks of `16384` cells is at most `262144`. -/
theorem blocks_le (p : ℕ → Fin 16384 → Prop) [∀ k e, Decidable (p k e)] :
    ∑ k ∈ Finset.range 16, (Finset.univ.filter fun e : Fin 16384 => p k e).card ≤ 262144 := by
  calc ∑ k ∈ Finset.range 16, (Finset.univ.filter fun e : Fin 16384 => p k e).card
      ≤ ∑ _k ∈ Finset.range 16, 16384 := Finset.sum_le_sum fun k _ =>
        (Finset.card_le_univ _).trans (by simp)
    _ = 262144 := by simp

end Idealize.ShloMosaic.CountAlgebra
-- ==== Proof.HostTail.lean ====
import proofs.«149441_j23536420782150_2_alg».proof.KernelIdeal
import proofs.«149441_j23536420782150_2_alg».proof.Proof.Gen.KernelIdeal
import Idealize.ShloMosaic.Lib.Pipeline.Value
import Idealize.ShloMosaic.Lib.ValueIdx
import Idealize.ShloMosaic.PureOps.Reduce
import Idealize.ShloMosaic.PureOps.Ideal.Laws

/-!
# The host's last steps on a pair of histogram blocks

After the region, each of the four results is a pair of `32 × 16` blocks of extended reals, one
block per core. The host converts every entry to a 32-bit integer, adds the two blocks entry by
entry (a reduction over the leading axis, starting from zero), lays the `32 × 16` sums out in a
line of `512` in row-major order, and keeps the first `511`.

This file reads the result at one of the `511` positions `b`: it is the sum, in 32-bit integers, of
the two cores' converted entries at row `b / 16`, column `b % 16`.
-/

noncomputable section

namespace Cert.KernelIdeal.HostTail

open Idealize.ShloMosaic Idealize.ShloMosaic.ValueIdx
open Cert.KernelIdeal.Facts₀ Cert.KernelIdeal.Facts

/-- The host's steps on one pair of blocks: convert to 32-bit integers, add over the leading axis
    from zero, flatten to `512` entries, keep the first `511`. -/
abbrev tail (A : FVec Ideal S2x32x16 .f32) : IVec S511 32 :=
  extractStridedSlice S511 ![0]
    (shapeCast S512
      (Host.reduce IntOp.addi (fptosi 32 A) (constantI S_ 32 0#32) reducesTo_S2x32x16_S32x16_d0 h_S_)
      shapeCasts_S32x16_S512)
    slices_S512_S511_0

/-- A position of the `511`-entry result is below `511`. -/
theorem idx511_lt (b : S511.Idx) : (b 0).val < 511 := (b 0).isLt

/-- The leading axis of the pair of blocks is dropped by the reduction. -/
theorem reduces_pair : S2x32x16.Reduces [0] S32x16 := by decide

/-- Folding 32-bit addition from zero over two terms gives their sum. -/
theorem fold_addi_two (g : Fin 2 → BitVec 32) :
    (Finset.univ : Finset (Fin 2)).fold IntOp.addi 0 g = g 0 + g 1 := by
  have hu : (Finset.univ : Finset (Fin 2)) = insert 0 {1} := by decide
  rw [hu, Finset.fold_insert (by decide), Finset.fold_singleton]
  simp [IntOp.addi]

/-- The result at position `b` is the sum of the two cores' converted entries at row `b / 16`,
    column `b % 16`. -/
theorem tail_apply (A : FVec Ideal S2x32x16 .f32) (b : S511.Idx) :
    tail A b
      = Ideal.fptosi 32 (A (ix3 (0 : Fin 2) ⟨(b 0).val / 16, by have := idx511_lt b; omega⟩
            ⟨(b 0).val % 16, by omega⟩))
        + Ideal.fptosi 32 (A (ix3 (1 : Fin 2) ⟨(b 0).val / 16, by have := idx511_lt b; omega⟩
            ⟨(b 0).val % 16, by omega⟩)) := by
  have hb := idx511_lt b
  -- the kept position in the line of 512, and its row and column in the 32 × 16 block
  let k1 : S512.Idx := ix1 ⟨(b 0).val, by omega⟩
  let k2 : S32x16.Idx := ix2 ⟨(b 0).val / 16, by omega⟩ ⟨(b 0).val % 16, by omega⟩
  unfold tail
  rw [extractStridedSlice_apply (k := k1) (hk := by
    intro a
    match a with
    | ⟨0, _⟩ => simp [k1])]
  rw [shapeCast_apply (k := k2) (hk := by
    rw [Shape.rowMajor_val_two, Shape.rowMajor_val_one]
    simp [k1, k2]
    omega)]
  rw [Host.reduce_eq_fold_single IntOp.addi _ _ reducesTo_S2x32x16_S32x16_d0 reduces_pair h_S_ k2]
  refine Eq.trans (fold_addi_two (fun c : Fin 2 => fptosi 32 A (reduces_pair.lift k2 c))) ?_
  have e0 : reduces_pair.lift k2 (0 : Fin 2)
      = ix3 (0 : Fin 2) ⟨(b 0).val / 16, by omega⟩ ⟨(b 0).val % 16, by omega⟩ := by
    funext c
    match c with
    | ⟨0, _⟩ => rfl
    | ⟨1, _⟩ => rfl
    | ⟨2, _⟩ => rfl
  have e1 : reduces_pair.lift k2 (1 : Fin 2)
      = ix3 (1 : Fin 2) ⟨(b 0).val / 16, by omega⟩ ⟨(b 0).val % 16, by omega⟩ := by
    funext c
    match c with
    | ⟨0, _⟩ => rfl
    | ⟨1, _⟩ => rfl
    | ⟨2, _⟩ => rfl
  rw [e0, e1]
  rfl

end Cert.KernelIdeal.HostTail
-- ==== Proof.KernelCount.lean ====
/-
  The kernel's four results are the histograms of the image gradients.

  At the ideal values a trip of the body's loop adds to entry (h, l) of the carried 32 × 16 array the NUMBER of elements
  of the loaded row block whose bin number is 16 h + l; so the loop leaves a natural number, the grid's accumulation
  adds natural numbers, and the host's conversion to 32-bit integers and its sum over the two cores give the count, as
  a 32-bit word, of all positions of the gradient arrays with that bin number.  The gradient arrays' last column (or
  row) holds the sentinel, whose number is 511 and is no bin; the rest are the differences the histogram is taken of.
-/
import proofs.«149441_j23536420782150_2_alg».proof.Proof.KernelPoints
import proofs.«149441_j23536420782150_2_alg».proof.Proof.OneHot
import proofs.«149441_j23536420782150_2_alg».proof.Proof.GradAt
import proofs.«149441_j23536420782150_2_alg».proof.Proof.InputBlocks
import proofs.«149441_j23536420782150_2_alg».proof.Proof.CountToHist
import proofs.«149441_j23536420782150_2_alg».proof.Proof.LibCountAlgebra
import proofs.«149441_j23536420782150_2_alg».proof.Proof.HostTail
import proofs.«149441_j23536420782150_2_alg».proof.Proof.LibIndicatorCount

set_option maxRecDepth 16384

noncomputable section

open Idealize.ShloMosaic Idealize.ShloMosaic.TcCoe Idealize.SL.Sem Idealize.ShloMosaic.ValueIdx

namespace Cert.KernelIdeal.Count

open Cert.KernelIdeal Cert.KernelIdeal.Gen Cert.KernelIdeal.Body Cert.KernelIdeal.Points Cert.KernelIdeal.OneHot
open Idealize.ShloMosaic.LibIndicatorCount Idealize.ShloMosaic.CountAlgebra

variable (m : (ℓ : Loc nD τ sig) → Buf (Elt Ideal) ℓ)

/-- The number of elements of row block `k` of `G` whose bin number is `B`. -/
def blkCount (G : FVec Ideal S512x512 .f32) (B k : ℕ) : ℕ :=
  (Finset.univ.filter fun e : Fin 16384 =>
    Hist.binOf (chunk G k (ix2 (⟨e.val / 512, by have := e.isLt; omega⟩ : Fin 32) (⟨e.val % 512, Nat.mod_lt _ (by decide)⟩ : Fin 512))) = BitVec.ofNat 32 B).card

/-- After `n` trips entry (h, l) of the carried array is the number of elements of the first `n` row blocks with bin
    number 16 h + l. -/
theorem partialHist_count (G : FVec Ideal S512x512 .f32) (hh : Fin 32) (l : Fin 16) :
    ∀ n : ℕ, partialHist G n (ix2 hh l) = (((∑ k ∈ Finset.range n, blkCount G (16 * hh.val + l.val) k : ℕ) : ℝ) : EReal)
  | 0 => by
    rw [Finset.range_zero, Finset.sum_empty, Nat.cast_zero]
    exact zero_apply hh l
  | n + 1 => by
    show k0_pay23 (partialHist G n) (k0_pay7 (chunk G n)) (k0_pay8 (chunk G n)) (ix2 hh l) = _
    rw [step_count, partialHist_count G hh l n, Finset.sum_range_succ]
    exact natCast_add _ _

/-- The number of elements of the gradient array of point `t` with bin number `B` (zero past the grid). -/
def tileCount (G : Fin cfg0.N → FVec Ideal S512x512 .f32) (B t : ℕ) : ℕ :=
  if h : t < cfg0.N then ∑ k ∈ Finset.range 16, blkCount (G ⟨t, h⟩) B k else 0

theorem tileCount_le (G : Fin cfg0.N → FVec Ideal S512x512 .f32) (B t : ℕ) : tileCount G B t ≤ 262144 := by
  unfold tileCount
  split
  · exact blocks_le _
  · exact Nat.zero_le _

/-- Row block `k` of an array at (a, b) is the array at row 32 k + a. -/
theorem chunk_apply (G : FVec Ideal S512x512 .f32) (k : Fin 16) (a : Fin 32) (b : Fin 512) :
    chunk G k.val (ix2 a b) = G (ix2 (⟨32 * k.val + a.val, by have := k.isLt; have := a.isLt; omega⟩ : Fin 512) b) := by
  unfold chunk
  refine congrArg G (funext fun d => Fin.ext ?_)
  match d with
  | ⟨0, _⟩ =>
    show (32 * k.val + a.val) % 512 = 32 * k.val + a.val
    exact Nat.mod_eq_of_lt (by have := k.isLt; have := a.isLt; omega)
  | ⟨1, _⟩ => rfl

/-! ### Output 2 -/

/-- The gradient array point `t` bins into output 2. -/
abbrev G2 (c : Dev nD) (t : Fin cfg0.N) : FVec Ideal S512x512 .f32 := gradX (img (iblk m c 0 t))

theorem tile2_count (c : Dev nD) (t : Fin cfg0.N) (hh : Fin 32) (l : Fin 16) :
    tile2 m c t (ix2 hh l) = (((tileCount (G2 m c) (16 * hh.val + l.val) t.val : ℕ) : ℝ) : EReal) := by
  unfold tile2 tileCount
  rw [partialHist_count, dif_pos t.isLt]

/-- Entry (h, l) of output 2's block after point `n`: the count over the points of `n`'s core up to `n`. -/
theorem acc2_count (c : Dev nD) (hh : Fin 32) (l : Fin 16) : ∀ (n : ℕ) (h : n < cfg0.N),
    (acc m c n h).1 (ix3 (0 : Fin 1) hh l)
      = (((∑ s ∈ Finset.range (n % 24 + 1), tileCount (G2 m c) (16 * hh.val + l.val) (24 * (n / 24) + s) : ℕ) : ℝ) : EReal) :=
  running_sum (N := cfg0.N) (fun n h => (acc m c n h).1 (ix3 (0 : Fin 1) hh l)) (tileCount (G2 m c) (16 * hh.val + l.val))
    (fun h => by
      show k0_pay24 k0_pay15 (tile2 m c ⟨0, h⟩) (ix3 (0 : Fin 1) hh l) = _
      rw [accOut_apply, zero3_apply, tile2_count])
    (fun n h h0 => by
      show (acc m c (n + 1) h).1 (ix3 (0 : Fin 1) hh l) = _
      rw [acc_succ_first m c n h h0]
      show k0_pay24 k0_pay15 (tile2 m c ⟨n + 1, h⟩) (ix3 (0 : Fin 1) hh l) = _
      rw [accOut_apply, zero3_apply, tile2_count])
    (fun n h h0 => by
      show (acc m c (n + 1) h).1 (ix3 (0 : Fin 1) hh l) = _
      rw [acc_succ_next m c n h h0]
      show k0_pay24 (acc m c n (Nat.lt_of_succ_lt h)).1 (tile2 m c ⟨n + 1, h⟩) (ix3 (0 : Fin 1) hh l) = _
      rw [accOut_apply, tile2_count])

/-- Entry (q, h, l) of output 2's final array: the count over the 24 points of core `q`. -/
theorem final2_count (c : Dev nD) (q : Fin 2) (hh : Fin 32) (l : Fin 16) :
    final2 m c (ix3 q hh l)
      = (((∑ s ∈ Finset.range 24, tileCount (G2 m c) (16 * hh.val + l.val) (24 * q.val + s) : ℕ) : ℝ) : EReal) := by
  have hq : q.val < 2 := q.isLt
  unfold final2
  exact (acc2_count m c hh l (24 * q.val + 23) (lt_N (by omega))).trans
    (by rw [show (24 * q.val + 23) % 24 + 1 = 24 from by omega, show (24 * q.val + 23) / 24 = q.val from by omega])

/-- Result 0: for each bin, the count of the positions of all the gradient arrays with that bin number. -/
theorem result2_count (c : Dev nD) (b : S511.Idx) :
    hostTail (F := Ideal) (final2 m c) b
      = ∑ q : Fin 2, ∑ s : Fin 24, ∑ k : Fin 16, ∑ e : Fin 16384,
          if Hist.binOf (chunk (G2 m c ⟨24 * q.val + s.val, lt_N (by have := q.isLt; have := s.isLt; omega)⟩) k.val
              (ix2 (⟨e.val / 512, by have := e.isLt; omega⟩ : Fin 32) (⟨e.val % 512, Nat.mod_lt _ (by decide)⟩ : Fin 512)))
              = BitVec.ofNat 32 (b 0).val then (1 : BitVec 32) else 0 := by
  have hb : (b 0).val < 511 := HostTail.idx511_lt b
  have hB : 16 * ((b 0).val / 16) + (b 0).val % 16 = (b 0).val := Nat.div_add_mod _ _
  show HostTail.tail (final2 m c) b = _
  rw [HostTail.tail_apply, final2_count m c 0, final2_count m c 1]
  show Ideal.fptosi 32 (((∑ s ∈ Finset.range 24, tileCount (G2 m c) (16 * ((b 0).val / 16) + (b 0).val % 16) (24 * 0 + s) : ℕ) : ℝ) : EReal)
      + Ideal.fptosi 32 (((∑ s ∈ Finset.range 24, tileCount (G2 m c) (16 * ((b 0).val / 16) + (b 0).val % 16) (24 * 1 + s) : ℕ) : ℝ) : EReal) = _
  rw [hB, two_cores _ (tileCount_le (G2 m c) (b 0).val)]
  refine Finset.sum_congr rfl fun q _ => Finset.sum_congr rfl fun s _ => ?_
  have hlt : 24 * q.val + s.val < cfg0.N := lt_N (by have := q.isLt; have := s.isLt; omega)
  unfold tileCount
  rw [dif_pos hlt]
  exact blocks_cast (fun k e => Hist.binOf (chunk (G2 m c ⟨24 * q.val + s.val, hlt⟩) k
    (ix2 (⟨e.val / 512, by have := e.isLt; omega⟩ : Fin 32) (⟨e.val % 512, Nat.mod_lt _ (by decide)⟩ : Fin 512))) = BitVec.ofNat 32 (b 0).val)

/-- The gradient array of point `T` bins the differences of image `T / 3`, channel `T % 3` of argument 0. -/
theorem elem2 (c : Dev nD) (T : ℕ) (hT : T < 48) (r q : Fin 512) :
    G2 m c ⟨T, lt_N hT⟩ (ix2 r q) = Hist.dX (m ((c : Thread nD τ).loc main_arg0)) T r q := by
  show k0_pay30 (k0_pay19 (iblk m c 0 ⟨T, lt_N hT⟩)) (ix2 r q) = _
  rw [GradAt.gradX_apply]
  unfold Hist.dX
  by_cases h : q.val < 511
  · rw [dif_pos h, dif_pos h, GradAt.img_apply, GradAt.img_apply, InputBlocks.iblk0_apply, InputBlocks.iblk0_apply, Hist.img_fin T hT]
  · rw [dif_neg h, dif_neg h]

/-- Result 0 of the kernel is the histogram of the column differences of argument 0. -/
theorem kernel2 (c : Dev nD) (b : S511.Idx) :
    hostTail (F := Ideal) (final2 m c) b = Hist.histX (m ((c : Thread nD τ).loc main_arg0)) (b 0).val := by
  rw [result2_count, ← Hist.count_gx (m ((c : Thread nD τ).loc main_arg0)) (b 0).val (HostTail.idx511_lt b) GradAt.binOf_sentinel]
  refine Finset.sum_congr rfl fun q _ => Finset.sum_congr rfl fun s _ => Finset.sum_congr rfl fun k _ => Finset.sum_congr rfl fun e _ => ?_
  rw [chunk_apply _ k, elem2 m c (24 * q.val + s.val) (by have := q.isLt; have := s.isLt; omega)]

/-! ### Output 3 -/

/-- The gradient array point `t` bins into output 3. -/
abbrev G3 (c : Dev nD) (t : Fin cfg0.N) : FVec Ideal S512x512 .f32 := gradY (img (iblk m c 0 t))

theorem tile3_count (c : Dev nD) (t : Fin cfg0.N) (hh : Fin 32) (l : Fin 16) :
    tile3 m c t (ix2 hh l) = (((tileCount (G3 m c) (16 * hh.val + l.val) t.val : ℕ) : ℝ) : EReal) := by
  unfold tile3 tileCount
  rw [partialHist_count, dif_pos t.isLt]

/-- Entry (h, l) of output 3's block after point `n`: the count over the points of `n`'s core up to `n`. -/
theorem acc3_count (c : Dev nD) (hh : Fin 32) (l : Fin 16) : ∀ (n : ℕ) (h : n < cfg0.N),
    (acc m c n h).2.1 (ix3 (0 : Fin 1) hh l)
      = (((∑ s ∈ Finset.range (n % 24 + 1), tileCount (G3 m c) (16 * hh.val + l.val) (24 * (n / 24) + s) : ℕ) : ℝ) : EReal) :=
  running_sum (N := cfg0.N) (fun n h => (acc m c n h).2.1 (ix3 (0 : Fin 1) hh l)) (tileCount (G3 m c) (16 * hh.val + l.val))
    (fun h => by
      show k0_pay24 k0_pay15 (tile3 m c ⟨0, h⟩) (ix3 (0 : Fin 1) hh l) = _
      rw [accOut_apply, zero3_apply, tile3_count])
    (fun n h h0 => by
      show (acc m c (n + 1) h).2.1 (ix3 (0 : Fin 1) hh l) = _
      rw [acc_succ_first m c n h h0]
      show k0_pay24 k0_pay15 (tile3 m c ⟨n + 1, h⟩) (ix3 (0 : Fin 1) hh l) = _
      rw [accOut_apply, zero3_apply, tile3_count])
    (fun n h h0 => by
      show (acc m c (n + 1) h).2.1 (ix3 (0 : Fin 1) hh l) = _
      rw [acc_succ_next m c n h h0]
      show k0_pay24 (acc m c n (Nat.lt_of_succ_lt h)).2.1 (tile3 m c ⟨n + 1, h⟩) (ix3 (0 : Fin 1) hh l) = _
      rw [accOut_apply, tile3_count])

/-- Entry (q, h, l) of output 3's final array: the count over the 24 points of core `q`. -/
theorem final3_count (c : Dev nD) (q : Fin 2) (hh : Fin 32) (l : Fin 16) :
    final3 m c (ix3 q hh l)
      = (((∑ s ∈ Finset.range 24, tileCount (G3 m c) (16 * hh.val + l.val) (24 * q.val + s) : ℕ) : ℝ) : EReal) := by
  have hq : q.val < 2 := q.isLt
  unfold final3
  exact (acc3_count m c hh l (24 * q.val + 23) (lt_N (by omega))).trans
    (by rw [show (24 * q.val + 23) % 24 + 1 = 24 from by omega, show (24 * q.val + 23) / 24 = q.val from by omega])

/-- Result 1: for each bin, the count of the positions of all the gradient arrays with that bin number. -/
theorem result3_count (c : Dev nD) (b : S511.Idx) :
    hostTail (F := Ideal) (final3 m c) b
      = ∑ q : Fin 2, ∑ s : Fin 24, ∑ k : Fin 16, ∑ e : Fin 16384,
          if Hist.binOf (chunk (G3 m c ⟨24 * q.val + s.val, lt_N (by have := q.isLt; have := s.isLt; omega)⟩) k.val
              (ix2 (⟨e.val / 512, by have := e.isLt; omega⟩ : Fin 32) (⟨e.val % 512, Nat.mod_lt _ (by decide)⟩ : Fin 512)))
              = BitVec.ofNat 32 (b 0).val then (1 : BitVec 32) else 0 := by
  have hb : (b 0).val < 511 := HostTail.idx511_lt b
  have hB : 16 * ((b 0).val / 16) + (b 0).val % 16 = (b 0).val := Nat.div_add_mod _ _
  show HostTail.tail (final3 m c) b = _
  rw [HostTail.tail_apply, final3_count m c 0, final3_count m c 1]
  show Ideal.fptosi 32 (((∑ s ∈ Finset.range 24, tileCount (G3 m c) (16 * ((b 0).val / 16) + (b 0).val % 16) (24 * 0 + s) : ℕ) : ℝ) : EReal)
      + Ideal.fptosi 32 (((∑ s ∈ Finset.range 24, tileCount (G3 m c) (16 * ((b 0).val / 16) + (b 0).val % 16) (24 * 1 + s) : ℕ) : ℝ) : EReal) = _
  rw [hB, two_cores _ (tileCount_le (G3 m c) (b 0).val)]
  refine Finset.sum_congr rfl fun q _ => Finset.sum_congr rfl fun s _ => ?_
  have hlt : 24 * q.val + s.val < cfg0.N := lt_N (by have := q.isLt; have := s.isLt; omega)
  unfold tileCount
  rw [dif_pos hlt]
  exact blocks_cast (fun k e => Hist.binOf (chunk (G3 m c ⟨24 * q.val + s.val, hlt⟩) k
    (ix2 (⟨e.val / 512, by have := e.isLt; omega⟩ : Fin 32) (⟨e.val % 512, Nat.mod_lt _ (by decide)⟩ : Fin 512))) = BitVec.ofNat 32 (b 0).val)

/-- The gradient array of point `T` bins the differences of image `T / 3`, channel `T % 3` of argument 0. -/
theorem elem3 (c : Dev nD) (T : ℕ) (hT : T < 48) (r q : Fin 512) :
    G3 m c ⟨T, lt_N hT⟩ (ix2 r q) = Hist.dY (m ((c : Thread nD τ).loc main_arg0)) T r q := by
  show k0_pay3 (k0_pay19 (iblk m c 0 ⟨T, lt_N hT⟩)) (ix2 r q) = _
  rw [GradAt.gradY_apply]
  unfold Hist.dY
  by_cases h : r.val < 511
  · rw [dif_pos h, dif_pos h, GradAt.img_apply, GradAt.img_apply, InputBlocks.iblk0_apply, InputBlocks.iblk0_apply, Hist.img_fin T hT]
  · rw [dif_neg h, dif_neg h]

/-- Result 1 of the kernel is the histogram of the row differences of argument 0. -/
theorem kernel3 (c : Dev nD) (b : S511.Idx) :
    hostTail (F := Ideal) (final3 m c) b = Hist.histY (m ((c : Thread nD τ).loc main_arg0)) (b 0).val := by
  rw [result3_count, ← Hist.count_gy (m ((c : Thread nD τ).loc main_arg0)) (b 0).val (HostTail.idx511_lt b) GradAt.binOf_sentinel]
  refine Finset.sum_congr rfl fun q _ => Finset.sum_congr rfl fun s _ => Finset.sum_congr rfl fun k _ => Finset.sum_congr rfl fun e _ => ?_
  rw [chunk_apply _ k, elem3 m c (24 * q.val + s.val) (by have := q.isLt; have := s.isLt; omega)]

/-! ### Output 4 -/

/-- The gradient array point `t` bins into output 4. -/
abbrev G4 (c : Dev nD) (t : Fin cfg0.N) : FVec Ideal S512x512 .f32 := gradX (img (iblk m c 1 t))

theorem tile4_count (c : Dev nD) (t : Fin cfg0.N) (hh : Fin 32) (l : Fin 16) :
    tile4 m c t (ix2 hh l) = (((tileCount (G4 m c) (16 * hh.val + l.val) t.val : ℕ) : ℝ) : EReal) := by
  unfold tile4 tileCount
  rw [partialHist_count, dif_pos t.isLt]

/-- Entry (h, l) of output 4's block after point `n`: the count over the points of `n`'s core up to `n`. -/
theorem acc4_count (c : Dev nD) (hh : Fin 32) (l : Fin 16) : ∀ (n : ℕ) (h : n < cfg0.N),
    (acc m c n h).2.2.1 (ix3 (0 : Fin 1) hh l)
      = (((∑ s ∈ Finset.range (n % 24 + 1), tileCount (G4 m c) (16 * hh.val + l.val) (24 * (n / 24) + s) : ℕ) : ℝ) : EReal) :=
  running_sum (N := cfg0.N) (fun n h => (acc m c n h).2.2.1 (ix3 (0 : Fin 1) hh l)) (tileCount (G4 m c) (16 * hh.val + l.val))
    (fun h => by
      show k0_pay24 k0_pay15 (tile4 m c ⟨0, h⟩) (ix3 (0 : Fin 1) hh l) = _
      rw [accOut_apply, zero3_apply, tile4_count])
    (fun n h h0 => by
      show (acc m c (n + 1) h).2.2.1 (ix3 (0 : Fin 1) hh l) = _
      rw [acc_succ_first m c n h h0]
      show k0_pay24 k0_pay15 (tile4 m c ⟨n + 1, h⟩) (ix3 (0 : Fin 1) hh l) = _
      rw [accOut_apply, zero3_apply, tile4_count])
    (fun n h h0 => by
      show (acc m c (n + 1) h).2.2.1 (ix3 (0 : Fin 1) hh l) = _
      rw [acc_succ_next m c n h h0]
      show k0_pay24 (acc m c n (Nat.lt_of_succ_lt h)).2.2.1 (tile4 m c ⟨n + 1, h⟩) (ix3 (0 : Fin 1) hh l) = _
      rw [accOut_apply, tile4_count])

/-- Entry (q, h, l) of output 4's final array: the count over the 24 points of core `q`. -/
theorem final4_count (c : Dev nD) (q : Fin 2) (hh : Fin 32) (l : Fin 16) :
    final4 m c (ix3 q hh l)
      = (((∑ s ∈ Finset.range 24, tileCount (G4 m c) (16 * hh.val + l.val) (24 * q.val + s) : ℕ) : ℝ) : EReal) := by
  have hq : q.val < 2 := q.isLt
  unfold final4
  exact (acc4_count m c hh l (24 * q.val + 23) (lt_N (by omega))).trans
    (by rw [show (24 * q.val + 23) % 24 + 1 = 24 from by omega, show (24 * q.val + 23) / 24 = q.val from by omega])

/-- Result 2: for each bin, the count of the positions of all the gradient arrays with that bin number. -/
theorem result4_count (c : Dev nD) (b : S511.Idx) :
    hostTail (F := Ideal) (final4 m c) b
      = ∑ q : Fin 2, ∑ s : Fin 24, ∑ k : Fin 16, ∑ e : Fin 16384,
          if Hist.binOf (chunk (G4 m c ⟨24 * q.val + s.val, lt_N (by have := q.isLt; have := s.isLt; omega)⟩) k.val
              (ix2 (⟨e.val / 512, by have := e.isLt; omega⟩ : Fin 32) (⟨e.val % 512, Nat.mod_lt _ (by decide)⟩ : Fin 512)))
              = BitVec.ofNat 32 (b 0).val then (1 : BitVec 32) else 0 := by
  have hb : (b 0).val < 511 := HostTail.idx511_lt b
  have hB : 16 * ((b 0).val / 16) + (b 0).val % 16 = (b 0).val := Nat.div_add_mod _ _
  show HostTail.tail (final4 m c) b = _
  rw [HostTail.tail_apply, final4_count m c 0, final4_count m c 1]
  show Ideal.fptosi 32 (((∑ s ∈ Finset.range 24, tileCount (G4 m c) (16 * ((b 0).val / 16) + (b 0).val % 16) (24 * 0 + s) : ℕ) : ℝ) : EReal)
      + Ideal.fptosi 32 (((∑ s ∈ Finset.range 24, tileCount (G4 m c) (16 * ((b 0).val / 16) + (b 0).val % 16) (24 * 1 + s) : ℕ) : ℝ) : EReal) = _
  rw [hB, two_cores _ (tileCount_le (G4 m c) (b 0).val)]
  refine Finset.sum_congr rfl fun q _ => Finset.sum_congr rfl fun s _ => ?_
  have hlt : 24 * q.val + s.val < cfg0.N := lt_N (by have := q.isLt; have := s.isLt; omega)
  unfold tileCount
  rw [dif_pos hlt]
  exact blocks_cast (fun k e => Hist.binOf (chunk (G4 m c ⟨24 * q.val + s.val, hlt⟩) k
    (ix2 (⟨e.val / 512, by have := e.isLt; omega⟩ : Fin 32) (⟨e.val % 512, Nat.mod_lt _ (by decide)⟩ : Fin 512))) = BitVec.ofNat 32 (b 0).val)

/-- The gradient array of point `T` bins the differences of image `T / 3`, channel `T % 3` of argument 1. -/
theorem elem4 (c : Dev nD) (T : ℕ) (hT : T < 48) (r q : Fin 512) :
    G4 m c ⟨T, lt_N hT⟩ (ix2 r q) = Hist.dX (m ((c : Thread nD τ).loc main_arg1)) T r q := by
  show k0_pay30 (k0_pay19 (iblk m c 1 ⟨T, lt_N hT⟩)) (ix2 r q) = _
  rw [GradAt.gradX_apply]
  unfold Hist.dX
  by_cases h : q.val < 511
  · rw [dif_pos h, dif_pos h, GradAt.img_apply, GradAt.img_apply, InputBlocks.iblk1_apply, InputBlocks.iblk1_apply, Hist.img_fin T hT]
  · rw [dif_neg h, dif_neg h]

/-- Result 2 of the kernel is the histogram of the column differences of argument 1. -/
theorem kernel4 (c : Dev nD) (b : S511.Idx) :
    hostTail (F := Ideal) (final4 m c) b = Hist.histX (m ((c : Thread nD τ).loc main_arg1)) (b 0).val := by
  rw [result4_count, ← Hist.count_gx (m ((c : Thread nD τ).loc main_arg1)) (b 0).val (HostTail.idx511_lt b) GradAt.binOf_sentinel]
  refine Finset.sum_congr rfl fun q _ => Finset.sum_congr rfl fun s _ => Finset.sum_congr rfl fun k _ => Finset.sum_congr rfl fun e _ => ?_
  rw [chunk_apply _ k, elem4 m c (24 * q.val + s.val) (by have := q.isLt; have := s.isLt; omega)]

/-! ### Output 5 -/

/-- The gradient array point `t` bins into output 5. -/
abbrev G5 (c : Dev nD) (t : Fin cfg0.N) : FVec Ideal S512x512 .f32 := gradY (img (iblk m c 1 t))

theorem tile5_count (c : Dev nD) (t : Fin cfg0.N) (hh : Fin 32) (l : Fin 16) :
    tile5 m c t (ix2 hh l) = (((tileCount (G5 m c) (16 * hh.val + l.val) t.val : ℕ) : ℝ) : EReal) := by
  unfold tile5 tileCount
  rw [partialHist_count, dif_pos t.isLt]

/-- Entry (h, l) of output 5's block after point `n`: the count over the points of `n`'s core up to `n`. -/
theorem acc5_count (c : Dev nD) (hh : Fin 32) (l : Fin 16) : ∀ (n : ℕ) (h : n < cfg0.N),
    (acc m c n h).2.2.2 (ix3 (0 : Fin 1) hh l)
      = (((∑ s ∈ Finset.range (n % 24 + 1), tileCount (G5 m c) (16 * hh.val + l.val) (24 * (n / 24) + s) : ℕ) : ℝ) : EReal) :=
  running_sum (N := cfg0.N) (fun n h => (acc m c n h).2.2.2 (ix3 (0 : Fin 1) hh l)) (tileCount (G5 m c) (16 * hh.val + l.val))
    (fun h => by
      show k0_pay24 k0_pay15 (tile5 m c ⟨0, h⟩) (ix3 (0 : Fin 1) hh l) = _
      rw [accOut_apply, zero3_apply, tile5_count])
    (fun n h h0 => by
      show (acc m c (n + 1) h).2.2.2 (ix3 (0 : Fin 1) hh l) = _
      rw [acc_succ_first m c n h h0]
      show k0_pay24 k0_pay15 (tile5 m c ⟨n + 1, h⟩) (ix3 (0 : Fin 1) hh l) = _
      rw [accOut_apply, zero3_apply, tile5_count])
    (fun n h h0 => by
      show (acc m c (n + 1) h).2.2.2 (ix3 (0 : Fin 1) hh l) = _
      rw [acc_succ_next m c n h h0]
      show k0_pay24 (acc m c n (Nat.lt_of_succ_lt h)).2.2.2 (tile5 m c ⟨n + 1, h⟩) (ix3 (0 : Fin 1) hh l) = _
      rw [accOut_apply, tile5_count])

/-- Entry (q, h, l) of output 5's final array: the count over the 24 points of core `q`. -/
theorem final5_count (c : Dev nD) (q : Fin 2) (hh : Fin 32) (l : Fin 16) :
    final5 m c (ix3 q hh l)
      = (((∑ s ∈ Finset.range 24, tileCount (G5 m c) (16 * hh.val + l.val) (24 * q.val + s) : ℕ) : ℝ) : EReal) := by
  have hq : q.val < 2 := q.isLt
  unfold final5
  exact (acc5_count m c hh l (24 * q.val + 23) (lt_N (by omega))).trans
    (by rw [show (24 * q.val + 23) % 24 + 1 = 24 from by omega, show (24 * q.val + 23) / 24 = q.val from by omega])

/-- Result 3: for each bin, the count of the positions of all the gradient arrays with that bin number. -/
theorem result5_count (c : Dev nD) (b : S511.Idx) :
    hostTail (F := Ideal) (final5 m c) b
      = ∑ q : Fin 2, ∑ s : Fin 24, ∑ k : Fin 16, ∑ e : Fin 16384,
          if Hist.binOf (chunk (G5 m c ⟨24 * q.val + s.val, lt_N (by have := q.isLt; have := s.isLt; omega)⟩) k.val
              (ix2 (⟨e.val / 512, by have := e.isLt; omega⟩ : Fin 32) (⟨e.val % 512, Nat.mod_lt _ (by decide)⟩ : Fin 512)))
              = BitVec.ofNat 32 (b 0).val then (1 : BitVec 32) else 0 := by
  have hb : (b 0).val < 511 := HostTail.idx511_lt b
  have hB : 16 * ((b 0).val / 16) + (b 0).val % 16 = (b 0).val := Nat.div_add_mod _ _
  show HostTail.tail (final5 m c) b = _
  rw [HostTail.tail_apply, final5_count m c 0, final5_count m c 1]
  show Ideal.fptosi 32 (((∑ s ∈ Finset.range 24, tileCount (G5 m c) (16 * ((b 0).val / 16) + (b 0).val % 16) (24 * 0 + s) : ℕ) : ℝ) : EReal)
      + Ideal.fptosi 32 (((∑ s ∈ Finset.range 24, tileCount (G5 m c) (16 * ((b 0).val / 16) + (b 0).val % 16) (24 * 1 + s) : ℕ) : ℝ) : EReal) = _
  rw [hB, two_cores _ (tileCount_le (G5 m c) (b 0).val)]
  refine Finset.sum_congr rfl fun q _ => Finset.sum_congr rfl fun s _ => ?_
  have hlt : 24 * q.val + s.val < cfg0.N := lt_N (by have := q.isLt; have := s.isLt; omega)
  unfold tileCount
  rw [dif_pos hlt]
  exact blocks_cast (fun k e => Hist.binOf (chunk (G5 m c ⟨24 * q.val + s.val, hlt⟩) k
    (ix2 (⟨e.val / 512, by have := e.isLt; omega⟩ : Fin 32) (⟨e.val % 512, Nat.mod_lt _ (by decide)⟩ : Fin 512))) = BitVec.ofNat 32 (b 0).val)

/-- The gradient array of point `T` bins the differences of image `T / 3`, channel `T % 3` of argument 1. -/
theorem elem5 (c : Dev nD) (T : ℕ) (hT : T < 48) (r q : Fin 512) :
    G5 m c ⟨T, lt_N hT⟩ (ix2 r q) = Hist.dY (m ((c : Thread nD τ).loc main_arg1)) T r q := by
  show k0_pay3 (k0_pay19 (iblk m c 1 ⟨T, lt_N hT⟩)) (ix2 r q) = _
  rw [GradAt.gradY_apply]
  unfold Hist.dY
  by_cases h : r.val < 511
  · rw [dif_pos h, dif_pos h, GradAt.img_apply, GradAt.img_apply, InputBlocks.iblk1_apply, InputBlocks.iblk1_apply, Hist.img_fin T hT]
  · rw [dif_neg h, dif_neg h]

/-- Result 3 of the kernel is the histogram of the row differences of argument 1. -/
theorem kernel5 (c : Dev nD) (b : S511.Idx) :
    hostTail (F := Ideal) (final5 m c) b = Hist.histY (m ((c : Thread nD τ).loc main_arg1)) (b 0).val := by
  rw [result5_count, ← Hist.count_gy (m ((c : Thread nD τ).loc main_arg1)) (b 0).val (HostTail.idx511_lt b) GradAt.binOf_sentinel]
  refine Finset.sum_congr rfl fun q _ => Finset.sum_congr rfl fun s _ => Finset.sum_congr rfl fun k _ => Finset.sum_congr rfl fun e _ => ?_
  rw [chunk_apply _ k, elem5 m c (24 * q.val + s.val) (by have := q.isLt; have := s.isLt; omega)]

end Cert.KernelIdeal.Count

end
-- ==== Proof.LibScatterAdd.lean ====
import Mathlib
import Idealize.ShloMosaic.PureOps.ShapeOps
import Idealize.ShloMosaic.Lib.ValueIdx

/-!
# A scatter whose body is addition is a sum

`Host.scatter d f x idx upd` is a left fold over the update indices in row-major order, each
update index `j` replacing the element at its result index `d.resultIdx? j idx` (when there
is one) by `f` of that element and the update's. When `f` is the addition of an additive
commutative monoid, the element of the result at `i` is the operand's element at `i` plus the
sum of the updates whose result index is `i`:

  `Host.scatter d f x idx upd i = x i + ∑ j, if d.resultIdx? j idx = some i then upd j else 0`.

The proof is an induction on the list of update numbers with the accumulator generalised, then
the bridge from the sum of a list over `List.finRange` to the sum over `Fin`, and last the
re-indexing of that sum along the row-major numbering `u.rowMajor : u.Idx ≃ Fin u.numel`.

## The flat `x.at[idx].add(v)`

For an operand `[B]`, scatter indices `[N, 1]` and updates `[N]`, with no update window axes, the
operand's one axis inserted, the one start component going to that axis and the index vector on
axis `1`, the result index of update `[n]` is the index word `idx [n, 0]` read as a signed
integer, when that lies in `[0, B)`, and the update is dropped otherwise
(`ScatterDims.resultIdx?_addAt`). Hence element `i` of the result is `x i` plus the sum of the
updates `upd [n]` over the `n` with `(idx [n, 0]).toInt = i 0` (`Host.scatter_addAt_eq_sum`,
`Host.scatter_addAt_eq_sum_fin`).
-/

namespace Idealize.ShloMosaic

open scoped BigOperators

section ScatterAdd
variable {s si u : Shape} {α : Type} [AddCommMonoid α] {w : Nat}

/-- The fold of the scatter's step over ANY list `l` of update numbers, from ANY accumulator
    `r`, when the body `f` is addition: at `i` it is `r i` plus the sum, over the list, of the
    updates whose result index is `i`. -/
theorem Host.scatter_foldl_add (d : ScatterDims s si u) (f : α → α → α) (hf : ∀ a b, f a b = a + b)
    (idx : IVec si w) (upd : u.Idx → α) (l : List (Fin u.numel)) (r : s.Idx → α) (i : s.Idx) :
    l.foldl (fun r n =>
        match d.resultIdx? (u.rowMajor.symm n) idx with
        | some i => fun i' => if i' = i then f (r i) (upd (u.rowMajor.symm n)) else r i'
        | none => r) r i
      = r i + (l.map fun n =>
          if d.resultIdx? (u.rowMajor.symm n) idx = some i then upd (u.rowMajor.symm n) else 0).sum := by
  induction l generalizing r with
  | nil => simp
  | cons n l ih =>
    rw [List.foldl_cons, ih, List.map_cons, List.sum_cons, ← add_assoc]
    congr 1
    cases h : d.resultIdx? (u.rowMajor.symm n) idx with
    | none => simp
    | some i0 =>
      by_cases hi : i = i0
      · subst hi; simp [hf]
      · have hi' : ¬ i0 = i := fun h => hi h.symm
        simp [hi, hi']

/-- The scatter with an additive body, as a sum over the update NUMBERS `n : Fin u.numel`
    (update index `u.rowMajor.symm n`). -/
theorem Host.scatter_add_eq_sum_fin (d : ScatterDims s si u) (f : α → α → α) (hf : ∀ a b, f a b = a + b)
    (x : s.Idx → α) (idx : IVec si w) (upd : u.Idx → α) (i : s.Idx) :
    Host.scatter d f x idx upd i
      = x i + ∑ n : Fin u.numel,
          (if d.resultIdx? (u.rowMajor.symm n) idx = some i then upd (u.rowMajor.symm n) else 0) := by
  rw [Fin.sum_univ_def]
  exact Host.scatter_foldl_add d f hf idx upd (List.finRange u.numel) x i

/-- **A scatter whose body is addition is a sum.** The element at `i` of
    `Host.scatter d f x idx upd`, when `f a b = a + b` in an additive commutative monoid, is the
    operand's element `x i` plus the sum of the updates `upd j` over the update indices `j` whose
    result index `d.resultIdx? j idx` is `i` (an update whose result index leaves the operand is
    dropped). -/
theorem Host.scatter_add_eq_sum (d : ScatterDims s si u) (f : α → α → α) (hf : ∀ a b, f a b = a + b)
    (x : s.Idx → α) (idx : IVec si w) (upd : u.Idx → α) (i : s.Idx) :
    Host.scatter d f x idx upd i
      = x i + ∑ j : u.Idx, (if d.resultIdx? j idx = some i then upd j else 0) := by
  rw [Host.scatter_add_eq_sum_fin d f hf]
  congr 1
  exact Equiv.sum_comp u.rowMajor.symm
    (fun j : u.Idx => if d.resultIdx? j idx = some i then upd j else 0)

/-- The instance at 32-bit words: the integer addition `IntOp.addi` is `+` on `BitVec`, so the
    scatter with that body is the sum above, in the commutative ring of `w'`-bit words. -/
theorem Host.scatter_addi_eq_sum {w' : Nat} (d : ScatterDims s si u)
    (x : s.Idx → BitVec w') (idx : IVec si w) (upd : u.Idx → BitVec w') (i : s.Idx) :
    Host.scatter d IntOp.addi x idx upd i
      = x i + ∑ j : u.Idx, (if d.resultIdx? j idx = some i then upd j else 0) :=
  Host.scatter_add_eq_sum d IntOp.addi (fun _ _ => rfl) x idx upd i

end ScatterAdd

section AddAt
variable {B N w : Nat}

/-- The scatter-indices index `[n, 0]` that update index `[n]` reads its one start component at:
    row `n`, column `0` of the `N × 1` array of scatter indices. -/
abbrev addAtIdx (j : (⟨1, ![N]⟩ : Shape).Idx) : (⟨2, ![N, 1]⟩ : Shape).Idx :=
  fun a => match a with | ⟨0, _⟩ => ⟨(j 0).val, (j 0).isLt⟩ | ⟨1, _⟩ => ⟨0, Nat.one_pos⟩

/-- **The result index of `x.at[idx].add(v)` on a flat array.** For an operand `[B]`, scatter
    indices `[N, 1]` and updates `[N]` with no update window axes, the operand's one axis inserted,
    the start component going to that axis and the index vector on axis `1`: update index `j`
    lands at `i` exactly when the index word at row `j 0`, column `0`, read SIGNED, is the
    number `i 0` (a word that is negative or at least `B` drops the update). -/
theorem ScatterDims.resultIdx?_addAt (d : ScatterDims ⟨1, ![B]⟩ ⟨2, ![N, 1]⟩ ⟨1, ![N]⟩)
    (h1 : d.updateWindowDims = []) (h2 : d.insertedWindowDims = [0])
    (h3 : d.scatterDimsToOperandDims = [0]) (h4 : d.indexVectorDim = 1)
    (idx : IVec ⟨2, ![N, 1]⟩ w) (j : (⟨1, ![N]⟩ : Shape).Idx) (i : (⟨1, ![B]⟩ : Shape).Idx) :
    d.resultIdx? j idx = some i ↔ (idx (addAtIdx j)).toInt = ((i 0).val : Int) := by
  obtain ⟨uw, iw, sd, iv, wf⟩ := d
  simp only at h1 h2 h3 h4
  subst h1 h2 h3 h4
  generalize hd : (⟨[], [0], [0], 1, wf⟩ : ScatterDims ⟨1, ![B]⟩ ⟨2, ![N, 1]⟩ ⟨1, ![N]⟩) = d
  have hstart : ∀ a, d.start j idx a = (idx (addAtIdx j)).toInt := by
    intro a
    obtain rfl : a = 0 := Subsingleton.elim _ _
    subst hd
    unfold ScatterDims.start
    rw [dif_pos (List.mem_singleton.mpr rfl)]
    congr 2
    funext b; refine Fin.ext ?_
    match b with
    | ⟨0, _⟩ => rfl
    | ⟨1, _⟩ => rfl
  have hwin : ∀ a, d.window j a = 0 := by
    intro a
    obtain rfl : a = 0 := Subsingleton.elim _ _
    subst hd
    unfold ScatterDims.window
    rw [dif_neg]
    simp [ScatterDims.sKept, Shape.kept]
  have hB : ((i 0).val : Int) < ((⟨1, ![B]⟩ : Shape).size 0 : Nat) := by
    have := (i 0).isLt; omega
  unfold ScatterDims.resultIdx?
  split_ifs with h
  · rw [Option.some.injEq]
    constructor
    · intro e
      have e0 : (d.start j idx 0 + (d.window j 0 : Int)).toNat = (i 0).val :=
        congrArg (fun k : (⟨1, ![B]⟩ : Shape).Idx => (k 0).val) e
      have h0 := h 0
      rw [hstart, hwin] at e0 h0
      omega
    · intro e
      funext a
      obtain rfl : a = 0 := Subsingleton.elim _ _
      refine Fin.ext ?_
      show (d.start j idx 0 + (d.window j 0 : Int)).toNat = (i 0).val
      rw [hstart, hwin]; omega
  · constructor
    · intro e; cases e
    · intro e
      exfalso; apply h
      intro a
      obtain rfl : a = 0 := Subsingleton.elim _ _
      rw [hstart, hwin]
      omega

end AddAt

section AddAtSum
variable {B N w : Nat} {α : Type} [AddCommMonoid α]

open ValueIdx in
/-- A rank-1 index is its one coordinate: the bijection a sum over the update indices `[N]` is
    re-indexed through. -/
def idxEquiv1 : (⟨1, ![N]⟩ : Shape).Idx ≃ Fin N where
  toFun j := j 0
  invFun n := ix1 n
  left_inv j := (eq_ix1 j).symm
  right_inv _ := rfl

open ValueIdx in
/-- The scatter-indices index of update index `[n]` is `[n, 0]`. -/
theorem addAtIdx_ix1 (n : Fin N) : addAtIdx (ix1 n) = ix2 n (0 : Fin 1) := by
  funext a
  match a with
  | ⟨0, _⟩ => rfl
  | ⟨1, _⟩ => rfl

/-- **`x.at[idx].add(v)` on a flat array is a sum over the updates that name the element.** With
    the dimension numbers of `ScatterDims.resultIdx?_addAt` and an additive body, element `i` of
    the result is `x i` plus the sum of the updates `upd j` over the update indices `j` whose index
    word, read signed, is the number `i 0`. -/
theorem Host.scatter_addAt_eq_sum (d : ScatterDims ⟨1, ![B]⟩ ⟨2, ![N, 1]⟩ ⟨1, ![N]⟩)
    (h1 : d.updateWindowDims = []) (h2 : d.insertedWindowDims = [0])
    (h3 : d.scatterDimsToOperandDims = [0]) (h4 : d.indexVectorDim = 1)
    (f : α → α → α) (hf : ∀ a b, f a b = a + b)
    (x : (⟨1, ![B]⟩ : Shape).Idx → α) (idx : IVec ⟨2, ![N, 1]⟩ w) (upd : (⟨1, ![N]⟩ : Shape).Idx → α)
    (i : (⟨1, ![B]⟩ : Shape).Idx) :
    Host.scatter d f x idx upd i
      = x i + ∑ j : (⟨1, ![N]⟩ : Shape).Idx,
          (if (idx (addAtIdx j)).toInt = ((i 0).val : Int) then upd j else 0) := by
  rw [Host.scatter_add_eq_sum d f hf]
  congr 1
  refine Finset.sum_congr rfl fun j _ => ?_
  simp only [ScatterDims.resultIdx?_addAt d h1 h2 h3 h4]

open ValueIdx in
/-- The same sum over the update NUMBERS `n : Fin N`: element `i` of the result is `x i` plus the
    sum of `upd [n]` over the `n` whose index word `idx [n, 0]`, read signed, is `i 0`. -/
theorem Host.scatter_addAt_eq_sum_fin (d : ScatterDims ⟨1, ![B]⟩ ⟨2, ![N, 1]⟩ ⟨1, ![N]⟩)
    (h1 : d.updateWindowDims = []) (h2 : d.insertedWindowDims = [0])
    (h3 : d.scatterDimsToOperandDims = [0]) (h4 : d.indexVectorDim = 1)
    (f : α → α → α) (hf : ∀ a b, f a b = a + b)
    (x : (⟨1, ![B]⟩ : Shape).Idx → α) (idx : IVec ⟨2, ![N, 1]⟩ w) (upd : (⟨1, ![N]⟩ : Shape).Idx → α)
    (i : (⟨1, ![B]⟩ : Shape).Idx) :
    Host.scatter d f x idx upd i
      = x i + ∑ n : Fin N,
          (if (idx (ix2 n (0 : Fin 1))).toInt = ((i 0).val : Int) then upd (ix1 n) else 0) := by
  rw [Host.scatter_addAt_eq_sum d h1 h2 h3 h4 f hf, ← Equiv.sum_comp (idxEquiv1 (N := N)).symm]
  congr 1
  refine Finset.sum_congr rfl fun n _ => ?_
  show (if (idx (addAtIdx (ix1 n))).toInt = ((i 0).val : Int) then upd (ix1 n) else 0) = _
  rw [addAtIdx_ix1]

end AddAtSum

end Idealize.ShloMosaic
-- ==== Proof.RefHist.lean ====
import proofs.«149441_j23536420782150_2_alg».proof.Proof.Gen.ReferenceIdeal.Read
import proofs.«149441_j23536420782150_2_alg».proof.Proof.LibScatterAdd
import proofs.«149441_j23536420782150_2_alg».proof.Proof.HistSpec
import proofs.«149441_j23536420782150_2_alg».proof.Proof.LibRegroup

/-!
# The reference program computes the histograms of the forward differences

The reference program takes two batches of 16 three-channel 512 × 512 images. For each batch it
forms the differences along the last axis (a `16 × 3 × 512 × 511` array) and along the rows (a
`16 × 3 × 511 × 512` array), flattens each to `12558336` values, and for each value `v` computes
an index word — `⌊v⌋ + 255` clipped to `[0, 510]` — and a weight — the range test
`-255 ≤ v ≤ 256` widened to a 32-bit word; then it adds the weights into a vector of `511` zeros at
the index words (a scatter whose body is integer addition).

A scatter with an additive body is a sum: element `b` of the result is the sum of the weights of
the positions whose index word is `b`. For `b < 511` such a term is the indicator that the bin
number `Hist.binOf v` is `b` (a value outside the range has weight `0` and bin number `511`).
The flattening is a bijection of index sets, so the sum over flat positions is the sum over the
positions of the difference array, which is the fourfold sum in `Hist.histX` / `Hist.histY`.

Each of the four results is proved by the same chain: the index word (`v29_eq…`), the weight
(`v24_eq…`), one term (`term…`), the scatter as a sum over flat positions (`…_eq_sum`), the
re-indexing along the reshape (`sum_…`), a difference at a position given by its coordinates
(`…_ix4`), and the result (`ref_…`).
-/

noncomputable section

namespace Cert.ReferenceIdeal.RefHist

open Cert.ReferenceIdeal Cert.ReferenceIdeal.Read Idealize.ShloMosaic Idealize.ShloMosaic.ValueIdx
open scoped BigOperators

/-- An image batch, as the reference takes it for either argument. -/
abbrev ImgVal : Type := (⟨S16x3x512x512, .f32⟩ : BufTy).Contents (Elt Ideal)

/-! ## Differences along the last axis, first image batch -/

/-- The index word at which the reference adds for update `j`: the clipped bin number
    `⌊v⌋ + 255` of the difference `v` at flat position `j`, moved up by `511` when negative. -/
theorem v29_eq_gx (x : ImgVal) (j : S12558336.Idx) :
    val_main_v29 (F := Ideal) x j
      = Hist.refIdx (IntOp.addi (FloatOps.fptosi (F := Ideal) (φ := .f32) 32
          (FloatOps.floor (F := Ideal) (φ := .f32) (val_main_v12 (F := Ideal) x j))) 255#32) := by
  rw [val_main_v29_apply, val_main_v26_apply, val_main_v28_apply, val_main_v22_apply, val_main_v25_apply,
    val_main_v27_apply, val_main_call0_v4_apply, val_main_call0_v2_apply, val_main_call0_v1_apply,
    val_main_v21_apply, val_main_v20_apply, val_main_v19_apply, val_main_v18_apply]
  rfl

/-- The weight the reference adds for update `j`: the range test `-255 ≤ v ≤ 256` of the
    difference `v` at flat position `j`, widened to 32 bits. -/
theorem v24_eq_gx (x : ImgVal) (j : S12558336.Idx) :
    val_main_v24 (F := Ideal) x j
      = (IntOp.andi
          (FloatOps.cmpf (F := Ideal) (φ := .f32) .oge (val_main_v12 (F := Ideal) x j) (FloatOps.ofBits .f32 0xC37F0000#32))
          (FloatOps.cmpf (F := Ideal) (φ := .f32) .ole (val_main_v12 (F := Ideal) x j) (FloatOps.ofBits .f32 0x43800000#32))).setWidth 32 := by
  rw [val_main_v24_apply, val_main_v17_apply, val_main_v14_apply, val_main_v16_apply, val_main_v13_apply,
    val_main_v15_apply]
  rfl

/-- The term update `j` contributes to bin `b < 511` is the indicator that the bin number of the
    difference at flat position `j` is `b`. -/
theorem term_gx (x : ImgVal) (j : S12558336.Idx) (b : ℕ) (hb : b < 511) :
    (if (val_main_v30 (F := Ideal) x (addAtIdx j)).toInt = (b : Int) then val_main_v24 (F := Ideal) x j else 0)
      = if Hist.binOf (val_main_v12 (F := Ideal) x j) = BitVec.ofNat 32 b then 1#32 else 0#32 := by
  have h30 : val_main_v30 (F := Ideal) x (addAtIdx j) = val_main_v29 (F := Ideal) x j := by
    rw [val_main_v30_apply]
    congr 1
    funext a
    match a with
    | ⟨0, _⟩ => rfl
  rw [h30, v29_eq_gx, v24_eq_gx]
  exact Hist.ref_term_eq _ _ b hb

/-- This result of the reference at bin `b`: the number of flat positions `j` whose difference
    has bin number `b`, as a sum of 32-bit ones. -/
theorem gx_eq_sum (x : ImgVal) (b : S511.Idx) :
    val_main_v31 (F := Ideal) x b
      = ∑ j : S12558336.Idx,
          if Hist.binOf (val_main_v12 (F := Ideal) x j) = BitVec.ofNat 32 (b 0).val then 1#32 else 0#32 := by
  unfold val_main_v31
  rw [Host.scatter_addAt_eq_sum (α := BitVec 32) _ rfl rfl rfl rfl IntOp.addi (fun _ _ => rfl)]
  have h23 : val_main_v23 (F := Ideal) b = 0 := by rw [val_main_v23_apply]; rfl
  rw [h23, zero_add]
  refine Finset.sum_congr rfl fun j _ => ?_
  exact term_gx x j (b 0).val (b 0).isLt

/-- A sum over the flat positions of a function of the flattened differences is the sum over
    the positions of the difference array: the reshape is a bijection of indices. -/
theorem sum_gx (x : ImgVal) (g : Ideal .f32 → BitVec 32) :
    ∑ j : S12558336.Idx, g (val_main_v12 (F := Ideal) x j)
      = ∑ p : S16x3x512x511.Idx, g (val_main_v2 (F := Ideal) x p) := by
  unfold val_main_v12 shapeCast
  exact Equiv.sum_comp (Shape.reshapeEquiv _) (fun p => g (val_main_v2 (F := Ideal) x p))

/-- The difference along the last axis at position `(n, ch, r, q)`. -/
theorem diff_gx_ix4 (x : ImgVal) (n : Fin 16) (ch : Fin 3) (r : Fin 512) (q : Fin 511) :
    val_main_v2 (F := Ideal) x (ix4 n ch r q)
      = x (ix4 n ch r ⟨q.val + 1, by omega⟩) - x (ix4 n ch r ⟨q.val, by omega⟩) := by
  rw [val_main_v2_apply, val_main_v0_apply, val_main_v1_apply, Ideal.subf_def]
  congr 2
  · funext a
    refine Fin.ext ?_
    match a with
    | ⟨0, _⟩ => rfl
    | ⟨1, _⟩ => rfl
    | ⟨2, _⟩ => rfl
    | ⟨3, _⟩ => exact Nat.add_comm 1 q.val
  · funext a
    refine Fin.ext ?_
    match a with
    | ⟨0, _⟩ => rfl
    | ⟨1, _⟩ => rfl
    | ⟨2, _⟩ => rfl
    | ⟨3, _⟩ => rfl

/-- **This result of the reference (first batch) is the histogram of the differences along
    the last axis.** -/
theorem ref_gx (x : ImgVal) (b : S511.Idx) :
    val_main_v31 (F := Ideal) x b = Hist.histX x (b 0).val := by
  rw [gx_eq_sum, sum_gx x (fun v => if Hist.binOf v = BitVec.ofNat 32 (b 0).val then 1#32 else 0#32),
    Regroup.sum_idx4]
  unfold Hist.histX
  refine Finset.sum_congr rfl fun n _ => Finset.sum_congr rfl fun ch _ => Finset.sum_congr rfl fun r _ =>
    Finset.sum_congr rfl fun q _ => ?_
  rw [diff_gx_ix4]

/-! ## Differences along the rows, first image batch -/

/-- The index word at which the reference adds for update `j`: the clipped bin number
    `⌊v⌋ + 255` of the difference `v` at flat position `j`, moved up by `511` when negative. -/
theorem v29_eq_gy (x : ImgVal) (j : S12558336.Idx) :
    val_main_v49 (F := Ideal) x j
      = Hist.refIdx (IntOp.addi (FloatOps.fptosi (F := Ideal) (φ := .f32) 32
          (FloatOps.floor (F := Ideal) (φ := .f32) (val_main_v32 (F := Ideal) x j))) 255#32) := by
  rw [val_main_v49_apply, val_main_v46_apply, val_main_v48_apply, val_main_v42_apply, val_main_v45_apply,
    val_main_v47_apply, val_main_call1_v4_apply, val_main_call1_v2_apply, val_main_call1_v1_apply,
    val_main_v41_apply, val_main_v40_apply, val_main_v39_apply, val_main_v38_apply]
  rfl

/-- The weight the reference adds for update `j`: the range test `-255 ≤ v ≤ 256` of the
    difference `v` at flat position `j`, widened to 32 bits. -/
theorem v24_eq_gy (x : ImgVal) (j : S12558336.Idx) :
    val_main_v44 (F := Ideal) x j
      = (IntOp.andi
          (FloatOps.cmpf (F := Ideal) (φ := .f32) .oge (val_main_v32 (F := Ideal) x j) (FloatOps.ofBits .f32 0xC37F0000#32))
          (FloatOps.cmpf (F := Ideal) (φ := .f32) .ole (val_main_v32 (F := Ideal) x j) (FloatOps.ofBits .f32 0x43800000#32))).setWidth 32 := by
  rw [val_main_v44_apply, val_main_v37_apply, val_main_v34_apply, val_main_v36_apply, val_main_v33_apply,
    val_main_v35_apply]
  rfl

/-- The term update `j` contributes to bin `b < 511` is the indicator that the bin number of the
    difference at flat position `j` is `b`. -/
theorem term_gy (x : ImgVal) (j : S12558336.Idx) (b : ℕ) (hb : b < 511) :
    (if (val_main_v50 (F := Ideal) x (addAtIdx j)).toInt = (b : Int) then val_main_v44 (F := Ideal) x j else 0)
      = if Hist.binOf (val_main_v32 (F := Ideal) x j) = BitVec.ofNat 32 b then 1#32 else 0#32 := by
  have h30 : val_main_v50 (F := Ideal) x (addAtIdx j) = val_main_v49 (F := Ideal) x j := by
    rw [val_main_v50_apply]
    congr 1
    funext a
    match a with
    | ⟨0, _⟩ => rfl
  rw [h30, v29_eq_gy, v24_eq_gy]
  exact Hist.ref_term_eq _ _ b hb

/-- This result of the reference at bin `b`: the number of flat positions `j` whose difference
    has bin number `b`, as a sum of 32-bit ones. -/
theorem gy_eq_sum (x : ImgVal) (b : S511.Idx) :
    val_main_v51 (F := Ideal) x b
      = ∑ j : S12558336.Idx,
          if Hist.binOf (val_main_v32 (F := Ideal) x j) = BitVec.ofNat 32 (b 0).val then 1#32 else 0#32 := by
  unfold val_main_v51
  rw [Host.scatter_addAt_eq_sum (α := BitVec 32) _ rfl rfl rfl rfl IntOp.addi (fun _ _ => rfl)]
  have h23 : val_main_v43 (F := Ideal) b = 0 := by rw [val_main_v43_apply]; rfl
  rw [h23, zero_add]
  refine Finset.sum_congr rfl fun j _ => ?_
  exact term_gy x j (b 0).val (b 0).isLt

/-- A sum over the flat positions of a function of the flattened differences is the sum over
    the positions of the difference array: the reshape is a bijection of indices. -/
theorem sum_gy (x : ImgVal) (g : Ideal .f32 → BitVec 32) :
    ∑ j : S12558336.Idx, g (val_main_v32 (F := Ideal) x j)
      = ∑ p : S16x3x511x512.Idx, g (val_main_v5 (F := Ideal) x p) := by
  unfold val_main_v32 shapeCast
  exact Equiv.sum_comp (Shape.reshapeEquiv _) (fun p => g (val_main_v5 (F := Ideal) x p))

/-- The difference along the rows at position `(n, ch, r, q)`. -/
theorem diff_gy_ix4 (x : ImgVal) (n : Fin 16) (ch : Fin 3) (r : Fin 511) (q : Fin 512) :
    val_main_v5 (F := Ideal) x (ix4 n ch r q)
      = x (ix4 n ch ⟨r.val + 1, by omega⟩ q) - x (ix4 n ch ⟨r.val, by omega⟩ q) := by
  rw [val_main_v5_apply, val_main_v3_apply, val_main_v4_apply, Ideal.subf_def]
  congr 2
  · funext a
    refine Fin.ext ?_
    match a with
    | ⟨0, _⟩ => rfl
    | ⟨1, _⟩ => rfl
    | ⟨2, _⟩ => exact Nat.add_comm 1 r.val
    | ⟨3, _⟩ => rfl
  · funext a
    refine Fin.ext ?_
    match a with
    | ⟨0, _⟩ => rfl
    | ⟨1, _⟩ => rfl
    | ⟨2, _⟩ => rfl
    | ⟨3, _⟩ => rfl

/-- **This result of the reference (first batch) is the histogram of the differences along
    the rows.** -/
theorem ref_gy (x : ImgVal) (b : S511.Idx) :
    val_main_v51 (F := Ideal) x b = Hist.histY x (b 0).val := by
  rw [gy_eq_sum, sum_gy x (fun v => if Hist.binOf v = BitVec.ofNat 32 (b 0).val then 1#32 else 0#32),
    Regroup.sum_idx4]
  unfold Hist.histY
  refine Finset.sum_congr rfl fun n _ => Finset.sum_congr rfl fun ch _ => Finset.sum_congr rfl fun r _ =>
    Finset.sum_congr rfl fun q _ => ?_
  rw [diff_gy_ix4]

/-! ## Differences along the last axis, second image batch -/

/-- The index word at which the reference adds for update `j`: the clipped bin number
    `⌊v⌋ + 255` of the difference `v` at flat position `j`, moved up by `511` when negative. -/
theorem v29_eq_gx2 (x : ImgVal) (j : S12558336.Idx) :
    val_main_v69 (F := Ideal) x j
      = Hist.refIdx (IntOp.addi (FloatOps.fptosi (F := Ideal) (φ := .f32) 32
          (FloatOps.floor (F := Ideal) (φ := .f32) (val_main_v52 (F := Ideal) x j))) 255#32) := by
  rw [val_main_v69_apply, val_main_v66_apply, val_main_v68_apply, val_main_v62_apply, val_main_v65_apply,
    val_main_v67_apply, val_main_call2_v4_apply, val_main_call2_v2_apply, val_main_call2_v1_apply,
    val_main_v61_apply, val_main_v60_apply, val_main_v59_apply, val_main_v58_apply]
  rfl

/-- The weight the reference adds for update `j`: the range test `-255 ≤ v ≤ 256` of the
    difference `v` at flat position `j`, widened to 32 bits. -/
theorem v24_eq_gx2 (x : ImgVal) (j : S12558336.Idx) :
    val_main_v64 (F := Ideal) x j
      = (IntOp.andi
          (FloatOps.cmpf (F := Ideal) (φ := .f32) .oge (val_main_v52 (F := Ideal) x j) (FloatOps.ofBits .f32 0xC37F0000#32))
          (FloatOps.cmpf (F := Ideal) (φ := .f32) .ole (val_main_v52 (F := Ideal) x j) (FloatOps.ofBits .f32 0x43800000#32))).setWidth 32 := by
  rw [val_main_v64_apply, val_main_v57_apply, val_main_v54_apply, val_main_v56_apply, val_main_v53_apply,
    val_main_v55_apply]
  rfl

/-- The term update `j` contributes to bin `b < 511` is the indicator that the bin number of the
    difference at flat position `j` is `b`. -/
theorem term_gx2 (x : ImgVal) (j : S12558336.Idx) (b : ℕ) (hb : b < 511) :
    (if (val_main_v70 (F := Ideal) x (addAtIdx j)).toInt = (b : Int) then val_main_v64 (F := Ideal) x j else 0)
      = if Hist.binOf (val_main_v52 (F := Ideal) x j) = BitVec.ofNat 32 b then 1#32 else 0#32 := by
  have h30 : val_main_v70 (F := Ideal) x (addAtIdx j) = val_main_v69 (F := Ideal) x j := by
    rw [val_main_v70_apply]
    congr 1
    funext a
    match a with
    | ⟨0, _⟩ => rfl
  rw [h30, v29_eq_gx2, v24_eq_gx2]
  exact Hist.ref_term_eq _ _ b hb

/-- This result of the reference at bin `b`: the number of flat positions `j` whose difference
    has bin number `b`, as a sum of 32-bit ones. -/
theorem gx2_eq_sum (x : ImgVal) (b : S511.Idx) :
    val_main_v71 (F := Ideal) x b
      = ∑ j : S12558336.Idx,
          if Hist.binOf (val_main_v52 (F := Ideal) x j) = BitVec.ofNat 32 (b 0).val then 1#32 else 0#32 := by
  unfold val_main_v71
  rw [Host.scatter_addAt_eq_sum (α := BitVec 32) _ rfl rfl rfl rfl IntOp.addi (fun _ _ => rfl)]
  have h23 : val_main_v63 (F := Ideal) b = 0 := by rw [val_main_v63_apply]; rfl
  rw [h23, zero_add]
  refine Finset.sum_congr rfl fun j _ => ?_
  exact term_gx2 x j (b 0).val (b 0).isLt

/-- A sum over the flat positions of a function of the flattened differences is the sum over
    the positions of the difference array: the reshape is a bijection of indices. -/
theorem sum_gx2 (x : ImgVal) (g : Ideal .f32 → BitVec 32) :
    ∑ j : S12558336.Idx, g (val_main_v52 (F := Ideal) x j)
      = ∑ p : S16x3x512x511.Idx, g (val_main_v8 (F := Ideal) x p) := by
  unfold val_main_v52 shapeCast
  exact Equiv.sum_comp (Shape.reshapeEquiv _) (fun p => g (val_main_v8 (F := Ideal) x p))

/-- The difference along the last axis at position `(n, ch, r, q)`. -/
theorem diff_gx2_ix4 (x : ImgVal) (n : Fin 16) (ch : Fin 3) (r : Fin 512) (q : Fin 511) :
    val_main_v8 (F := Ideal) x (ix4 n ch r q)
      = x (ix4 n ch r ⟨q.val + 1, by omega⟩) - x (ix4 n ch r ⟨q.val, by omega⟩) := by
  rw [val_main_v8_apply, val_main_v6_apply, val_main_v7_apply, Ideal.subf_def]
  congr 2
  · funext a
    refine Fin.ext ?_
    match a with
    | ⟨0, _⟩ => rfl
    | ⟨1, _⟩ => rfl
    | ⟨2, _⟩ => rfl
    | ⟨3, _⟩ => exact Nat.add_comm 1 q.val
  · funext a
    refine Fin.ext ?_
    match a with
    | ⟨0, _⟩ => rfl
    | ⟨1, _⟩ => rfl
    | ⟨2, _⟩ => rfl
    | ⟨3, _⟩ => rfl

/-- **This result of the reference (second batch) is the histogram of the differences along
    the last axis.** -/
theorem ref_gx2 (x : ImgVal) (b : S511.Idx) :
    val_main_v71 (F := Ideal) x b = Hist.histX x (b 0).val := by
  rw [gx2_eq_sum, sum_gx2 x (fun v => if Hist.binOf v = BitVec.ofNat 32 (b 0).val then 1#32 else 0#32),
    Regroup.sum_idx4]
  unfold Hist.histX
  refine Finset.sum_congr rfl fun n _ => Finset.sum_congr rfl fun ch _ => Finset.sum_congr rfl fun r _ =>
    Finset.sum_congr rfl fun q _ => ?_
  rw [diff_gx2_ix4]

/-! ## Differences along the rows, second image batch -/

/-- The index word at which the reference adds for update `j`: the clipped bin number
    `⌊v⌋ + 255` of the difference `v` at flat position `j`, moved up by `511` when negative. -/
theorem v29_eq_gy2 (x : ImgVal) (j : S12558336.Idx) :
    val_main_v89 (F := Ideal) x j
      = Hist.refIdx (IntOp.addi (FloatOps.fptosi (F := Ideal) (φ := .f32) 32
          (FloatOps.floor (F := Ideal) (φ := .f32) (val_main_v72 (F := Ideal) x j))) 255#32) := by
  rw [val_main_v89_apply, val_main_v86_apply, val_main_v88_apply, val_main_v82_apply, val_main_v85_apply,
    val_main_v87_apply, val_main_call3_v4_apply, val_main_call3_v2_apply, val_main_call3_v1_apply,
    val_main_v81_apply, val_main_v80_apply, val_main_v79_apply, val_main_v78_apply]
  rfl

/-- The weight the reference adds for update `j`: the range test `-255 ≤ v ≤ 256` of the
    difference `v` at flat position `j`, widened to 32 bits. -/
theorem v24_eq_gy2 (x : ImgVal) (j : S12558336.Idx) :
    val_main_v84 (F := Ideal) x j
      = (IntOp.andi
          (FloatOps.cmpf (F := Ideal) (φ := .f32) .oge (val_main_v72 (F := Ideal) x j) (FloatOps.ofBits .f32 0xC37F0000#32))
          (FloatOps.cmpf (F := Ideal) (φ := .f32) .ole (val_main_v72 (F := Ideal) x j) (FloatOps.ofBits .f32 0x43800000#32))).setWidth 32 := by
  rw [val_main_v84_apply, val_main_v77_apply, val_main_v74_apply, val_main_v76_apply, val_main_v73_apply,
    val_main_v75_apply]
  rfl

/-- The term update `j` contributes to bin `b < 511` is the indicator that the bin number of the
    difference at flat position `j` is `b`. -/
theorem term_gy2 (x : ImgVal) (j : S12558336.Idx) (b : ℕ) (hb : b < 511) :
    (if (val_main_v90 (F := Ideal) x (addAtIdx j)).toInt = (b : Int) then val_main_v84 (F := Ideal) x j else 0)
      = if Hist.binOf (val_main_v72 (F := Ideal) x j) = BitVec.ofNat 32 b then 1#32 else 0#32 := by
  have h30 : val_main_v90 (F := Ideal) x (addAtIdx j) = val_main_v89 (F := Ideal) x j := by
    rw [val_main_v90_apply]
    congr 1
    funext a
    match a with
    | ⟨0, _⟩ => rfl
  rw [h30, v29_eq_gy2, v24_eq_gy2]
  exact Hist.ref_term_eq _ _ b hb

/-- This result of the reference at bin `b`: the number of flat positions `j` whose difference
    has bin number `b`, as a sum of 32-bit ones. -/
theorem gy2_eq_sum (x : ImgVal) (b : S511.Idx) :
    val_main_v91 (F := Ideal) x b
      = ∑ j : S12558336.Idx,
          if Hist.binOf (val_main_v72 (F := Ideal) x j) = BitVec.ofNat 32 (b 0).val then 1#32 else 0#32 := by
  unfold val_main_v91
  rw [Host.scatter_addAt_eq_sum (α := BitVec 32) _ rfl rfl rfl rfl IntOp.addi (fun _ _ => rfl)]
  have h23 : val_main_v83 (F := Ideal) b = 0 := by rw [val_main_v83_apply]; rfl
  rw [h23, zero_add]
  refine Finset.sum_congr rfl fun j _ => ?_
  exact term_gy2 x j (b 0).val (b 0).isLt

/-- A sum over the flat positions of a function of the flattened differences is the sum over
    the positions of the difference array: the reshape is a bijection of indices. -/
theorem sum_gy2 (x : ImgVal) (g : Ideal .f32 → BitVec 32) :
    ∑ j : S12558336.Idx, g (val_main_v72 (F := Ideal) x j)
      = ∑ p : S16x3x511x512.Idx, g (val_main_v11 (F := Ideal) x p) := by
  unfold val_main_v72 shapeCast
  exact Equiv.sum_comp (Shape.reshapeEquiv _) (fun p => g (val_main_v11 (F := Ideal) x p))

/-- The difference along the rows at position `(n, ch, r, q)`. -/
theorem diff_gy2_ix4 (x : ImgVal) (n : Fin 16) (ch : Fin 3) (r : Fin 511) (q : Fin 512) :
    val_main_v11 (F := Ideal) x (ix4 n ch r q)
      = x (ix4 n ch ⟨r.val + 1, by omega⟩ q) - x (ix4 n ch ⟨r.val, by omega⟩ q) := by
  rw [val_main_v11_apply, val_main_v9_apply, val_main_v10_apply, Ideal.subf_def]
  congr 2
  · funext a
    refine Fin.ext ?_
    match a with
    | ⟨0, _⟩ => rfl
    | ⟨1, _⟩ => rfl
    | ⟨2, _⟩ => exact Nat.add_comm 1 r.val
    | ⟨3, _⟩ => rfl
  · funext a
    refine Fin.ext ?_
    match a with
    | ⟨0, _⟩ => rfl
    | ⟨1, _⟩ => rfl
    | ⟨2, _⟩ => rfl
    | ⟨3, _⟩ => rfl

/-- **This result of the reference (second batch) is the histogram of the differences along
    the rows.** -/
theorem ref_gy2 (x : ImgVal) (b : S511.Idx) :
    val_main_v91 (F := Ideal) x b = Hist.histY x (b 0).val := by
  rw [gy2_eq_sum, sum_gy2 x (fun v => if Hist.binOf v = BitVec.ofNat 32 (b 0).val then 1#32 else 0#32),
    Regroup.sum_idx4]
  unfold Hist.histY
  refine Finset.sum_congr rfl fun n _ => Finset.sum_congr rfl fun ch _ => Finset.sum_congr rfl fun r _ =>
    Finset.sum_congr rfl fun q _ => ?_
  rw [diff_gy2_ix4]

end Cert.ReferenceIdeal.RefHist

end
-- ==== Proof.Assembly.lean ====
/-
  The value claim: run from memories that agree on the two image batches, the idealized kernel and the idealized
  reference end with equal results — each of the four results is, on both sides, the histogram (`Hist.histX`, `Hist.histY`)
  of the differences of an image batch: the kernel's by counting one-hot products block by block and adding the two
  cores' counts, the reference's by adding each position's mask at its clipped bin number.
-/
import proofs.«149441_j23536420782150_2_alg».proof.Defs
import proofs.«149441_j23536420782150_2_alg».proof.Proof.Gen.Pre_finite_inputs
import proofs.«149441_j23536420782150_2_alg».proof.Proof.Gen.ReferenceIdeal.Run
import proofs.«149441_j23536420782150_2_alg».proof.Proof.Gen.ReferenceIdeal.Read
import proofs.«149441_j23536420782150_2_alg».proof.Proof.KernelCount
import proofs.«149441_j23536420782150_2_alg».proof.Proof.RefHist

set_option maxRecDepth 16384

noncomputable section

namespace Cert.Proof.Assembly

open Idealize.ShloMosaic Idealize.ShloMosaic.TcCoe Idealize.SL.Sem

theorem algebraic : Cert.algebraic_KernelIdeal_ReferenceIdeal := by
  intro m ρ m' ρ' _ hagree
  refine ⟨fun c => Cert.KernelIdeal.Points.hostTail (F := Ideal) (Cert.KernelIdeal.Points.final2 m c),
    fun c => Cert.KernelIdeal.Points.hostTail (F := Ideal) (Cert.KernelIdeal.Points.final3 m c),
    fun c => Cert.KernelIdeal.Points.hostTail (F := Ideal) (Cert.KernelIdeal.Points.final4 m c),
    fun c => Cert.KernelIdeal.Points.hostTail (F := Ideal) (Cert.KernelIdeal.Points.final5 m c),
    Cert.KernelIdeal.Points.run (F := Ideal) m ρ, ?_⟩
  refine (θ_run Cert.ReferenceIdeal.defs _ _).mono (fun _ h c => ?_) (Cert.ReferenceIdeal.Value.run (F := Ideal) m' ρ')
  obtain ⟨h1, h2, h3, h4, ha0, ha1⟩ := h c
  refine ⟨h1.trans ?_, h2.trans ?_, h3.trans ?_, h4.trans ?_, ha0, ha1⟩
  · rw [Cert.ReferenceIdeal.Read.val_main_v31_eq]
    funext b
    rw [Cert.ReferenceIdeal.RefHist.ref_gx, (hagree c).1]
    exact (Cert.KernelIdeal.Count.kernel2 m c b).symm
  · rw [Cert.ReferenceIdeal.Read.val_main_v51_eq]
    funext b
    rw [Cert.ReferenceIdeal.RefHist.ref_gy, (hagree c).1]
    exact (Cert.KernelIdeal.Count.kernel3 m c b).symm
  · rw [Cert.ReferenceIdeal.Read.val_main_v71_eq]
    funext b
    rw [Cert.ReferenceIdeal.RefHist.ref_gx2, (hagree c).2]
    exact (Cert.KernelIdeal.Count.kernel4 m c b).symm
  · rw [Cert.ReferenceIdeal.Read.val_main_v91_eq]
    funext b
    rw [Cert.ReferenceIdeal.RefHist.ref_gy2, (hagree c).2]
    exact (Cert.KernelIdeal.Count.kernel5 m c b).symm

end Cert.Proof.Assembly

end
-- ==== Proof.lean ====
/-
  Histogram of image gradients (forward differences along x and along y of two image batches, binned into the 511 unit
  bins of [-255, 256]) computed blockwise as products of one-hot matrices, against the scatter-add of the masks at the
  clipped bin numbers. The frames of the three programs are the generated ones (the reference's frame is its
  generated run with the results dropped); the idealization rewrote nothing, so that conjunct is trivial; the value
  claim is assembled in `Proof/Assembly.lean`.
-/
import proofs.«149441_j23536420782150_2_alg».proof.Defs
import proofs.«149441_j23536420782150_2_alg».proof.Proof.Gen.Kernel
import proofs.«149441_j23536420782150_2_alg».proof.Proof.Gen.Kernel.Frame
import proofs.«149441_j23536420782150_2_alg».proof.Proof.Gen.KernelIdeal
import proofs.«149441_j23536420782150_2_alg».proof.Proof.Gen.KernelIdeal.Frame
import proofs.«149441_j23536420782150_2_alg».proof.Proof.Gen.ReferenceIdeal
import proofs.«149441_j23536420782150_2_alg».proof.Proof.Gen.Pre_finite_inputs
import proofs.«149441_j23536420782150_2_alg».proof.Proof.Gen.ReferenceIdeal.Run
import proofs.«149441_j23536420782150_2_alg».proof.Proof.Gen.ReferenceIdeal.Read
import proofs.«149441_j23536420782150_2_alg».proof.Proof.Assembly
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Assembly.algebraic⟩

end Cert.Proof

end
